-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4096x4096 .f32) (main_arg1 : FVec F S4096x4096 .f32) (main_arg2 : FVec F S4096x4096 .f32) (main_arg3 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩
abbrev S_ : Shape := ⟨0, ![]⟩
abbrev S4096 : Shape := ⟨1, ![4096]⟩
abbrev S8192 : Shape := ⟨1, ![8192]⟩
abbrev S1 : Shape := ⟨1, ![1]⟩

abbrev nBuf : Space → Nat
  | .hbm => 34
  | .vmem => 21
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .bf16⟩
  | .hbm, ⟨5, _⟩ => ⟨S4096x4096, .bf16⟩
  | .hbm, ⟨6, _⟩ => ⟨S4096x4096, .bf16⟩
  | .hbm, ⟨7, _⟩ => ⟨S4096x4096, .bf16⟩
  | .hbm, ⟨8, _⟩ => ⟨S4096x4096, .bf16⟩
  | .hbm, ⟨9, _⟩ => ⟨S4096x4096, .bf16⟩
  | .hbm, ⟨10, _⟩ => ⟨S4096x4096, .f32⟩
  | .hbm, ⟨11, _⟩ => ⟨S_, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S8192, .f32⟩
  | .hbm, ⟨27, _⟩ => ⟨S8192, .f32⟩
  | .hbm, ⟨28, _⟩ => ⟨S8192, .f32⟩
  | .hbm, ⟨29, _⟩ => ⟨S_, .f32⟩
  | .hbm, ⟨30, _⟩ => ⟨S_, .f32⟩
  | .hbm, ⟨31, _⟩ => ⟨S1, .f32⟩
  | .hbm, ⟨32, _⟩ => ⟨S8192, .f32⟩
  | .hbm, ⟨33, _⟩ => ⟨S8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x2048, .bf16⟩
  | .local _ .vmem, ⟨8, _⟩ => ⟨S1024x2048, .bf16⟩
  | .local _ .vmem, ⟨9, _⟩ => ⟨S2048x1024, .bf16⟩
  | .local _ .vmem, ⟨10, _⟩ => ⟨S2048x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x2048, .bf16⟩
  | .local _ .vmem, ⟨15, _⟩ => ⟨S1024x2048, .bf16⟩
  | .local _ .vmem, ⟨16, _⟩ => ⟨S2048x1024, .bf16⟩
  | .local _ .vmem, ⟨17, _⟩ => ⟨S2048x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 4, 2], ![false, false, false]⟩

def k1_cond2 (i : grid1.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 4, 2], ![false, false, false]⟩

def k2_cond2 (i : grid2.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S1024x1024_S1024x1024_0_0 : (Rect.unit (s := S1024x1024) ![0, 0] S1024x1024.size inb_S1024x1024_S1024x1024_0_0).PackedRows (EltTy.packing .bf16)
  reducesTo_S4096x4096_S4096_d1 : S4096x4096.ReducesTo [1] S4096
  h_S_ : 0 < S_.numel
  bcast_S_S4096 : S_.BroadcastsInDim S4096 (![] : Fin 0 → Fin S4096.rank)
  concatenates_S4096_S4096_S8192_d0 : Shape.Concatenates [S4096, S4096] S8192 0
  reducesTo_S8192_S_d0 : S8192.ReducesTo [0] S_
  bcast_S_S1 : S_.BroadcastsInDim S1 (![] : Fin 0 → Fin S1.rank)
  bcast_S1_S8192_0 : S1.BroadcastsInDim S8192 (![0] : Fin 1 → Fin S8192.rank)
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x4096.size a
  hwx0_0 : ∀ i : grid0.Coords, EltTy.bits .bf16 = 32 ∨ (Rect.block (s := S4096x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S4096x4096.size a
  hwx1_0 : ∀ i : grid1.Coords, EltTy.bits .bf16 = 32 ∨ (Rect.block (s := S4096x4096) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S4096x4096.size a
  hwx1_1 : ∀ i : grid1.Coords, EltTy.bits .bf16 = 32 ∨ (Rect.block (s := S4096x4096) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .bf16 = 32 ∨ (Rect.block (s := S4096x4096) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S4096x4096.size a
  hwx2_0 : ∀ i : grid2.Coords, EltTy.bits .bf16 = 32 ∨ (Rect.block (s := S4096x4096) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1024.size a ≤ S4096x4096.size a
  hwx2_1 : ∀ i : grid2.Coords, EltTy.bits .bf16 = 32 ∨ (Rect.block (s := S4096x4096) S2048x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x4096.size a
  hwx2_2 : ∀ i : grid2.Coords, EltTy.bits .f32 = 32 ∨ (Rect.block (s := S4096x4096) S1024x1024.size (cc2_transform_2 i) (hinb2_2 i)).WholeWords (EltTy.packing .f32)

variable [Facts₀]

def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v2) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v3) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩
abbrev S8192 : Shape := ⟨1, ![8192]⟩
abbrev S1 : Shape := ⟨1, ![1]⟩

abbrev nBuf : Space → Nat
  | .hbm => 33
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S8192, .f32⟩
  | .hbm, ⟨32, _⟩ => ⟨S8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  concatenates_S4096_S4096_S8192_d0 : Shape.Concatenates [S4096, S4096] S8192 0
  reducesTo_S8192_S_d0 : S8192.ReducesTo [0] S_
  bcast_S_S1 : S_.BroadcastsInDim S1 (![] : Fin 0 → Fin S1.rank)
  bcast_S1_S8192_0 : S1.BroadcastsInDim S8192 (![0] : Fin 1 → Fin S8192.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.KI.WholeStore.lean ====
/-
  Two facts about whole-shape rectangles, shared by the three layers.
-/
import Idealize.ShloMosaic.Lib.Pipeline.FrameBody
import Idealize.ShloMosaic.Lib.Pipeline.Value
import proofs.«181803_j65481071399768_2_alg».proof.Proof.Gen.KernelIdeal

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- After any writes whose LAST one goes through the whole-shape rectangle, the buffer reads back as that write's payload,
    whatever it held before and whatever the earlier writes were. -/
theorem read_after_whole_store {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- The whole-shape rectangle's offsets are zero. -/
theorem zeros2 : (![0, 0] : Fin 2 → ℕ) = fun _ => 0 := by funext a; fin_cases a <;> rfl

end Cert.KernelIdeal.Chain

end
-- ==== Proof.KI.Acc0Opening.lean ====
/-
  Layer 0 of the chain, one grid point that OPENS an output block (the contraction's first half, k = 0).
  The kernel keeps a 1024×1024 f32 accumulator in scratch: at k = 0 it is reset to zero, at every point the product of the
  point's two input blocks is added to it, and at k = 1 (the contraction's second half) tanh of it is stored into the
  output block. This module fixes the vocabulary of the layer's two kinds of point and runs the body at the first kind:
  the accumulator ends at  zero + A[i,0]·B[0,j]  (the skeleton's payload of the zero payload and the two blocks), the
  input blocks and the output's staging buffer are handed back untouched.
-/
import proofs.«181803_j65481071399768_2_alg».proof.Proof.KI.WholeStore
import proofs.«181803_j65481071399768_2_alg».proof.Proof.Gen.KernelIdeal.Launch
import proofs.«181803_j65481071399768_2_alg».proof.Proof.Gen.KernelIdeal.Skeleton
import proofs.«181803_j65481071399768_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two kinds of point -/

/-- The point opens a block: its contraction coordinate is 0 (the body's first conditional, the accumulator's reset). -/
abbrev opens0 (i : grid0.Coords) : Prop := (Scalar.cmpi .ne (Scalar.extui (Scalar.cmpi .eq (BitVec.ofNat 32 (i 2).val) 0#32)) 0#32) = 1#1
/-- The point closes a block: its contraction coordinate is 1 (the body's second conditional, the output's store). -/
abbrev closes0 (i : grid0.Coords) : Prop := k0_cond2 i = 1#1

/-- The contraction coordinate runs fastest: the opening points are the even positions, -/
theorem opens0_iff : ∀ t : Fin cfg0.N, opens0 (grid0.coords t) ↔ t.val % 2 = 0 :=
  (by decide +kernel : ∀ t : Fin grid0.N, opens0 (grid0.coords t) ↔ t.val % 2 = 0)
/-- the closing points the odd ones. -/
theorem closes0_iff : ∀ t : Fin cfg0.N, closes0 (grid0.coords t) ↔ t.val % 2 = 1 :=
  (by decide +kernel : ∀ t : Fin grid0.N, closes0 (grid0.coords t) ↔ t.val % 2 = 1)

/-- The input windows are never idle. -/
theorem live0_0 : ∀ t : Fin cfg0.N, cfg0.idle 0 (grid0.coords t) = false := by decide +kernel
theorem live0_1 : ∀ t : Fin cfg0.N, cfg0.idle 1 (grid0.coords t) = false := by decide +kernel
/-- At an opening point the body stores nothing into the output window and the pipeline does not write it back. -/
theorem idle0_2 : ∀ t : Fin cfg0.N, t.val % 2 = 0 → cfg0.idle 2 (grid0.coords t) = true := by decide +kernel
theorem noFlush0_2 : ∀ t : Fin cfg0.N, t.val % 2 = 0 → (cfg0.win 2).flush t = false := by decide +kernel
/-- At a closing point the output window is live. -/
theorem live0_2 : ∀ t : Fin cfg0.N, t.val % 2 = 1 → cfg0.idle 2 (grid0.coords t) = false := by decide +kernel

/-! ## The memrefs the body is called with -/

abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev acc0 : Memref sig .tc .vmem S1024x1024 .f32 := Memref.whole cc0_scratch0

/-- The core's other scoped buffers — the staging buffers and accumulators of the other two layers — each whole at some
    contents: this layer never touches them, the region's invariant carries them from entry to exit. -/
def others0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_scratch0), ((c : Thread nD τ).loc cc1_scratch0) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg2_1), ((c : Thread nD τ).loc cc2_stg2_1) ↦{fullShare} f)
      ∗ (∃ f : Buf (Elt F) ((c : Thread nD τ).loc cc2_scratch0), ((c : Thread nD τ).loc cc2_scratch0) ↦{fullShare} f))

/-- What the region is handed at its entry is the accumulator at some contents, the other scoped buffers, and the
    generator register at some state; -/
theorem restA0_split (c : Dev nD) :
    (Pipeline.ΦA spec0 c : sProp 𝕄) ⊢ iprop((∃ d, owns (c : Thread nD τ) acc0 fullShare d) ∗ others0 c ∗ (∃ r, prngReg c r)) := by
  unfold Pipeline.ΦA; rw [scopedRest0_eq]; simp only [acc0, owns_whole]; unfold others0
  iintro ⟨⟨B0, B1, B2, B3, B4, B5, B6, B7, B8, B9, B10, B11, B12, B13, B14⟩, HP⟩
  isplitl [B0]; · iexact B0
  isplitr [HP]
  · isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact B14
  iexact HP

/-- and the same three make what it gives back at its exit. -/
theorem restA0_join (c : Dev nD) :
    iprop((∃ d, owns (c : Thread nD τ) acc0 fullShare d) ∗ others0 c ∗ (∃ r, prngReg c r)) ⊢ (Pipeline.ΦA spec0 c : sProp 𝕄) := by
  unfold Pipeline.ΦA; rw [scopedRest0_eq]; simp only [acc0, owns_whole]; unfold others0
  iintro ⟨B0, ⟨B1, B2, B3, B4, B5, B6, B7, B8, B9, B10, B11, B12, B13, B14⟩, HP⟩
  isplitr [HP]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact B14
  iexact HP

/-- Whatever the accumulator holds, it, the other scoped buffers and the generator register make what the region gives back. -/
theorem restA0_forget (c : Dev nD) (X : Vec F S1024x1024 .f32) :
    iprop(owns (c : Thread nD τ) acc0 fullShare X ∗ others0 c ∗ (∃ r, prngReg c r)) ⊢ (Pipeline.ΦA spec0 c : sProp 𝕄) := by
  have h : iprop(owns (c : Thread nD τ) acc0 fullShare X ∗ others0 c ∗ (∃ r, prngReg c r))
      ⊢ (iprop((∃ d, owns (c : Thread nD τ) acc0 fullShare d) ∗ others0 c ∗ (∃ r, prngReg c r)) : sProp 𝕄) := by
    iintro ⟨HS, HB, Hg⟩
    isplitl [HS]; · iexists _; iexact HS
    isplitl [HB]; · iexact HB
    iexact Hg
  exact h.trans (restA0_join c)

/-! ## The body at an opening point -/

set_option maxHeartbeats 1000000 in
/-- At an opening point, on whole memrefs — the inputs' at their blocks `x0`, `x1`, the output's at contents `xo` it does
    not touch, the accumulator at anything — the body runs to the continuation holding the same, the accumulator now at the
    zero payload plus the product of the two blocks. -/
theorem run0_opening (c : Dev nD) (i : grid0.Coords) (arg3 : Memref sig .tc .vmem S1024x2048 .bf16) (harg3 : arg3.IsWhole)
    (arg4 : Memref sig .tc .vmem S2048x1024 .bf16) (harg4 : arg4.IsWhole) (arg5 : Memref sig .tc .vmem S1024x1024 .bf16) (harg5 : arg5.IsWhole)
    (arg6 : Memref sig .tc .vmem S1024x1024 .f32) (harg6 : arg6.IsWhole) (ho : opens0 i) (hc : ¬closes0 i)
    (x0 : Vec F S1024x2048 .bf16) (x1 : Vec F S2048x1024 .bf16) (xo : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k0_pay2 (k0_pay1 (F := F)) x0 x1)) -∗ K ⟨⟩))
      ⊢ wp frame (wpE (defs₀ (F := F)) Variants.none c none) E (cc0__matmul_tanh_kernel i arg3 harg3 arg4 harg4 arg5 harg5 arg6 harg6) K := by
  simp only [cc0__matmul_tanh_kernel_eq_skeleton]; unfold cc0__matmul_tanh_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact ho | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  rw [read_after_whole_store _ _ zeros2]
  sl_unfold_run_names
  rw [View.readCov_unit_zero _ zeros2]
  simp only [View.readAt_eq_ld, harg3.read_unread, harg4.read_unread, View.ld_unit_zero (S := S1024x2048) zeros2, View.ld_unit_zero (S := S2048x1024) zeros2, View.ld_unit_zero (S := S1024x1024) zeros2]

end Cert.KernelIdeal.Chain

end
-- ==== Proof.KI.Acc0Closing.lean ====
/-
  Layer 0 of the chain, one grid point that CLOSES an output block (the contraction's second half, k = 1): the accumulator
  arrives holding what the opening point left, the product of this point's two input blocks is added to it, and tanh of
  the sum (narrowed to the output's format) is stored into the output's staging buffer, which is written back after the point.
-/
import proofs.«181803_j65481071399768_2_alg».proof.Proof.KI.Acc0Opening

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a closing point, on whole memrefs — the inputs' at their blocks `x0`, `x1`, the output's at anything, the accumulator
    at the contents `xs` the point before left — the body runs to the continuation holding the inputs' as they were, the
    accumulator at `xs` plus the product of the two blocks, and the output's buffer at the layer's closing payload of that sum. -/
theorem run0_closing (c : Dev nD) (i : grid0.Coords) (arg3 : Memref sig .tc .vmem S1024x2048 .bf16) (harg3 : arg3.IsWhole)
    (arg4 : Memref sig .tc .vmem S2048x1024 .bf16) (harg4 : arg4.IsWhole) (arg5 : Memref sig .tc .vmem S1024x1024 .bf16) (harg5 : arg5.IsWhole)
    (arg6 : Memref sig .tc .vmem S1024x1024 .f32) (harg6 : arg6.IsWhole) (ho : ¬opens0 i) (hc : closes0 i)
    (x0 : Vec F S1024x2048 .bf16) (x1 : Vec F S2048x1024 .bf16) (xs : Vec F S1024x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1
            ∗ owns (c : Thread nD τ) arg5 fullShare (k0_pay3 (k0_pay2 xs x0 x1))
            ∗ owns (c : Thread nD τ) arg6 fullShare (k0_pay2 xs x0 x1)) -∗ K ⟨⟩))
      ⊢ wp frame (wpE (defs₀ (F := F)) Variants.none c none) E (cc0__matmul_tanh_kernel i arg3 harg3 arg4 harg4 arg5 harg5 arg6 harg6) K := by
  simp only [cc0__matmul_tanh_kernel_eq_skeleton]; unfold cc0__matmul_tanh_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact ho | exact hc)
  sl_step
  have hacc : k0_pay2 (View.readAt (Elt F) arg6.view (Rect.unit ![0, 0] S1024x1024.size inb_S1024x1024_S1024x1024_0_0).toLoadRect (harg6.unread xs))
        (View.readAt (Elt F) arg3.view (Rect.unit ![0, 0] S1024x2048.size inb_S1024x2048_S1024x2048_0_0).toLoadRect (harg3.unread x0))
        (View.readAt (Elt F) arg4.view (Rect.unit ![0, 0] S2048x1024.size inb_S2048x1024_S2048x1024_0_0).toLoadRect (harg4.unread x1))
      = k0_pay2 xs x0 x1 := by
    simp only [View.readAt_eq_ld, harg3.read_unread, harg4.read_unread, harg6.read_unread, View.ld_unit_zero (S := S1024x2048) zeros2, View.ld_unit_zero (S := S2048x1024) zeros2, View.ld_unit_zero (S := S1024x1024) zeros2]
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [read_after_whole_store _ _ zeros2, View.readCov_unit_zero _ zeros2, hacc]
  iexists _; isplitr
  swap; · iexact HS
  ipureintro
  sl_unfold_run_names
  rw [read_after_whole_store _ _ zeros2]
  exact hacc

end Cert.KernelIdeal.Chain

end
-- ==== Proof.KI.Region0.lean ====
/-
  Layer 0 of the chain as one pipeline: what every staging buffer and the accumulator hold after each grid point.
  The contraction coordinate runs fastest, so the points come in pairs (2n, 2n+1) working on one output block: after the
  even point the accumulator holds  0 + A[i,0]·B[0,j], after the odd one that plus  A[i,1]·B[1,j], and the odd point
  leaves tanh of it in the output's staging buffer, which the pipeline writes back there and only there. Between points
  the region's invariant is the accumulator at that value beside the core's other scoped buffers; before the first point
  and after the last it is the plain rest the launch deals in.
-/
import proofs.«181803_j65481071399768_2_alg».proof.Proof.KI.Acc0Closing

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator after each point -/

/-- The point before `t` (the opening point of `t`'s pair when `t` closes it). -/
abbrev prev0 (t : Fin cfg0.N) : Fin cfg0.N := ⟨t.val - 1, Nat.lt_of_le_of_lt (Nat.sub_le _ _) t.isLt⟩

/-- What the accumulator holds after point `t`: at an even point the first half-product added to zero; at an odd point
    the second half-product added to what the even point before it left. -/
def accAt0 (c : Dev nD) (t : Fin cfg0.N) : Vec F S1024x1024 .f32 :=
  if t.val % 2 = 0 then k0_pay2 (k0_pay1 (F := F)) (iblk0 V c 0 t) (iblk0 V c 1 t)
  else k0_pay2 (k0_pay2 (k0_pay1 (F := F)) (iblk0 V c 0 (prev0 t)) (iblk0 V c 1 (prev0 t))) (iblk0 V c 0 t) (iblk0 V c 1 t)

theorem accAt0_even (c : Dev nD) (t : Fin cfg0.N) (h : t.val % 2 = 0) :
    accAt0 V c t = k0_pay2 (k0_pay1 (F := F)) (iblk0 V c 0 t) (iblk0 V c 1 t) := if_pos h

theorem accAt0_odd (c : Dev nD) (t : Fin cfg0.N) (h : t.val % 2 = 1) :
    accAt0 V c t = k0_pay2 (accAt0 V c (prev0 t)) (iblk0 V c 0 t) (iblk0 V c 1 t) := by
  have hp : (prev0 t).val % 2 = 0 := by show (t.val - 1) % 2 = 0; omega
  rw [accAt0_even V c (prev0 t) hp]
  exact if_neg (by omega)

/-! ## The region's invariant between points -/

/-- Before position `n`: at the region's entry what the launch hands it; afterwards the accumulator at what the point
    before left, the core's other scoped buffers, and the generator register at some state. -/
def held0 (c : Dev nD) : (n : ℕ) → n ≤ cfg0.N → sProp 𝕄
  | 0, _ => Pipeline.ΦA spec0 c
  | n + 1, hn => iprop(owns (c : Thread nD τ) acc0 fullShare (accAt0 V c ⟨n, hn⟩) ∗ others0 c ∗ (∃ r, prngReg c r))

theorem held0_zero (c : Dev nD) (n : ℕ) (h : n ≤ cfg0.N) (hz : n = 0) : held0 V c n h = Pipeline.ΦA spec0 c := by
  subst hz; rfl

theorem held0_succ (c : Dev nD) (n : ℕ) (hn : n < cfg0.N) :
    held0 V c (n + 1) hn = iprop(owns (c : Thread nD τ) acc0 fullShare (accAt0 V c ⟨n, hn⟩) ∗ others0 c ∗ (∃ r, prngReg c r)) := rfl

theorem held0_pos (c : Dev nD) (n : ℕ) (h : n ≤ cfg0.N) (hz : n ≠ 0) :
    held0 V c n h = iprop(owns (c : Thread nD τ) acc0 fullShare (accAt0 V c ⟨n - 1, by omega⟩) ∗ others0 c ∗ (∃ r, prngReg c r)) := by
  cases n with
  | zero => exact absurd rfl hz
  | succ n => rfl

/-! ## The pipeline's proof data -/

/-- The proof data of layer 0's pipeline on core `c`: the arrays as the region finds them; after the body at point `t`
    each input's buffer at its block, the output's at the closing payload of the accumulator; the invariant `held0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (accAt0 V c t)
  Φ t := held0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := rfl

theorem owed_eq0 (c : Dev nD) (t : Fin (cfg0.N + 1)) : (dat0 V c).owed t = 0 := rfl

theorem recorded_eq0 (c : Dev nD) (t : Fin (cfg0.N + 1)) : (dat0 V c).recorded t = Set.univ := rfl

theorem held0_castSucc (c : Dev nD) (t : Fin cfg0.N) :
    (dat0 V c).Φ t.castSucc = held0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (accAt0 V c t) := by dsimp only [dat0]

/-- At a point that closes a block (odd position: the second half of the contraction) the output window's staging buffer
    holds the layer's payload of the two half-products accumulated from zero. -/
theorem after0_2_closing (c : Dev nD) (t : Fin cfg0.N) (h : t.val % 2 = 1) :
    (dat0 V c).after 2 t = k0_pay3 (k0_pay2 (k0_pay2 (k0_pay1 (F := F)) (iblk0 V c 0 ⟨t.val - 1, Nat.lt_of_le_of_lt (Nat.sub_le _ _) t.isLt⟩) (iblk0 V c 1 ⟨t.val - 1, Nat.lt_of_le_of_lt (Nat.sub_le _ _) t.isLt⟩)) (iblk0 V c 0 t) (iblk0 V c 1 t)) := by
  rw [after0_2]; unfold accAt0; rw [if_neg (by omega)]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The invariant at the two ends and at a point's start -/

/-- What the launch hands the region is the invariant before the first point. -/
theorem hin0 (c : Dev nD) : Pipeline.ΦA spec0 c ⊢ (dat0 V c).Φ 0 := by
  rw [show (dat0 V c).Φ 0 = held0 V c 0 (Nat.zero_le _) from rfl, held0_zero V c 0 _ rfl]
  try exact Idealize.SL.BI.Entails.refl _

/-- Before an even point the accumulator is held at SOME contents (the body resets it), -/
theorem held0_opening (c : Dev nD) (t : Fin cfg0.N) :
    (dat0 V c).Φ t.castSucc ⊢ iprop((∃ d, owns (c : Thread nD τ) acc0 fullShare d) ∗ others0 c ∗ (∃ r, prngReg c r)) := by
  rw [held0_castSucc]
  by_cases hz : t.val = 0
  · rw [held0_zero V c _ _ hz]; exact restA0_split c
  · rw [held0_pos V c _ _ hz]
    iintro ⟨HS, HB, Hg⟩
    isplitl [HS]; · iexists _; iexact HS
    isplitl [HB]; · iexact HB
    iexact Hg

/-- and before an odd point at what the even point before it left. -/
theorem held0_closing (c : Dev nD) (t : Fin cfg0.N) (h : t.val % 2 = 1) :
    (dat0 V c).Φ t.castSucc ⊢ iprop(owns (c : Thread nD τ) acc0 fullShare (accAt0 V c (prev0 t)) ∗ others0 c ∗ (∃ r, prngReg c r)) := by
  rw [held0_castSucc, held0_pos V c _ _ (by omega)]
  try exact Idealize.SL.BI.Entails.refl _

/-- After any point the invariant gives the launch's rest back: the accumulator's contents are forgotten. -/
theorem hout0 (c : Dev nD) : (dat0 V c).Φ (Fin.last cfg0.N) ⊢ Pipeline.ΦA spec0 c := by
  rw [show (dat0 V c).Φ (Fin.last cfg0.N) = held0 V c (Fin.last cfg0.N).val (Nat.le_of_lt_succ (Fin.last cfg0.N).isLt) from rfl,
    held0_pos V c _ _ (by rw [Fin.val_last]; have : cfg0.N = 32 := N_0; omega)]
  exact restA0_forget c _

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the point's parity says which of the two runs applies;
    the invariant hands the body the accumulator (at anything before an even point, at the even point's value before an
    odd one) and takes it back at this point's value; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = held0 V c (t.val + 1) t.isLt from rfl, held0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val % 2 = 0
  · rw [Dat.leavesExact_idle (dat0 V c) 2 t (idle0_2 t h0) (noFlush0_2 t h0)]
    rw [show (⟨t.val, t.isLt⟩ : Fin cfg0.N) = t from rfl, accAt0_even V c t h0]
    iintro ⟨HΦ, Ho, ⟨%d0, H0⟩, ⟨%d1, H1⟩, ⟨%d2, H2⟩⟩
    ihave HQ := (held0_opening V c t) $$ HΦ
    icases HQ with ⟨HS, HB, Hg⟩
    iapply (run0_opening c (grid0.coords t) _ _ _ _ _ _ _ _ ((opens0_iff t).mpr h0) (fun h => by have := (closes0_iff t).mp h; omega)
      (iblk0 V c 0 t) (iblk0 V c 1 t) _ Set.univ _)
    isplitl [H0]; · iexact H0
    isplitl [H1]; · iexact H1
    isplitl [H2]; · iexact H2
    isplitl [HS]; · iexact HS
    iintro ⟨H0, H1, H2, HS⟩
    isplitl [HS HB Hg]
    · isplitl [HS]; · iexact HS
      isplitl [HB]; · iexact HB
      iexact Hg
    isplitl [Ho]; · iexact Ho
    isplitl [H0]; · iexact H0
    isplitl [H1]; · iexact H1
    iexists _; iexact H2
  · have h1 : t.val % 2 = 1 := by omega
    rw [show (dat0 V c).leavesExact 2 t = owns (c : Thread nD τ) (ms0_2 t) fullShare ((dat0 V c).after 2 t) from by
      unfold Dat.leavesExact; rw [live0_2 t h1], after0_2]
    rw [show (⟨t.val, t.isLt⟩ : Fin cfg0.N) = t from rfl, accAt0_odd V c t h1]
    iintro ⟨HΦ, Ho, ⟨%d0, H0⟩, ⟨%d1, H1⟩, ⟨%d2, H2⟩⟩
    ihave HQ := (held0_closing V c t h1) $$ HΦ
    icases HQ with ⟨HS, HB, Hg⟩
    iapply (run0_closing c (grid0.coords t) _ _ _ _ _ _ _ _ (fun h => by have := (opens0_iff t).mp h; omega) ((closes0_iff t).mpr h1)
      (iblk0 V c 0 t) (iblk0 V c 1 t) (accAt0 V c (prev0 t)) Set.univ _)
    isplitl [H0]; · iexact H0
    isplitl [H1]; · iexact H1
    isplitl [H2]; · iexists _; iexact H2
    isplitl [HS]; · iexact HS
    iintro ⟨H0, H1, H2, HS⟩
    isplitl [HS HB Hg]
    · isplitl [HS]; · iexact HS
      isplitl [HB]; · iexact HB
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Chain

end
-- ==== Proof.KI.Acc1Opening.lean ====
/-
  Layer 1 of the chain, one grid point that OPENS an output block (the contraction's first half, k = 0).
  The kernel keeps a 1024×1024 f32 accumulator in scratch: at k = 0 it is reset to zero, at every point the product of the
  point's two input blocks is added to it, and at k = 1 (the contraction's second half) tanh of it is stored into the
  output block. This module fixes the vocabulary of the layer's two kinds of point and runs the body at the first kind:
  the accumulator ends at  zero + A[i,0]·B[0,j]  (the skeleton's payload of the zero payload and the two blocks), the
  input blocks and the output's staging buffer are handed back untouched.
-/
import proofs.«181803_j65481071399768_2_alg».proof.Proof.KI.WholeStore
import proofs.«181803_j65481071399768_2_alg».proof.Proof.Gen.KernelIdeal.Launch
import proofs.«181803_j65481071399768_2_alg».proof.Proof.Gen.KernelIdeal.Skeleton
import proofs.«181803_j65481071399768_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two kinds of point -/

/-- The point opens a block: its contraction coordinate is 0 (the body's first conditional, the accumulator's reset). -/
abbrev opens1 (i : grid1.Coords) : Prop := (Scalar.cmpi .ne (Scalar.extui (Scalar.cmpi .eq (BitVec.ofNat 32 (i 2).val) 0#32)) 0#32) = 1#1
/-- The point closes a block: its contraction coordinate is 1 (the body's second conditional, the output's store). -/
abbrev closes1 (i : grid1.Coords) : Prop := k1_cond2 i = 1#1

/-- The contraction coordinate runs fastest: the opening points are the even positions, -/
theorem opens1_iff : ∀ t : Fin cfg1.N, opens1 (grid1.coords t) ↔ t.val % 2 = 0 :=
  (by decide +kernel : ∀ t : Fin grid1.N, opens1 (grid1.coords t) ↔ t.val % 2 = 0)
/-- the closing points the odd ones. -/
theorem closes1_iff : ∀ t : Fin cfg1.N, closes1 (grid1.coords t) ↔ t.val % 2 = 1 :=
  (by decide +kernel : ∀ t : Fin grid1.N, closes1 (grid1.coords t) ↔ t.val % 2 = 1)

/-- The input windows are never idle. -/
theorem live1_0 : ∀ t : Fin cfg1.N, cfg1.idle 0 (grid1.coords t) = false := by decide +kernel
theorem live1_1 : ∀ t : Fin cfg1.N, cfg1.idle 1 (grid1.coords t) = false := by decide +kernel
/-- At an opening point the body stores nothing into the output window and the pipeline does not write it back. -/
theorem idle1_2 : ∀ t : Fin cfg1.N, t.val % 2 = 0 → cfg1.idle 2 (grid1.coords t) = true := by decide +kernel
theorem noFlush1_2 : ∀ t : Fin cfg1.N, t.val % 2 = 0 → (cfg1.win 2).flush t = false := by decide +kernel
/-- At a closing point the output window is live. -/
theorem live1_2 : ∀ t : Fin cfg1.N, t.val % 2 = 1 → cfg1.idle 2 (grid1.coords t) = false := by decide +kernel

/-! ## The memrefs the body is called with -/

abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev acc1 : Memref sig .tc .vmem S1024x1024 .f32 := Memref.whole cc1_scratch0

/-- The core's other scoped buffers — the staging buffers and accumulators of the other two layers — each whole at some
    contents: this layer never touches them, the region's invariant carries them from entry to exit. -/
def others1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg2_1), ((c : Thread nD τ).loc cc2_stg2_1) ↦{fullShare} f)
      ∗ (∃ f : Buf (Elt F) ((c : Thread nD τ).loc cc2_scratch0), ((c : Thread nD τ).loc cc2_scratch0) ↦{fullShare} f))

/-- What the region is handed at its entry is the accumulator at some contents, the other scoped buffers, and the
    generator register at some state; -/
theorem restA1_split (c : Dev nD) :
    (Pipeline.ΦA spec1 c : sProp 𝕄) ⊢ iprop((∃ d, owns (c : Thread nD τ) acc1 fullShare d) ∗ others1 c ∗ (∃ r, prngReg c r)) := by
  unfold Pipeline.ΦA; rw [scopedRest1_eq]; simp only [acc1, owns_whole]; unfold others1
  iintro ⟨⟨B0, B1, B2, B3, B4, B5, B6, B7, B8, B9, B10, B11, B12, B13, B14⟩, HP⟩
  isplitl [B7]; · iexact B7
  isplitr [HP]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B8]; · iexact B8
    isplitl [B9]; · iexact B9
    isplitl [B10]; · iexact B10
    isplitl [B11]; · iexact B11
    isplitl [B12]; · iexact B12
    isplitl [B13]; · iexact B13
    iexact B14
  iexact HP

/-- and the same three make what it gives back at its exit. -/
theorem restA1_join (c : Dev nD) :
    iprop((∃ d, owns (c : Thread nD τ) acc1 fullShare d) ∗ others1 c ∗ (∃ r, prngReg c r)) ⊢ (Pipeline.ΦA spec1 c : sProp 𝕄) := by
  unfold Pipeline.ΦA; rw [scopedRest1_eq]; simp only [acc1, owns_whole]; unfold others1
  iintro ⟨B7, ⟨B0, B1, B2, B3, B4, B5, B6, B8, B9, B10, B11, B12, B13, B14⟩, HP⟩
  isplitr [HP]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact B14
  iexact HP

/-- Whatever the accumulator holds, it, the other scoped buffers and the generator register make what the region gives back. -/
theorem restA1_forget (c : Dev nD) (X : Vec F S1024x1024 .f32) :
    iprop(owns (c : Thread nD τ) acc1 fullShare X ∗ others1 c ∗ (∃ r, prngReg c r)) ⊢ (Pipeline.ΦA spec1 c : sProp 𝕄) := by
  have h : iprop(owns (c : Thread nD τ) acc1 fullShare X ∗ others1 c ∗ (∃ r, prngReg c r))
      ⊢ (iprop((∃ d, owns (c : Thread nD τ) acc1 fullShare d) ∗ others1 c ∗ (∃ r, prngReg c r)) : sProp 𝕄) := by
    iintro ⟨HS, HB, Hg⟩
    isplitl [HS]; · iexists _; iexact HS
    isplitl [HB]; · iexact HB
    iexact Hg
  exact h.trans (restA1_join c)

/-! ## The body at an opening point -/

set_option maxHeartbeats 1000000 in
/-- At an opening point, on whole memrefs — the inputs' at their blocks `x0`, `x1`, the output's at contents `xo` it does
    not touch, the accumulator at anything — the body runs to the continuation holding the same, the accumulator now at the
    zero payload plus the product of the two blocks. -/
theorem run1_opening (c : Dev nD) (i : grid1.Coords) (arg3 : Memref sig .tc .vmem S1024x2048 .bf16) (harg3 : arg3.IsWhole)
    (arg4 : Memref sig .tc .vmem S2048x1024 .bf16) (harg4 : arg4.IsWhole) (arg5 : Memref sig .tc .vmem S1024x1024 .bf16) (harg5 : arg5.IsWhole)
    (arg6 : Memref sig .tc .vmem S1024x1024 .f32) (harg6 : arg6.IsWhole) (ho : opens1 i) (hc : ¬closes1 i)
    (x0 : Vec F S1024x2048 .bf16) (x1 : Vec F S2048x1024 .bf16) (xo : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k1_pay2 (k1_pay1 (F := F)) x0 x1)) -∗ K ⟨⟩))
      ⊢ wp frame (wpE (defs₀ (F := F)) Variants.none c none) E (cc1__matmul_tanh_kernel i arg3 harg3 arg4 harg4 arg5 harg5 arg6 harg6) K := by
  simp only [cc1__matmul_tanh_kernel_eq_skeleton]; unfold cc1__matmul_tanh_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact ho | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  rw [read_after_whole_store _ _ zeros2]
  sl_unfold_run_names
  rw [View.readCov_unit_zero _ zeros2]
  simp only [View.readAt_eq_ld, harg3.read_unread, harg4.read_unread, View.ld_unit_zero (S := S1024x2048) zeros2, View.ld_unit_zero (S := S2048x1024) zeros2, View.ld_unit_zero (S := S1024x1024) zeros2]

end Cert.KernelIdeal.Chain

end
-- ==== Proof.KI.Acc1Closing.lean ====
/-
  Layer 1 of the chain, one grid point that CLOSES an output block (the contraction's second half, k = 1): the accumulator
  arrives holding what the opening point left, the product of this point's two input blocks is added to it, and tanh of
  the sum (narrowed to the output's format) is stored into the output's staging buffer, which is written back after the point.
-/
import proofs.«181803_j65481071399768_2_alg».proof.Proof.KI.Acc1Opening

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a closing point, on whole memrefs — the inputs' at their blocks `x0`, `x1`, the output's at anything, the accumulator
    at the contents `xs` the point before left — the body runs to the continuation holding the inputs' as they were, the
    accumulator at `xs` plus the product of the two blocks, and the output's buffer at the layer's closing payload of that sum. -/
theorem run1_closing (c : Dev nD) (i : grid1.Coords) (arg3 : Memref sig .tc .vmem S1024x2048 .bf16) (harg3 : arg3.IsWhole)
    (arg4 : Memref sig .tc .vmem S2048x1024 .bf16) (harg4 : arg4.IsWhole) (arg5 : Memref sig .tc .vmem S1024x1024 .bf16) (harg5 : arg5.IsWhole)
    (arg6 : Memref sig .tc .vmem S1024x1024 .f32) (harg6 : arg6.IsWhole) (ho : ¬opens1 i) (hc : closes1 i)
    (x0 : Vec F S1024x2048 .bf16) (x1 : Vec F S2048x1024 .bf16) (xs : Vec F S1024x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1
            ∗ owns (c : Thread nD τ) arg5 fullShare (k1_pay3 (k1_pay2 xs x0 x1))
            ∗ owns (c : Thread nD τ) arg6 fullShare (k1_pay2 xs x0 x1)) -∗ K ⟨⟩))
      ⊢ wp frame (wpE (defs₀ (F := F)) Variants.none c none) E (cc1__matmul_tanh_kernel i arg3 harg3 arg4 harg4 arg5 harg5 arg6 harg6) K := by
  simp only [cc1__matmul_tanh_kernel_eq_skeleton]; unfold cc1__matmul_tanh_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact ho | exact hc)
  sl_step
  have hacc : k1_pay2 (View.readAt (Elt F) arg6.view (Rect.unit ![0, 0] S1024x1024.size inb_S1024x1024_S1024x1024_0_0).toLoadRect (harg6.unread xs))
        (View.readAt (Elt F) arg3.view (Rect.unit ![0, 0] S1024x2048.size inb_S1024x2048_S1024x2048_0_0).toLoadRect (harg3.unread x0))
        (View.readAt (Elt F) arg4.view (Rect.unit ![0, 0] S2048x1024.size inb_S2048x1024_S2048x1024_0_0).toLoadRect (harg4.unread x1))
      = k1_pay2 xs x0 x1 := by
    simp only [View.readAt_eq_ld, harg3.read_unread, harg4.read_unread, harg6.read_unread, View.ld_unit_zero (S := S1024x2048) zeros2, View.ld_unit_zero (S := S2048x1024) zeros2, View.ld_unit_zero (S := S1024x1024) zeros2]
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [read_after_whole_store _ _ zeros2, View.readCov_unit_zero _ zeros2, hacc]
  iexists _; isplitr
  swap; · iexact HS
  ipureintro
  sl_unfold_run_names
  rw [read_after_whole_store _ _ zeros2]
  exact hacc

end Cert.KernelIdeal.Chain

end
-- ==== Proof.KI.Region1.lean ====
/-
  Layer 1 of the chain as one pipeline: what every staging buffer and the accumulator hold after each grid point.
  The contraction coordinate runs fastest, so the points come in pairs (2n, 2n+1) working on one output block: after the
  even point the accumulator holds  0 + A[i,0]·B[0,j], after the odd one that plus  A[i,1]·B[1,j], and the odd point
  leaves tanh of it in the output's staging buffer, which the pipeline writes back there and only there. Between points
  the region's invariant is the accumulator at that value beside the core's other scoped buffers; before the first point
  and after the last it is the plain rest the launch deals in.
-/
import proofs.«181803_j65481071399768_2_alg».proof.Proof.KI.Acc1Closing

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is the entry
    contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator after each point -/

/-- The point before `t` (the opening point of `t`'s pair when `t` closes it). -/
abbrev prev1 (t : Fin cfg1.N) : Fin cfg1.N := ⟨t.val - 1, Nat.lt_of_le_of_lt (Nat.sub_le _ _) t.isLt⟩

/-- What the accumulator holds after point `t`: at an even point the first half-product added to zero; at an odd point
    the second half-product added to what the even point before it left. -/
def accAt1 (c : Dev nD) (t : Fin cfg1.N) : Vec F S1024x1024 .f32 :=
  if t.val % 2 = 0 then k1_pay2 (k1_pay1 (F := F)) (iblk1 V c 0 t) (iblk1 V c 1 t)
  else k1_pay2 (k1_pay2 (k1_pay1 (F := F)) (iblk1 V c 0 (prev1 t)) (iblk1 V c 1 (prev1 t))) (iblk1 V c 0 t) (iblk1 V c 1 t)

theorem accAt1_even (c : Dev nD) (t : Fin cfg1.N) (h : t.val % 2 = 0) :
    accAt1 V c t = k1_pay2 (k1_pay1 (F := F)) (iblk1 V c 0 t) (iblk1 V c 1 t) := if_pos h

theorem accAt1_odd (c : Dev nD) (t : Fin cfg1.N) (h : t.val % 2 = 1) :
    accAt1 V c t = k1_pay2 (accAt1 V c (prev1 t)) (iblk1 V c 0 t) (iblk1 V c 1 t) := by
  have hp : (prev1 t).val % 2 = 0 := by show (t.val - 1) % 2 = 0; omega
  rw [accAt1_even V c (prev1 t) hp]
  exact if_neg (by omega)

/-! ## The region's invariant between points -/

/-- Before position `n`: at the region's entry what the launch hands it; afterwards the accumulator at what the point
    before left, the core's other scoped buffers, and the generator register at some state. -/
def held1 (c : Dev nD) : (n : ℕ) → n ≤ cfg1.N → sProp 𝕄
  | 0, _ => Pipeline.ΦA spec1 c
  | n + 1, hn => iprop(owns (c : Thread nD τ) acc1 fullShare (accAt1 V c ⟨n, hn⟩) ∗ others1 c ∗ (∃ r, prngReg c r))

theorem held1_zero (c : Dev nD) (n : ℕ) (h : n ≤ cfg1.N) (hz : n = 0) : held1 V c n h = Pipeline.ΦA spec1 c := by
  subst hz; rfl

theorem held1_succ (c : Dev nD) (n : ℕ) (hn : n < cfg1.N) :
    held1 V c (n + 1) hn = iprop(owns (c : Thread nD τ) acc1 fullShare (accAt1 V c ⟨n, hn⟩) ∗ others1 c ∗ (∃ r, prngReg c r)) := rfl

theorem held1_pos (c : Dev nD) (n : ℕ) (h : n ≤ cfg1.N) (hz : n ≠ 0) :
    held1 V c n h = iprop(owns (c : Thread nD τ) acc1 fullShare (accAt1 V c ⟨n - 1, by omega⟩) ∗ others1 c ∗ (∃ r, prngReg c r)) := by
  cases n with
  | zero => exact absurd rfl hz
  | succ n => rfl

/-! ## The pipeline's proof data -/

/-- The proof data of layer 1's pipeline on core `c`: the arrays as the region finds them; after the body at point `t`
    each input's buffer at its block, the output's at the closing payload of the accumulator; the invariant `held1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (accAt1 V c t)
  Φ t := held1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := rfl

theorem owed_eq1 (c : Dev nD) (t : Fin (cfg1.N + 1)) : (dat1 V c).owed t = 0 := rfl

theorem recorded_eq1 (c : Dev nD) (t : Fin (cfg1.N + 1)) : (dat1 V c).recorded t = Set.univ := rfl

theorem held1_castSucc (c : Dev nD) (t : Fin cfg1.N) :
    (dat1 V c).Φ t.castSucc = held1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (accAt1 V c t) := by dsimp only [dat1]

/-- At a point that closes a block (odd position: the second half of the contraction) the output window's staging buffer
    holds the layer's payload of the two half-products accumulated from zero. -/
theorem after1_2_closing (c : Dev nD) (t : Fin cfg1.N) (h : t.val % 2 = 1) :
    (dat1 V c).after 2 t = k1_pay3 (k1_pay2 (k1_pay2 (k1_pay1 (F := F)) (iblk1 V c 0 ⟨t.val - 1, Nat.lt_of_le_of_lt (Nat.sub_le _ _) t.isLt⟩) (iblk1 V c 1 ⟨t.val - 1, Nat.lt_of_le_of_lt (Nat.sub_le _ _) t.isLt⟩)) (iblk1 V c 0 t) (iblk1 V c 1 t)) := by
  rw [after1_2]; unfold accAt1; rw [if_neg (by omega)]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The invariant at the two ends and at a point's start -/

/-- What the launch hands the region is the invariant before the first point. -/
theorem hin1 (c : Dev nD) : Pipeline.ΦA spec1 c ⊢ (dat1 V c).Φ 0 := by
  rw [show (dat1 V c).Φ 0 = held1 V c 0 (Nat.zero_le _) from rfl, held1_zero V c 0 _ rfl]
  try exact Idealize.SL.BI.Entails.refl _

/-- Before an even point the accumulator is held at SOME contents (the body resets it), -/
theorem held1_opening (c : Dev nD) (t : Fin cfg1.N) :
    (dat1 V c).Φ t.castSucc ⊢ iprop((∃ d, owns (c : Thread nD τ) acc1 fullShare d) ∗ others1 c ∗ (∃ r, prngReg c r)) := by
  rw [held1_castSucc]
  by_cases hz : t.val = 0
  · rw [held1_zero V c _ _ hz]; exact restA1_split c
  · rw [held1_pos V c _ _ hz]
    iintro ⟨HS, HB, Hg⟩
    isplitl [HS]; · iexists _; iexact HS
    isplitl [HB]; · iexact HB
    iexact Hg

/-- and before an odd point at what the even point before it left. -/
theorem held1_closing (c : Dev nD) (t : Fin cfg1.N) (h : t.val % 2 = 1) :
    (dat1 V c).Φ t.castSucc ⊢ iprop(owns (c : Thread nD τ) acc1 fullShare (accAt1 V c (prev1 t)) ∗ others1 c ∗ (∃ r, prngReg c r)) := by
  rw [held1_castSucc, held1_pos V c _ _ (by omega)]
  try exact Idealize.SL.BI.Entails.refl _

/-- After any point the invariant gives the launch's rest back: the accumulator's contents are forgotten. -/
theorem hout1 (c : Dev nD) : (dat1 V c).Φ (Fin.last cfg1.N) ⊢ Pipeline.ΦA spec1 c := by
  rw [show (dat1 V c).Φ (Fin.last cfg1.N) = held1 V c (Fin.last cfg1.N).val (Nat.le_of_lt_succ (Fin.last cfg1.N).isLt) from rfl,
    held1_pos V c _ _ (by rw [Fin.val_last]; have : cfg1.N = 32 := N_1; omega)]
  exact restA1_forget c _

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the point's parity says which of the two runs applies;
    the invariant hands the body the accumulator (at anything before an even point, at the even point's value before an
    odd one) and takes it back at this point's value; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = held1 V c (t.val + 1) t.isLt from rfl, held1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  by_cases h0 : t.val % 2 = 0
  · rw [Dat.leavesExact_idle (dat1 V c) 2 t (idle1_2 t h0) (noFlush1_2 t h0)]
    rw [show (⟨t.val, t.isLt⟩ : Fin cfg1.N) = t from rfl, accAt1_even V c t h0]
    iintro ⟨HΦ, Ho, ⟨%d0, H0⟩, ⟨%d1, H1⟩, ⟨%d2, H2⟩⟩
    ihave HQ := (held1_opening V c t) $$ HΦ
    icases HQ with ⟨HS, HB, Hg⟩
    iapply (run1_opening c (grid1.coords t) _ _ _ _ _ _ _ _ ((opens1_iff t).mpr h0) (fun h => by have := (closes1_iff t).mp h; omega)
      (iblk1 V c 0 t) (iblk1 V c 1 t) _ Set.univ _)
    isplitl [H0]; · iexact H0
    isplitl [H1]; · iexact H1
    isplitl [H2]; · iexact H2
    isplitl [HS]; · iexact HS
    iintro ⟨H0, H1, H2, HS⟩
    isplitl [HS HB Hg]
    · isplitl [HS]; · iexact HS
      isplitl [HB]; · iexact HB
      iexact Hg
    isplitl [Ho]; · iexact Ho
    isplitl [H0]; · iexact H0
    isplitl [H1]; · iexact H1
    iexists _; iexact H2
  · have h1 : t.val % 2 = 1 := by omega
    rw [show (dat1 V c).leavesExact 2 t = owns (c : Thread nD τ) (ms1_2 t) fullShare ((dat1 V c).after 2 t) from by
      unfold Dat.leavesExact; rw [live1_2 t h1], after1_2]
    rw [show (⟨t.val, t.isLt⟩ : Fin cfg1.N) = t from rfl, accAt1_odd V c t h1]
    iintro ⟨HΦ, Ho, ⟨%d0, H0⟩, ⟨%d1, H1⟩, ⟨%d2, H2⟩⟩
    ihave HQ := (held1_closing V c t h1) $$ HΦ
    icases HQ with ⟨HS, HB, Hg⟩
    iapply (run1_closing c (grid1.coords t) _ _ _ _ _ _ _ _ (fun h => by have := (opens1_iff t).mp h; omega) ((closes1_iff t).mpr h1)
      (iblk1 V c 0 t) (iblk1 V c 1 t) (accAt1 V c (prev1 t)) Set.univ _)
    isplitl [H0]; · iexact H0
    isplitl [H1]; · iexact H1
    isplitl [H2]; · iexists _; iexact H2
    isplitl [HS]; · iexact HS
    iintro ⟨H0, H1, H2, HS⟩
    isplitl [HS HB Hg]
    · isplitl [HS]; · iexact HS
      isplitl [HB]; · iexact HB
      iexact Hg
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Chain

end
-- ==== Proof.KI.Acc2Opening.lean ====
/-
  Layer 2 of the chain, one grid point that OPENS an output block (the contraction's first half, k = 0).
  The kernel keeps a 1024×1024 f32 accumulator in scratch: at k = 0 it is reset to zero, at every point the product of the
  point's two input blocks is added to it, and at k = 1 (the contraction's second half) tanh of it is stored into the
  output block. This module fixes the vocabulary of the layer's two kinds of point and runs the body at the first kind:
  the accumulator ends at  zero + A[i,0]·B[0,j]  (the skeleton's payload of the zero payload and the two blocks), the
  input blocks and the output's staging buffer are handed back untouched.
-/
import proofs.«181803_j65481071399768_2_alg».proof.Proof.KI.WholeStore
import proofs.«181803_j65481071399768_2_alg».proof.Proof.Gen.KernelIdeal.Launch
import proofs.«181803_j65481071399768_2_alg».proof.Proof.Gen.KernelIdeal.Skeleton
import proofs.«181803_j65481071399768_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two kinds of point -/

/-- The point opens a block: its contraction coordinate is 0 (the body's first conditional, the accumulator's reset). -/
abbrev opens2 (i : grid2.Coords) : Prop := (Scalar.cmpi .ne (Scalar.extui (Scalar.cmpi .eq (BitVec.ofNat 32 (i 2).val) 0#32)) 0#32) = 1#1
/-- The point closes a block: its contraction coordinate is 1 (the body's second conditional, the output's store). -/
abbrev closes2 (i : grid2.Coords) : Prop := k2_cond2 i = 1#1

/-- The contraction coordinate runs fastest: the opening points are the even positions, -/
theorem opens2_iff : ∀ t : Fin cfg2.N, opens2 (grid2.coords t) ↔ t.val % 2 = 0 :=
  (by decide +kernel : ∀ t : Fin grid2.N, opens2 (grid2.coords t) ↔ t.val % 2 = 0)
/-- the closing points the odd ones. -/
theorem closes2_iff : ∀ t : Fin cfg2.N, closes2 (grid2.coords t) ↔ t.val % 2 = 1 :=
  (by decide +kernel : ∀ t : Fin grid2.N, closes2 (grid2.coords t) ↔ t.val % 2 = 1)

/-- The input windows are never idle. -/
theorem live2_0 : ∀ t : Fin cfg2.N, cfg2.idle 0 (grid2.coords t) = false := by decide +kernel
theorem live2_1 : ∀ t : Fin cfg2.N, cfg2.idle 1 (grid2.coords t) = false := by decide +kernel
/-- At an opening point the body stores nothing into the output window and the pipeline does not write it back. -/
theorem idle2_2 : ∀ t : Fin cfg2.N, t.val % 2 = 0 → cfg2.idle 2 (grid2.coords t) = true := by decide +kernel
theorem noFlush2_2 : ∀ t : Fin cfg2.N, t.val % 2 = 0 → (cfg2.win 2).flush t = false := by decide +kernel
/-- At a closing point the output window is live. -/
theorem live2_2 : ∀ t : Fin cfg2.N, t.val % 2 = 1 → cfg2.idle 2 (grid2.coords t) = false := by decide +kernel

/-! ## The memrefs the body is called with -/

abbrev ms2_0 (t : Fin cfg2.N) : Memref sig .tc .vmem S1024x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev acc2 : Memref sig .tc .vmem S1024x1024 .f32 := Memref.whole cc2_scratch0

/-- The core's other scoped buffers — the staging buffers and accumulators of the other two layers — each whole at some
    contents: this layer never touches them, the region's invariant carries them from entry to exit. -/
def others2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_scratch0), ((c : Thread nD τ).loc cc1_scratch0) ↦{fullShare} f))

/-- What the region is handed at its entry is the accumulator at some contents, the other scoped buffers, and the
    generator register at some state; -/
theorem restA2_split (c : Dev nD) :
    (Pipeline.ΦA spec2 c : sProp 𝕄) ⊢ iprop((∃ d, owns (c : Thread nD τ) acc2 fullShare d) ∗ others2 c ∗ (∃ r, prngReg c r)) := by
  unfold Pipeline.ΦA; rw [scopedRest2_eq]; simp only [acc2, owns_whole]; unfold others2
  iintro ⟨⟨B0, B1, B2, B3, B4, B5, B6, B7, B8, B9, B10, B11, B12, B13, B14⟩, HP⟩
  isplitl [B14]; · iexact B14
  isplitr [HP]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    iexact B13
  iexact HP

/-- and the same three make what it gives back at its exit. -/
theorem restA2_join (c : Dev nD) :
    iprop((∃ d, owns (c : Thread nD τ) acc2 fullShare d) ∗ others2 c ∗ (∃ r, prngReg c r)) ⊢ (Pipeline.ΦA spec2 c : sProp 𝕄) := by
  unfold Pipeline.ΦA; rw [scopedRest2_eq]; simp only [acc2, owns_whole]; unfold others2
  iintro ⟨B14, ⟨B0, B1, B2, B3, B4, B5, B6, B7, B8, B9, B10, B11, B12, B13⟩, HP⟩
  isplitr [HP]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact B14
  iexact HP

/-- Whatever the accumulator holds, it, the other scoped buffers and the generator register make what the region gives back. -/
theorem restA2_forget (c : Dev nD) (X : Vec F S1024x1024 .f32) :
    iprop(owns (c : Thread nD τ) acc2 fullShare X ∗ others2 c ∗ (∃ r, prngReg c r)) ⊢ (Pipeline.ΦA spec2 c : sProp 𝕄) := by
  have h : iprop(owns (c : Thread nD τ) acc2 fullShare X ∗ others2 c ∗ (∃ r, prngReg c r))
      ⊢ (iprop((∃ d, owns (c : Thread nD τ) acc2 fullShare d) ∗ others2 c ∗ (∃ r, prngReg c r)) : sProp 𝕄) := by
    iintro ⟨HS, HB, Hg⟩
    isplitl [HS]; · iexists _; iexact HS
    isplitl [HB]; · iexact HB
    iexact Hg
  exact h.trans (restA2_join c)

/-! ## The body at an opening point -/

set_option maxHeartbeats 1000000 in
/-- At an opening point, on whole memrefs — the inputs' at their blocks `x0`, `x1`, the output's at contents `xo` it does
    not touch, the accumulator at anything — the body runs to the continuation holding the same, the accumulator now at the
    zero payload plus the product of the two blocks. -/
theorem run2_opening (c : Dev nD) (i : grid2.Coords) (arg3 : Memref sig .tc .vmem S1024x2048 .bf16) (harg3 : arg3.IsWhole)
    (arg4 : Memref sig .tc .vmem S2048x1024 .bf16) (harg4 : arg4.IsWhole) (arg5 : Memref sig .tc .vmem S1024x1024 .f32) (harg5 : arg5.IsWhole)
    (arg6 : Memref sig .tc .vmem S1024x1024 .f32) (harg6 : arg6.IsWhole) (ho : opens2 i) (hc : ¬closes2 i)
    (x0 : Vec F S1024x2048 .bf16) (x1 : Vec F S2048x1024 .bf16) (xo : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k2_pay2 (k2_pay1 (F := F)) x0 x1)) -∗ K ⟨⟩))
      ⊢ wp frame (wpE (defs₀ (F := F)) Variants.none c none) E (cc2__matmul_tanh_kernel i arg3 harg3 arg4 harg4 arg5 harg5 arg6 harg6) K := by
  simp only [cc2__matmul_tanh_kernel_eq_skeleton]; unfold cc2__matmul_tanh_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact ho | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  rw [read_after_whole_store _ _ zeros2]
  sl_unfold_run_names
  rw [View.readCov_unit_zero _ zeros2]
  simp only [View.readAt_eq_ld, harg3.read_unread, harg4.read_unread, View.ld_unit_zero (S := S1024x2048) zeros2, View.ld_unit_zero (S := S2048x1024) zeros2, View.ld_unit_zero (S := S1024x1024) zeros2]

end Cert.KernelIdeal.Chain

end
-- ==== Proof.KI.Acc2Closing.lean ====
/-
  Layer 2 of the chain, one grid point that CLOSES an output block (the contraction's second half, k = 1): the accumulator
  arrives holding what the opening point left, the product of this point's two input blocks is added to it, and tanh of
  the sum (narrowed to the output's format) is stored into the output's staging buffer, which is written back after the point.
-/
import proofs.«181803_j65481071399768_2_alg».proof.Proof.KI.Acc2Opening

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a closing point, on whole memrefs — the inputs' at their blocks `x0`, `x1`, the output's at anything, the accumulator
    at the contents `xs` the point before left — the body runs to the continuation holding the inputs' as they were, the
    accumulator at `xs` plus the product of the two blocks, and the output's buffer at the layer's closing payload of that sum. -/
theorem run2_closing (c : Dev nD) (i : grid2.Coords) (arg3 : Memref sig .tc .vmem S1024x2048 .bf16) (harg3 : arg3.IsWhole)
    (arg4 : Memref sig .tc .vmem S2048x1024 .bf16) (harg4 : arg4.IsWhole) (arg5 : Memref sig .tc .vmem S1024x1024 .f32) (harg5 : arg5.IsWhole)
    (arg6 : Memref sig .tc .vmem S1024x1024 .f32) (harg6 : arg6.IsWhole) (ho : ¬opens2 i) (hc : closes2 i)
    (x0 : Vec F S1024x2048 .bf16) (x1 : Vec F S2048x1024 .bf16) (xs : Vec F S1024x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1
            ∗ owns (c : Thread nD τ) arg5 fullShare (k2_pay3 (k2_pay2 xs x0 x1))
            ∗ owns (c : Thread nD τ) arg6 fullShare (k2_pay2 xs x0 x1)) -∗ K ⟨⟩))
      ⊢ wp frame (wpE (defs₀ (F := F)) Variants.none c none) E (cc2__matmul_tanh_kernel i arg3 harg3 arg4 harg4 arg5 harg5 arg6 harg6) K := by
  simp only [cc2__matmul_tanh_kernel_eq_skeleton]; unfold cc2__matmul_tanh_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact ho | exact hc)
  sl_step
  have hacc : k2_pay2 (View.readAt (Elt F) arg6.view (Rect.unit ![0, 0] S1024x1024.size inb_S1024x1024_S1024x1024_0_0).toLoadRect (harg6.unread xs))
        (View.readAt (Elt F) arg3.view (Rect.unit ![0, 0] S1024x2048.size inb_S1024x2048_S1024x2048_0_0).toLoadRect (harg3.unread x0))
        (View.readAt (Elt F) arg4.view (Rect.unit ![0, 0] S2048x1024.size inb_S2048x1024_S2048x1024_0_0).toLoadRect (harg4.unread x1))
      = k2_pay2 xs x0 x1 := by
    simp only [View.readAt_eq_ld, harg3.read_unread, harg4.read_unread, harg6.read_unread, View.ld_unit_zero (S := S1024x2048) zeros2, View.ld_unit_zero (S := S2048x1024) zeros2, View.ld_unit_zero (S := S1024x1024) zeros2]
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [read_after_whole_store _ _ zeros2, View.readCov_unit_zero _ zeros2, hacc]
  iexists _; isplitr
  swap; · iexact HS
  ipureintro
  sl_unfold_run_names
  rw [read_after_whole_store _ _ zeros2]
  exact hacc

end Cert.KernelIdeal.Chain

end
-- ==== Proof.KI.Region2.lean ====
/-
  Layer 2 of the chain as one pipeline: what every staging buffer and the accumulator hold after each grid point.
  The contraction coordinate runs fastest, so the points come in pairs (2n, 2n+1) working on one output block: after the
  even point the accumulator holds  0 + A[i,0]·B[0,j], after the odd one that plus  A[i,1]·B[1,j], and the odd point
  leaves tanh of it in the output's staging buffer, which the pipeline writes back there and only there. Between points
  the region's invariant is the accumulator at that value beside the core's other scoped buffers; before the first point
  and after the last it is the plain rest the launch deals in.
-/
import proofs.«181803_j65481071399768_2_alg».proof.Proof.KI.Acc2Closing

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, for any proof data whose array is the entry
    contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The accumulator after each point -/

/-- The point before `t` (the opening point of `t`'s pair when `t` closes it). -/
abbrev prev2 (t : Fin cfg2.N) : Fin cfg2.N := ⟨t.val - 1, Nat.lt_of_le_of_lt (Nat.sub_le _ _) t.isLt⟩

/-- What the accumulator holds after point `t`: at an even point the first half-product added to zero; at an odd point
    the second half-product added to what the even point before it left. -/
def accAt2 (c : Dev nD) (t : Fin cfg2.N) : Vec F S1024x1024 .f32 :=
  if t.val % 2 = 0 then k2_pay2 (k2_pay1 (F := F)) (iblk2 V c 0 t) (iblk2 V c 1 t)
  else k2_pay2 (k2_pay2 (k2_pay1 (F := F)) (iblk2 V c 0 (prev2 t)) (iblk2 V c 1 (prev2 t))) (iblk2 V c 0 t) (iblk2 V c 1 t)

theorem accAt2_even (c : Dev nD) (t : Fin cfg2.N) (h : t.val % 2 = 0) :
    accAt2 V c t = k2_pay2 (k2_pay1 (F := F)) (iblk2 V c 0 t) (iblk2 V c 1 t) := if_pos h

theorem accAt2_odd (c : Dev nD) (t : Fin cfg2.N) (h : t.val % 2 = 1) :
    accAt2 V c t = k2_pay2 (accAt2 V c (prev2 t)) (iblk2 V c 0 t) (iblk2 V c 1 t) := by
  have hp : (prev2 t).val % 2 = 0 := by show (t.val - 1) % 2 = 0; omega
  rw [accAt2_even V c (prev2 t) hp]
  exact if_neg (by omega)

/-! ## The region's invariant between points -/

/-- Before position `n`: at the region's entry what the launch hands it; afterwards the accumulator at what the point
    before left, the core's other scoped buffers, and the generator register at some state. -/
def held2 (c : Dev nD) : (n : ℕ) → n ≤ cfg2.N → sProp 𝕄
  | 0, _ => Pipeline.ΦA spec2 c
  | n + 1, hn => iprop(owns (c : Thread nD τ) acc2 fullShare (accAt2 V c ⟨n, hn⟩) ∗ others2 c ∗ (∃ r, prngReg c r))

theorem held2_zero (c : Dev nD) (n : ℕ) (h : n ≤ cfg2.N) (hz : n = 0) : held2 V c n h = Pipeline.ΦA spec2 c := by
  subst hz; rfl

theorem held2_succ (c : Dev nD) (n : ℕ) (hn : n < cfg2.N) :
    held2 V c (n + 1) hn = iprop(owns (c : Thread nD τ) acc2 fullShare (accAt2 V c ⟨n, hn⟩) ∗ others2 c ∗ (∃ r, prngReg c r)) := rfl

theorem held2_pos (c : Dev nD) (n : ℕ) (h : n ≤ cfg2.N) (hz : n ≠ 0) :
    held2 V c n h = iprop(owns (c : Thread nD τ) acc2 fullShare (accAt2 V c ⟨n - 1, by omega⟩) ∗ others2 c ∗ (∃ r, prngReg c r)) := by
  cases n with
  | zero => exact absurd rfl hz
  | succ n => rfl

/-! ## The pipeline's proof data -/

/-- The proof data of layer 2's pipeline on core `c`: the arrays as the region finds them; after the body at point `t`
    each input's buffer at its block, the output's at the closing payload of the accumulator; the invariant `held2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (accAt2 V c t)
  Φ t := held2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem q_eq2 (c : Dev nD) (w : Fin cfg2.W) : (dat2 V c).q w = fullShare := rfl

theorem owed_eq2 (c : Dev nD) (t : Fin (cfg2.N + 1)) : (dat2 V c).owed t = 0 := rfl

theorem recorded_eq2 (c : Dev nD) (t : Fin (cfg2.N + 1)) : (dat2 V c).recorded t = Set.univ := rfl

theorem held2_castSucc (c : Dev nD) (t : Fin cfg2.N) :
    (dat2 V c).Φ t.castSucc = held2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (accAt2 V c t) := by dsimp only [dat2]

/-- At a point that closes a block (odd position: the second half of the contraction) the output window's staging buffer
    holds the layer's payload of the two half-products accumulated from zero. -/
theorem after2_2_closing (c : Dev nD) (t : Fin cfg2.N) (h : t.val % 2 = 1) :
    (dat2 V c).after 2 t = k2_pay3 (k2_pay2 (k2_pay2 (k2_pay1 (F := F)) (iblk2 V c 0 ⟨t.val - 1, Nat.lt_of_le_of_lt (Nat.sub_le _ _) t.isLt⟩) (iblk2 V c 1 ⟨t.val - 1, Nat.lt_of_le_of_lt (Nat.sub_le _ _) t.isLt⟩)) (iblk2 V c 0 t) (iblk2 V c 1 t)) := by
  rw [after2_2]; unfold accAt2; rw [if_neg (by omega)]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The invariant at the two ends and at a point's start -/

/-- What the launch hands the region is the invariant before the first point. -/
theorem hin2 (c : Dev nD) : Pipeline.ΦA spec2 c ⊢ (dat2 V c).Φ 0 := by
  rw [show (dat2 V c).Φ 0 = held2 V c 0 (Nat.zero_le _) from rfl, held2_zero V c 0 _ rfl]
  try exact Idealize.SL.BI.Entails.refl _

/-- Before an even point the accumulator is held at SOME contents (the body resets it), -/
theorem held2_opening (c : Dev nD) (t : Fin cfg2.N) :
    (dat2 V c).Φ t.castSucc ⊢ iprop((∃ d, owns (c : Thread nD τ) acc2 fullShare d) ∗ others2 c ∗ (∃ r, prngReg c r)) := by
  rw [held2_castSucc]
  by_cases hz : t.val = 0
  · rw [held2_zero V c _ _ hz]; exact restA2_split c
  · rw [held2_pos V c _ _ hz]
    iintro ⟨HS, HB, Hg⟩
    isplitl [HS]; · iexists _; iexact HS
    isplitl [HB]; · iexact HB
    iexact Hg

/-- and before an odd point at what the even point before it left. -/
theorem held2_closing (c : Dev nD) (t : Fin cfg2.N) (h : t.val % 2 = 1) :
    (dat2 V c).Φ t.castSucc ⊢ iprop(owns (c : Thread nD τ) acc2 fullShare (accAt2 V c (prev2 t)) ∗ others2 c ∗ (∃ r, prngReg c r)) := by
  rw [held2_castSucc, held2_pos V c _ _ (by omega)]
  try exact Idealize.SL.BI.Entails.refl _

/-- After any point the invariant gives the launch's rest back: the accumulator's contents are forgotten. -/
theorem hout2 (c : Dev nD) : (dat2 V c).Φ (Fin.last cfg2.N) ⊢ Pipeline.ΦA spec2 c := by
  rw [show (dat2 V c).Φ (Fin.last cfg2.N) = held2 V c (Fin.last cfg2.N).val (Nat.le_of_lt_succ (Fin.last cfg2.N).isLt) from rfl,
    held2_pos V c _ _ (by rw [Fin.val_last]; have : cfg2.N = 32 := N_2; omega)]
  exact restA2_forget c _

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their blocks; the point's parity says which of the two runs applies;
    the invariant hands the body the accumulator (at anything before an even point, at the even point's value before an
    odd one) and takes it back at this point's value; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = held2 V c (t.val + 1) t.isLt from rfl, held2_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  by_cases h0 : t.val % 2 = 0
  · rw [Dat.leavesExact_idle (dat2 V c) 2 t (idle2_2 t h0) (noFlush2_2 t h0)]
    rw [show (⟨t.val, t.isLt⟩ : Fin cfg2.N) = t from rfl, accAt2_even V c t h0]
    iintro ⟨HΦ, Ho, ⟨%d0, H0⟩, ⟨%d1, H1⟩, ⟨%d2, H2⟩⟩
    ihave HQ := (held2_opening V c t) $$ HΦ
    icases HQ with ⟨HS, HB, Hg⟩
    iapply (run2_opening c (grid2.coords t) _ _ _ _ _ _ _ _ ((opens2_iff t).mpr h0) (fun h => by have := (closes2_iff t).mp h; omega)
      (iblk2 V c 0 t) (iblk2 V c 1 t) _ Set.univ _)
    isplitl [H0]; · iexact H0
    isplitl [H1]; · iexact H1
    isplitl [H2]; · iexact H2
    isplitl [HS]; · iexact HS
    iintro ⟨H0, H1, H2, HS⟩
    isplitl [HS HB Hg]
    · isplitl [HS]; · iexact HS
      isplitl [HB]; · iexact HB
      iexact Hg
    isplitl [Ho]; · iexact Ho
    isplitl [H0]; · iexact H0
    isplitl [H1]; · iexact H1
    iexists _; iexact H2
  · have h1 : t.val % 2 = 1 := by omega
    rw [show (dat2 V c).leavesExact 2 t = owns (c : Thread nD τ) (ms2_2 t) fullShare ((dat2 V c).after 2 t) from by
      unfold Dat.leavesExact; rw [live2_2 t h1], after2_2]
    rw [show (⟨t.val, t.isLt⟩ : Fin cfg2.N) = t from rfl, accAt2_odd V c t h1]
    iintro ⟨HΦ, Ho, ⟨%d0, H0⟩, ⟨%d1, H1⟩, ⟨%d2, H2⟩⟩
    ihave HQ := (held2_closing V c t h1) $$ HΦ
    icases HQ with ⟨HS, HB, Hg⟩
    iapply (run2_closing c (grid2.coords t) _ _ _ _ _ _ _ _ (fun h => by have := (opens2_iff t).mp h; omega) ((closes2_iff t).mpr h1)
      (iblk2 V c 0 t) (iblk2 V c 1 t) (accAt2 V c (prev2 t)) Set.univ _)
    isplitl [H0]; · iexact H0
    isplitl [H1]; · iexact H1
    isplitl [H2]; · iexists _; iexact H2
    isplitl [HS]; · iexact HS
    iintro ⟨H0, H1, H2, HS⟩
    isplitl [HS HB Hg]
    · isplitl [HS]; · iexact HS
      isplitl [HB]; · iexact HB
      iexact Hg
    isplitl [Ho]; · iexact Ho
    isplitl [H0]; · iexact H0
    isplitl [H1]; · iexact H1
    iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Chain

end
-- ==== Proof.KI.MainRun.lean ====
import proofs.«181803_j65481071399768_2_alg».proof.Proof.KI.Region0
import proofs.«181803_j65481071399768_2_alg».proof.Proof.KI.Region1
import proofs.«181803_j65481071399768_2_alg».proof.Proof.KI.Region2
import proofs.«181803_j65481071399768_2_alg».proof.Proof.Gen.KernelIdeal.Regions
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary of the program: a fold from the launch memory

The program is: a stretch of host operations (the casts of the arguments), the three layers' regions one after the
other with nothing between them, and a last stretch of host operations (the row means, the cosine features, the
softmax). -/

/-- Core `c`'s buffers at launch. -/
abbrev W0 : Dev nD → Valuation τ sig (Elt F) := fun c b => (s₀ m ρ).mem ((c : Dev nD), b)
/-- After the first host stretch: what layer 0's region is entered from. -/
abbrev W1 : Dev nD → Valuation τ sig (Elt F) := fun c => StableHlo.after hostOps0 (W0 m ρ c)
/-- The same contents, read at the TensorCore's references. -/
abbrev V1 : (c : Dev nD) → (b : Ref sig .tc) → Buf (Elt F) ((c : Thread nD τ).loc b) := fun c b => W1 m ρ c b

/-- When layer 0's region ends: its three arrays hold what the pipeline leaves (an operand as it was found, the
    result with every block written back, in point order), every other buffer what it held when the region began. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents, read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- When layer 1's region ends: its three arrays hold what the pipeline leaves (an operand as it was found, the
    result with every block written back, in point order), every other buffer what it held when the region began. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same contents, read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- When layer 2's region ends: its three arrays hold what the pipeline leaves (an operand as it was found, the
    result with every block written back, in point order), every other buffer what it held when the region began. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same contents, read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the last host stretch: what the program returns from. -/
abbrev W5 : Dev nD → Valuation τ sig (Elt F) := fun c => StableHlo.after hostOps3 (W4 m ρ c)

/-! ## The arguments end as launched

No host operation writes an argument (the first stretch writes the casts' results, the last the tail's), and no
region has an argument among its arrays (a layer reads the cast of its weight, not the weight): at an argument's
buffer the fold walks back to the launch memory. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps3 _ hostOps3_writes (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps3 _ hostOps3_writes (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! # The run: the program's segments from the launch to the return

## The proof data of the three pipelines and the thread state -/

/-- Every pipeline's proof data, each at the contents its region is entered from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and what the core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W5 m ρ c) ∗ ∃ r, prngReg c r)

/-- The last host stretch's end is the last thread state beside the core owing nothing (the same assertions, grouped
    the other way). -/
theorem last_state (c : Dev nD) :
    (iprop(StableHlo.held (c : Thread nD τ) (Pipeline.ucRefs τ sig) (W5 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- Layer 0's region over the thread state: entered from every unscoped buffer at `W1`, left at `W2`. Its
    three arrays are split out of the unscoped buffers at entry and put back, at what the pipeline leaves, at the exit;
    the generator register goes into the region's invariant and comes back; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed_eq0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q_eq0 (V1 m ρ) c w) (V1 m ρ c) fun w => A_eq0 (V1 m ρ) c w
    rw [Pipeline.unscopedBufs_held] at hsplit
    have hO : (pdats m ρ 0 c).owed 0 = 0 := owed_eq0 (V1 m ρ) c 0
    have hB : ∀ W : Finset (SemLoc sig × Unit), (↑W : Set (SemLoc sig × Unit)) ⊆ (pdats m ρ 0 c).bound () 0 :=
      fun W x _ => Or.inl ((recorded_eq0 (V1 m ρ) c 0).symm ▸ Set.mem_univ x)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hO]
      icases HO with ⟨%W, HO⟩; iexists W; isplitr; · ipureintro; exact hB W
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q_eq0 (V1 m ρ) c w)
      (V1 m ρ c) (V2 m ρ c) ((pdats m ρ 0 c).arrAt · cfg0.N) (hF0 m ρ c) (hrest0 m ρ c)
    rw [Pipeline.unscopedBufs_held] at hjoin
    have hO : (pdats m ρ 0 c).owed (Fin.last (Pipeline.pin (pcfgs (F := F)) adm 0).N) = 0 := owed_eq0 (V1 m ρ) c (Fin.last cfg0.N)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hO]
    icases HO with ⟨%W, -, HO⟩; iexists W; iexact HO

set_option backward.isDefEq.respectTransparency.types false in
/-- Layer 1's region over the thread state: entered from every unscoped buffer at `W2`, left at `W3`. Its
    three arrays are split out of the unscoped buffers at entry and put back, at what the pipeline leaves, at the exit;
    the generator register goes into the region's invariant and comes back; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun c t => owed_eq1 (V2 m ρ) c t
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q_eq1 (V2 m ρ) c w) (V2 m ρ c) fun w => A_eq1 (V2 m ρ) c w
    rw [Pipeline.unscopedBufs_held] at hsplit
    have hO : (pdats m ρ 1 c).owed 0 = 0 := owed_eq1 (V2 m ρ) c 0
    have hB : ∀ W : Finset (SemLoc sig × Unit), (↑W : Set (SemLoc sig × Unit)) ⊆ (pdats m ρ 1 c).bound () 0 :=
      fun W x _ => Or.inl ((recorded_eq1 (V2 m ρ) c 0).symm ▸ Set.mem_univ x)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hO]
      icases HO with ⟨%W, HO⟩; iexists W; isplitr; · ipureintro; exact hB W
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q_eq1 (V2 m ρ) c w)
      (V2 m ρ c) (V3 m ρ c) ((pdats m ρ 1 c).arrAt · cfg1.N) (hF1 m ρ c) (hrest1 m ρ c)
    rw [Pipeline.unscopedBufs_held] at hjoin
    have hO : (pdats m ρ 1 c).owed (Fin.last (Pipeline.pin (pcfgs (F := F)) adm 1).N) = 0 := owed_eq1 (V2 m ρ) c (Fin.last cfg1.N)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hO]
    icases HO with ⟨%W, -, HO⟩; iexists W; iexact HO

set_option backward.isDefEq.respectTransparency.types false in
/-- Layer 2's region over the thread state: entered from every unscoped buffer at `W3`, left at `W4`. Its
    three arrays are split out of the unscoped buffers at entry and put back, at what the pipeline leaves, at the exit;
    the generator register goes into the region's invariant and comes back; nothing is owed; the kernel has no
    semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun c t => owed_eq2 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun w => q_eq2 (V3 m ρ) c w) (V3 m ρ c) fun w => A_eq2 (V3 m ρ) c w
    rw [Pipeline.unscopedBufs_held] at hsplit
    have hO : (pdats m ρ 2 c).owed 0 = 0 := owed_eq2 (V3 m ρ) c 0
    have hB : ∀ W : Finset (SemLoc sig × Unit), (↑W : Set (SemLoc sig × Unit)) ⊆ (pdats m ρ 2 c).bound () 0 :=
      fun W x _ => Or.inl ((recorded_eq2 (V3 m ρ) c 0).symm ▸ Set.mem_univ x)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hO]
      icases HO with ⟨%W, HO⟩; iexists W; isplitr; · ipureintro; exact hB W
      iexact HO
    isplitl [Hp]; · iexact Hp
    iexact Hrest
  hin c := by
    refine BIBase.Entails.trans ?_ (hin2 (V3 m ρ) c)
    unfold Pipeline.ΦA
    iintro ⟨Hp, -, Hr⟩
    isplitl [Hr]; · iexact Hr
    iexact Hp
  hout c := by
    rw [Pipeline.ownSems0_none]
    refine BIBase.Entails.trans (hout2 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun w => q_eq2 (V3 m ρ) c w)
      (V3 m ρ c) (V4 m ρ c) ((pdats m ρ 2 c).arrAt · cfg2.N) (hF2 m ρ c) (hrest2 m ρ c)
    rw [Pipeline.unscopedBufs_held] at hjoin
    have hO : (pdats m ρ 2 c).owed (Fin.last (Pipeline.pin (pcfgs (F := F)) adm 2).N) = 0 := owed_eq2 (V3 m ρ) c (Fin.last cfg2.N)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hO]
    icases HO with ⟨%W, -, HO⟩; iexists W; iexact HO

/-! ## The program as segments, and the launch -/

/-- The program's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- The program IS the run of the segments: it is the chain of its items, and the segments' run is that chain, by
    unfolding both. -/
theorem main_run (c : Dev nD) : main (F := F) c = Pipeline.Seg.run (segs m ρ) := (main_chain c).trans (by chain_rfl)

set_option backward.isDefEq.respectTransparency.types false in
/-- From any memory with zero counters every weakly fair execution of the program on the TensorCores terminates,
    nothing faulting, and in every final state each unscoped buffer of each core holds what the fold says. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

/-- The result's buffer ends at what the fold says, and the arguments as launched. -/
theorem run_result : θ_run defs (onTc (τ := τ) (main (F := F))) ⟨m, fun _ => 0, ρ⟩ (fun r => ∀ c : Dev nD,
      r.2.mem ((c.tc : Thread nD τ).loc main_v23) = W5 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v23 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.KernelIdeal.Chain

end
-- ==== Proof.K.WholeStore.lean ====
/-
  Two facts about whole-shape rectangles, shared by the three layers.
-/
import Idealize.ShloMosaic.Lib.Pipeline.FrameBody
import Idealize.ShloMosaic.Lib.Pipeline.Value
import proofs.«181803_j65481071399768_2_alg».proof.Proof.Gen.Kernel

set_option maxRecDepth 16384

noncomputable section

namespace Cert.Kernel.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- After any writes whose LAST one goes through the whole-shape rectangle, the buffer reads back as that write's payload,
    whatever it held before and whatever the earlier writes were. -/
theorem read_after_whole_store {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- The whole-shape rectangle's offsets are zero. -/
theorem zeros2 : (![0, 0] : Fin 2 → ℕ) = fun _ => 0 := by funext a; fin_cases a <;> rfl

end Cert.Kernel.Chain

end
-- ==== Proof.K.Acc0Opening.lean ====
/-
  Layer 0 of the chain, one grid point that OPENS an output block (the contraction's first half, k = 0).
  The kernel keeps a 1024×1024 f32 accumulator in scratch: at k = 0 it is reset to zero, at every point the product of the
  point's two input blocks is added to it, and at k = 1 (the contraction's second half) tanh of it is stored into the
  output block. This module fixes the vocabulary of the layer's two kinds of point and runs the body at the first kind:
  the accumulator ends at  zero + A[i,0]·B[0,j]  (the skeleton's payload of the zero payload and the two blocks), the
  input blocks and the output's staging buffer are handed back untouched.
-/
import proofs.«181803_j65481071399768_2_alg».proof.Proof.K.WholeStore
import proofs.«181803_j65481071399768_2_alg».proof.Proof.Gen.Kernel.Launch
import proofs.«181803_j65481071399768_2_alg».proof.Proof.Gen.Kernel.Skeleton
import proofs.«181803_j65481071399768_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two kinds of point -/

/-- The point opens a block: its contraction coordinate is 0 (the body's first conditional, the accumulator's reset). -/
abbrev opens0 (i : grid0.Coords) : Prop := (Scalar.cmpi .ne (Scalar.extui (Scalar.cmpi .eq (BitVec.ofNat 32 (i 2).val) 0#32)) 0#32) = 1#1
/-- The point closes a block: its contraction coordinate is 1 (the body's second conditional, the output's store). -/
abbrev closes0 (i : grid0.Coords) : Prop := k0_cond2 i = 1#1

/-- The contraction coordinate runs fastest: the opening points are the even positions, -/
theorem opens0_iff : ∀ t : Fin cfg0.N, opens0 (grid0.coords t) ↔ t.val % 2 = 0 :=
  (by decide +kernel : ∀ t : Fin grid0.N, opens0 (grid0.coords t) ↔ t.val % 2 = 0)
/-- the closing points the odd ones. -/
theorem closes0_iff : ∀ t : Fin cfg0.N, closes0 (grid0.coords t) ↔ t.val % 2 = 1 :=
  (by decide +kernel : ∀ t : Fin grid0.N, closes0 (grid0.coords t) ↔ t.val % 2 = 1)

/-- The input windows are never idle. -/
theorem live0_0 : ∀ t : Fin cfg0.N, cfg0.idle 0 (grid0.coords t) = false := by decide +kernel
theorem live0_1 : ∀ t : Fin cfg0.N, cfg0.idle 1 (grid0.coords t) = false := by decide +kernel
/-- At an opening point the body stores nothing into the output window and the pipeline does not write it back. -/
theorem idle0_2 : ∀ t : Fin cfg0.N, t.val % 2 = 0 → cfg0.idle 2 (grid0.coords t) = true := by decide +kernel
theorem noFlush0_2 : ∀ t : Fin cfg0.N, t.val % 2 = 0 → (cfg0.win 2).flush t = false := by decide +kernel
/-- At a closing point the output window is live. -/
theorem live0_2 : ∀ t : Fin cfg0.N, t.val % 2 = 1 → cfg0.idle 2 (grid0.coords t) = false := by decide +kernel

/-! ## The memrefs the body is called with -/

abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev acc0 : Memref sig .tc .vmem S1024x1024 .f32 := Memref.whole cc0_scratch0

/-- The core's other scoped buffers — the staging buffers and accumulators of the other two layers — each whole at some
    contents: this layer never touches them, the region's invariant carries them from entry to exit. -/
def others0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_scratch0), ((c : Thread nD τ).loc cc1_scratch0) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg2_1), ((c : Thread nD τ).loc cc2_stg2_1) ↦{fullShare} f)
      ∗ (∃ f : Buf (Elt F) ((c : Thread nD τ).loc cc2_scratch0), ((c : Thread nD τ).loc cc2_scratch0) ↦{fullShare} f))

/-- What the region is handed at its entry is the accumulator at some contents, the other scoped buffers, and the
    generator register at some state; -/
theorem restA0_split (c : Dev nD) :
    (Pipeline.ΦA spec0 c : sProp 𝕄) ⊢ iprop((∃ d, owns (c : Thread nD τ) acc0 fullShare d) ∗ others0 c ∗ (∃ r, prngReg c r)) := by
  unfold Pipeline.ΦA; rw [scopedRest0_eq]; simp only [acc0, owns_whole]; unfold others0
  iintro ⟨⟨B0, B1, B2, B3, B4, B5, B6, B7, B8, B9, B10, B11, B12, B13, B14⟩, HP⟩
  isplitl [B0]; · iexact B0
  isplitr [HP]
  · isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact B14
  iexact HP

/-- and the same three make what it gives back at its exit. -/
theorem restA0_join (c : Dev nD) :
    iprop((∃ d, owns (c : Thread nD τ) acc0 fullShare d) ∗ others0 c ∗ (∃ r, prngReg c r)) ⊢ (Pipeline.ΦA spec0 c : sProp 𝕄) := by
  unfold Pipeline.ΦA; rw [scopedRest0_eq]; simp only [acc0, owns_whole]; unfold others0
  iintro ⟨B0, ⟨B1, B2, B3, B4, B5, B6, B7, B8, B9, B10, B11, B12, B13, B14⟩, HP⟩
  isplitr [HP]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact B14
  iexact HP

/-- Whatever the accumulator holds, it, the other scoped buffers and the generator register make what the region gives back. -/
theorem restA0_forget (c : Dev nD) (X : Vec F S1024x1024 .f32) :
    iprop(owns (c : Thread nD τ) acc0 fullShare X ∗ others0 c ∗ (∃ r, prngReg c r)) ⊢ (Pipeline.ΦA spec0 c : sProp 𝕄) := by
  have h : iprop(owns (c : Thread nD τ) acc0 fullShare X ∗ others0 c ∗ (∃ r, prngReg c r))
      ⊢ (iprop((∃ d, owns (c : Thread nD τ) acc0 fullShare d) ∗ others0 c ∗ (∃ r, prngReg c r)) : sProp 𝕄) := by
    iintro ⟨HS, HB, Hg⟩
    isplitl [HS]; · iexists _; iexact HS
    isplitl [HB]; · iexact HB
    iexact Hg
  exact h.trans (restA0_join c)

/-! ## The body at an opening point -/

set_option maxHeartbeats 1000000 in
/-- At an opening point, on whole memrefs — the inputs' at their blocks `x0`, `x1`, the output's at contents `xo` it does
    not touch, the accumulator at anything — the body runs to the continuation holding the same, the accumulator now at the
    zero payload plus the product of the two blocks. -/
theorem run0_opening (c : Dev nD) (i : grid0.Coords) (arg3 : Memref sig .tc .vmem S1024x2048 .bf16) (harg3 : arg3.IsWhole)
    (arg4 : Memref sig .tc .vmem S2048x1024 .bf16) (harg4 : arg4.IsWhole) (arg5 : Memref sig .tc .vmem S1024x1024 .bf16) (harg5 : arg5.IsWhole)
    (arg6 : Memref sig .tc .vmem S1024x1024 .f32) (harg6 : arg6.IsWhole) (ho : opens0 i) (hc : ¬closes0 i)
    (x0 : Vec F S1024x2048 .bf16) (x1 : Vec F S2048x1024 .bf16) (xo : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k0_pay2 (k0_pay1 (F := F)) x0 x1)) -∗ K ⟨⟩))
      ⊢ wp frame (wpE (defs₀ (F := F)) Variants.none c none) E (cc0__matmul_tanh_kernel i arg3 harg3 arg4 harg4 arg5 harg5 arg6 harg6) K := by
  simp only [cc0__matmul_tanh_kernel_eq_skeleton]; unfold cc0__matmul_tanh_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact ho | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  rw [read_after_whole_store _ _ zeros2]
  sl_unfold_run_names
  rw [View.readCov_unit_zero _ zeros2]
  simp only [View.readAt_eq_ld, harg3.read_unread, harg4.read_unread, View.ld_unit_zero (S := S1024x2048) zeros2, View.ld_unit_zero (S := S2048x1024) zeros2, View.ld_unit_zero (S := S1024x1024) zeros2]

end Cert.Kernel.Chain

end
-- ==== Proof.K.Acc0Closing.lean ====
/-
  Layer 0 of the chain, one grid point that CLOSES an output block (the contraction's second half, k = 1): the accumulator
  arrives holding what the opening point left, the product of this point's two input blocks is added to it, and tanh of
  the sum (narrowed to the output's format) is stored into the output's staging buffer, which is written back after the point.
-/
import proofs.«181803_j65481071399768_2_alg».proof.Proof.K.Acc0Opening

set_option maxRecDepth 16384

noncomputable section

namespace Cert.Kernel.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a closing point, on whole memrefs — the inputs' at their blocks `x0`, `x1`, the output's at anything, the accumulator
    at the contents `xs` the point before left — the body runs to the continuation holding the inputs' as they were, the
    accumulator at `xs` plus the product of the two blocks, and the output's buffer at the layer's closing payload of that sum. -/
theorem run0_closing (c : Dev nD) (i : grid0.Coords) (arg3 : Memref sig .tc .vmem S1024x2048 .bf16) (harg3 : arg3.IsWhole)
    (arg4 : Memref sig .tc .vmem S2048x1024 .bf16) (harg4 : arg4.IsWhole) (arg5 : Memref sig .tc .vmem S1024x1024 .bf16) (harg5 : arg5.IsWhole)
    (arg6 : Memref sig .tc .vmem S1024x1024 .f32) (harg6 : arg6.IsWhole) (ho : ¬opens0 i) (hc : closes0 i)
    (x0 : Vec F S1024x2048 .bf16) (x1 : Vec F S2048x1024 .bf16) (xs : Vec F S1024x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1
            ∗ owns (c : Thread nD τ) arg5 fullShare (k0_pay3 (k0_pay2 xs x0 x1))
            ∗ owns (c : Thread nD τ) arg6 fullShare (k0_pay2 xs x0 x1)) -∗ K ⟨⟩))
      ⊢ wp frame (wpE (defs₀ (F := F)) Variants.none c none) E (cc0__matmul_tanh_kernel i arg3 harg3 arg4 harg4 arg5 harg5 arg6 harg6) K := by
  simp only [cc0__matmul_tanh_kernel_eq_skeleton]; unfold cc0__matmul_tanh_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact ho | exact hc)
  sl_step
  have hacc : k0_pay2 (View.readAt (Elt F) arg6.view (Rect.unit ![0, 0] S1024x1024.size inb_S1024x1024_S1024x1024_0_0).toLoadRect (harg6.unread xs))
        (View.readAt (Elt F) arg3.view (Rect.unit ![0, 0] S1024x2048.size inb_S1024x2048_S1024x2048_0_0).toLoadRect (harg3.unread x0))
        (View.readAt (Elt F) arg4.view (Rect.unit ![0, 0] S2048x1024.size inb_S2048x1024_S2048x1024_0_0).toLoadRect (harg4.unread x1))
      = k0_pay2 xs x0 x1 := by
    simp only [View.readAt_eq_ld, harg3.read_unread, harg4.read_unread, harg6.read_unread, View.ld_unit_zero (S := S1024x2048) zeros2, View.ld_unit_zero (S := S2048x1024) zeros2, View.ld_unit_zero (S := S1024x1024) zeros2]
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [read_after_whole_store _ _ zeros2, View.readCov_unit_zero _ zeros2, hacc]
  iexists _; isplitr
  swap; · iexact HS
  ipureintro
  sl_unfold_run_names
  rw [read_after_whole_store _ _ zeros2]
  exact hacc

end Cert.Kernel.Chain

end
-- ==== Proof.K.Region0.lean ====
/-
  Layer 0 of the chain as one pipeline: what every staging buffer and the accumulator hold after each grid point.
  The contraction coordinate runs fastest, so the points come in pairs (2n, 2n+1) working on one output block: after the
  even point the accumulator holds  0 + A[i,0]·B[0,j], after the odd one that plus  A[i,1]·B[1,j], and the odd point
  leaves tanh of it in the output's staging buffer, which the pipeline writes back there and only there. Between points
  the region's invariant is the accumulator at that value beside the core's other scoped buffers; before the first point
  and after the last it is the plain rest the launch deals in.
-/
import proofs.«181803_j65481071399768_2_alg».proof.Proof.K.Acc0Closing

set_option maxRecDepth 16384

noncomputable section

namespace Cert.Kernel.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator after each point -/

/-- The point before `t` (the opening point of `t`'s pair when `t` closes it). -/
abbrev prev0 (t : Fin cfg0.N) : Fin cfg0.N := ⟨t.val - 1, Nat.lt_of_le_of_lt (Nat.sub_le _ _) t.isLt⟩

/-- What the accumulator holds after point `t`: at an even point the first half-product added to zero; at an odd point
    the second half-product added to what the even point before it left. -/
def accAt0 (c : Dev nD) (t : Fin cfg0.N) : Vec F S1024x1024 .f32 :=
  if t.val % 2 = 0 then k0_pay2 (k0_pay1 (F := F)) (iblk0 V c 0 t) (iblk0 V c 1 t)
  else k0_pay2 (k0_pay2 (k0_pay1 (F := F)) (iblk0 V c 0 (prev0 t)) (iblk0 V c 1 (prev0 t))) (iblk0 V c 0 t) (iblk0 V c 1 t)

theorem accAt0_even (c : Dev nD) (t : Fin cfg0.N) (h : t.val % 2 = 0) :
    accAt0 V c t = k0_pay2 (k0_pay1 (F := F)) (iblk0 V c 0 t) (iblk0 V c 1 t) := if_pos h

theorem accAt0_odd (c : Dev nD) (t : Fin cfg0.N) (h : t.val % 2 = 1) :
    accAt0 V c t = k0_pay2 (accAt0 V c (prev0 t)) (iblk0 V c 0 t) (iblk0 V c 1 t) := by
  have hp : (prev0 t).val % 2 = 0 := by show (t.val - 1) % 2 = 0; omega
  rw [accAt0_even V c (prev0 t) hp]
  exact if_neg (by omega)

/-! ## The region's invariant between points -/

/-- Before position `n`: at the region's entry what the launch hands it; afterwards the accumulator at what the point
    before left, the core's other scoped buffers, and the generator register at some state. -/
def held0 (c : Dev nD) : (n : ℕ) → n ≤ cfg0.N → sProp 𝕄
  | 0, _ => Pipeline.ΦA spec0 c
  | n + 1, hn => iprop(owns (c : Thread nD τ) acc0 fullShare (accAt0 V c ⟨n, hn⟩) ∗ others0 c ∗ (∃ r, prngReg c r))

theorem held0_zero (c : Dev nD) (n : ℕ) (h : n ≤ cfg0.N) (hz : n = 0) : held0 V c n h = Pipeline.ΦA spec0 c := by
  subst hz; rfl

theorem held0_succ (c : Dev nD) (n : ℕ) (hn : n < cfg0.N) :
    held0 V c (n + 1) hn = iprop(owns (c : Thread nD τ) acc0 fullShare (accAt0 V c ⟨n, hn⟩) ∗ others0 c ∗ (∃ r, prngReg c r)) := rfl

theorem held0_pos (c : Dev nD) (n : ℕ) (h : n ≤ cfg0.N) (hz : n ≠ 0) :
    held0 V c n h = iprop(owns (c : Thread nD τ) acc0 fullShare (accAt0 V c ⟨n - 1, by omega⟩) ∗ others0 c ∗ (∃ r, prngReg c r)) := by
  cases n with
  | zero => exact absurd rfl hz
  | succ n => rfl

/-! ## The pipeline's proof data -/

/-- The proof data of layer 0's pipeline on core `c`: the arrays as the region finds them; after the body at point `t`
    each input's buffer at its block, the output's at the closing payload of the accumulator; the invariant `held0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (accAt0 V c t)
  Φ t := held0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := rfl

theorem owed_eq0 (c : Dev nD) (t : Fin (cfg0.N + 1)) : (dat0 V c).owed t = 0 := rfl

theorem recorded_eq0 (c : Dev nD) (t : Fin (cfg0.N + 1)) : (dat0 V c).recorded t = Set.univ := rfl

theorem held0_castSucc (c : Dev nD) (t : Fin cfg0.N) :
    (dat0 V c).Φ t.castSucc = held0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (accAt0 V c t) := by dsimp only [dat0]

/-- At a point that closes a block (odd position: the second half of the contraction) the output window's staging buffer
    holds the layer's payload of the two half-products accumulated from zero. -/
theorem after0_2_closing (c : Dev nD) (t : Fin cfg0.N) (h : t.val % 2 = 1) :
    (dat0 V c).after 2 t = k0_pay3 (k0_pay2 (k0_pay2 (k0_pay1 (F := F)) (iblk0 V c 0 ⟨t.val - 1, Nat.lt_of_le_of_lt (Nat.sub_le _ _) t.isLt⟩) (iblk0 V c 1 ⟨t.val - 1, Nat.lt_of_le_of_lt (Nat.sub_le _ _) t.isLt⟩)) (iblk0 V c 0 t) (iblk0 V c 1 t)) := by
  rw [after0_2]; unfold accAt0; rw [if_neg (by omega)]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The invariant at the two ends and at a point's start -/

/-- What the launch hands the region is the invariant before the first point. -/
theorem hin0 (c : Dev nD) : Pipeline.ΦA spec0 c ⊢ (dat0 V c).Φ 0 := by
  rw [show (dat0 V c).Φ 0 = held0 V c 0 (Nat.zero_le _) from rfl, held0_zero V c 0 _ rfl]
  try exact Idealize.SL.BI.Entails.refl _

/-- Before an even point the accumulator is held at SOME contents (the body resets it), -/
theorem held0_opening (c : Dev nD) (t : Fin cfg0.N) :
    (dat0 V c).Φ t.castSucc ⊢ iprop((∃ d, owns (c : Thread nD τ) acc0 fullShare d) ∗ others0 c ∗ (∃ r, prngReg c r)) := by
  rw [held0_castSucc]
  by_cases hz : t.val = 0
  · rw [held0_zero V c _ _ hz]; exact restA0_split c
  · rw [held0_pos V c _ _ hz]
    iintro ⟨HS, HB, Hg⟩
    isplitl [HS]; · iexists _; iexact HS
    isplitl [HB]; · iexact HB
    iexact Hg

/-- and before an odd point at what the even point before it left. -/
theorem held0_closing (c : Dev nD) (t : Fin cfg0.N) (h : t.val % 2 = 1) :
    (dat0 V c).Φ t.castSucc ⊢ iprop(owns (c : Thread nD τ) acc0 fullShare (accAt0 V c (prev0 t)) ∗ others0 c ∗ (∃ r, prngReg c r)) := by
  rw [held0_castSucc, held0_pos V c _ _ (by omega)]
  try exact Idealize.SL.BI.Entails.refl _

/-- After any point the invariant gives the launch's rest back: the accumulator's contents are forgotten. -/
theorem hout0 (c : Dev nD) : (dat0 V c).Φ (Fin.last cfg0.N) ⊢ Pipeline.ΦA spec0 c := by
  rw [show (dat0 V c).Φ (Fin.last cfg0.N) = held0 V c (Fin.last cfg0.N).val (Nat.le_of_lt_succ (Fin.last cfg0.N).isLt) from rfl,
    held0_pos V c _ _ (by rw [Fin.val_last]; have : cfg0.N = 32 := N_0; omega)]
  exact restA0_forget c _

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the point's parity says which of the two runs applies;
    the invariant hands the body the accumulator (at anything before an even point, at the even point's value before an
    odd one) and takes it back at this point's value; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = held0 V c (t.val + 1) t.isLt from rfl, held0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h0 : t.val % 2 = 0
  · rw [Dat.leavesExact_idle (dat0 V c) 2 t (idle0_2 t h0) (noFlush0_2 t h0)]
    rw [show (⟨t.val, t.isLt⟩ : Fin cfg0.N) = t from rfl, accAt0_even V c t h0]
    iintro ⟨HΦ, Ho, ⟨%d0, H0⟩, ⟨%d1, H1⟩, ⟨%d2, H2⟩⟩
    ihave HQ := (held0_opening V c t) $$ HΦ
    icases HQ with ⟨HS, HB, Hg⟩
    iapply (run0_opening c (grid0.coords t) _ _ _ _ _ _ _ _ ((opens0_iff t).mpr h0) (fun h => by have := (closes0_iff t).mp h; omega)
      (iblk0 V c 0 t) (iblk0 V c 1 t) _ Set.univ _)
    isplitl [H0]; · iexact H0
    isplitl [H1]; · iexact H1
    isplitl [H2]; · iexact H2
    isplitl [HS]; · iexact HS
    iintro ⟨H0, H1, H2, HS⟩
    isplitl [HS HB Hg]
    · isplitl [HS]; · iexact HS
      isplitl [HB]; · iexact HB
      iexact Hg
    isplitl [Ho]; · iexact Ho
    isplitl [H0]; · iexact H0
    isplitl [H1]; · iexact H1
    iexists _; iexact H2
  · have h1 : t.val % 2 = 1 := by omega
    rw [show (dat0 V c).leavesExact 2 t = owns (c : Thread nD τ) (ms0_2 t) fullShare ((dat0 V c).after 2 t) from by
      unfold Dat.leavesExact; rw [live0_2 t h1], after0_2]
    rw [show (⟨t.val, t.isLt⟩ : Fin cfg0.N) = t from rfl, accAt0_odd V c t h1]
    iintro ⟨HΦ, Ho, ⟨%d0, H0⟩, ⟨%d1, H1⟩, ⟨%d2, H2⟩⟩
    ihave HQ := (held0_closing V c t h1) $$ HΦ
    icases HQ with ⟨HS, HB, Hg⟩
    iapply (run0_closing c (grid0.coords t) _ _ _ _ _ _ _ _ (fun h => by have := (opens0_iff t).mp h; omega) ((closes0_iff t).mpr h1)
      (iblk0 V c 0 t) (iblk0 V c 1 t) (accAt0 V c (prev0 t)) Set.univ _)
    isplitl [H0]; · iexact H0
    isplitl [H1]; · iexact H1
    isplitl [H2]; · iexists _; iexact H2
    isplitl [HS]; · iexact HS
    iintro ⟨H0, H1, H2, HS⟩
    isplitl [HS HB Hg]
    · isplitl [HS]; · iexact HS
      isplitl [HB]; · iexact HB
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Chain

end
-- ==== Proof.K.Acc1Opening.lean ====
/-
  Layer 1 of the chain, one grid point that OPENS an output block (the contraction's first half, k = 0).
  The kernel keeps a 1024×1024 f32 accumulator in scratch: at k = 0 it is reset to zero, at every point the product of the
  point's two input blocks is added to it, and at k = 1 (the contraction's second half) tanh of it is stored into the
  output block. This module fixes the vocabulary of the layer's two kinds of point and runs the body at the first kind:
  the accumulator ends at  zero + A[i,0]·B[0,j]  (the skeleton's payload of the zero payload and the two blocks), the
  input blocks and the output's staging buffer are handed back untouched.
-/
import proofs.«181803_j65481071399768_2_alg».proof.Proof.K.WholeStore
import proofs.«181803_j65481071399768_2_alg».proof.Proof.Gen.Kernel.Launch
import proofs.«181803_j65481071399768_2_alg».proof.Proof.Gen.Kernel.Skeleton
import proofs.«181803_j65481071399768_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two kinds of point -/

/-- The point opens a block: its contraction coordinate is 0 (the body's first conditional, the accumulator's reset). -/
abbrev opens1 (i : grid1.Coords) : Prop := (Scalar.cmpi .ne (Scalar.extui (Scalar.cmpi .eq (BitVec.ofNat 32 (i 2).val) 0#32)) 0#32) = 1#1
/-- The point closes a block: its contraction coordinate is 1 (the body's second conditional, the output's store). -/
abbrev closes1 (i : grid1.Coords) : Prop := k1_cond2 i = 1#1

/-- The contraction coordinate runs fastest: the opening points are the even positions, -/
theorem opens1_iff : ∀ t : Fin cfg1.N, opens1 (grid1.coords t) ↔ t.val % 2 = 0 :=
  (by decide +kernel : ∀ t : Fin grid1.N, opens1 (grid1.coords t) ↔ t.val % 2 = 0)
/-- the closing points the odd ones. -/
theorem closes1_iff : ∀ t : Fin cfg1.N, closes1 (grid1.coords t) ↔ t.val % 2 = 1 :=
  (by decide +kernel : ∀ t : Fin grid1.N, closes1 (grid1.coords t) ↔ t.val % 2 = 1)

/-- The input windows are never idle. -/
theorem live1_0 : ∀ t : Fin cfg1.N, cfg1.idle 0 (grid1.coords t) = false := by decide +kernel
theorem live1_1 : ∀ t : Fin cfg1.N, cfg1.idle 1 (grid1.coords t) = false := by decide +kernel
/-- At an opening point the body stores nothing into the output window and the pipeline does not write it back. -/
theorem idle1_2 : ∀ t : Fin cfg1.N, t.val % 2 = 0 → cfg1.idle 2 (grid1.coords t) = true := by decide +kernel
theorem noFlush1_2 : ∀ t : Fin cfg1.N, t.val % 2 = 0 → (cfg1.win 2).flush t = false := by decide +kernel
/-- At a closing point the output window is live. -/
theorem live1_2 : ∀ t : Fin cfg1.N, t.val % 2 = 1 → cfg1.idle 2 (grid1.coords t) = false := by decide +kernel

/-! ## The memrefs the body is called with -/

abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev acc1 : Memref sig .tc .vmem S1024x1024 .f32 := Memref.whole cc1_scratch0

/-- The core's other scoped buffers — the staging buffers and accumulators of the other two layers — each whole at some
    contents: this layer never touches them, the region's invariant carries them from entry to exit. -/
def others1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg1_1), ((c : Thread nD τ).loc cc2_stg1_1) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg2_1), ((c : Thread nD τ).loc cc2_stg2_1) ↦{fullShare} f)
      ∗ (∃ f : Buf (Elt F) ((c : Thread nD τ).loc cc2_scratch0), ((c : Thread nD τ).loc cc2_scratch0) ↦{fullShare} f))

/-- What the region is handed at its entry is the accumulator at some contents, the other scoped buffers, and the
    generator register at some state; -/
theorem restA1_split (c : Dev nD) :
    (Pipeline.ΦA spec1 c : sProp 𝕄) ⊢ iprop((∃ d, owns (c : Thread nD τ) acc1 fullShare d) ∗ others1 c ∗ (∃ r, prngReg c r)) := by
  unfold Pipeline.ΦA; rw [scopedRest1_eq]; simp only [acc1, owns_whole]; unfold others1
  iintro ⟨⟨B0, B1, B2, B3, B4, B5, B6, B7, B8, B9, B10, B11, B12, B13, B14⟩, HP⟩
  isplitl [B7]; · iexact B7
  isplitr [HP]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B8]; · iexact B8
    isplitl [B9]; · iexact B9
    isplitl [B10]; · iexact B10
    isplitl [B11]; · iexact B11
    isplitl [B12]; · iexact B12
    isplitl [B13]; · iexact B13
    iexact B14
  iexact HP

/-- and the same three make what it gives back at its exit. -/
theorem restA1_join (c : Dev nD) :
    iprop((∃ d, owns (c : Thread nD τ) acc1 fullShare d) ∗ others1 c ∗ (∃ r, prngReg c r)) ⊢ (Pipeline.ΦA spec1 c : sProp 𝕄) := by
  unfold Pipeline.ΦA; rw [scopedRest1_eq]; simp only [acc1, owns_whole]; unfold others1
  iintro ⟨B7, ⟨B0, B1, B2, B3, B4, B5, B6, B8, B9, B10, B11, B12, B13, B14⟩, HP⟩
  isplitr [HP]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact B14
  iexact HP

/-- Whatever the accumulator holds, it, the other scoped buffers and the generator register make what the region gives back. -/
theorem restA1_forget (c : Dev nD) (X : Vec F S1024x1024 .f32) :
    iprop(owns (c : Thread nD τ) acc1 fullShare X ∗ others1 c ∗ (∃ r, prngReg c r)) ⊢ (Pipeline.ΦA spec1 c : sProp 𝕄) := by
  have h : iprop(owns (c : Thread nD τ) acc1 fullShare X ∗ others1 c ∗ (∃ r, prngReg c r))
      ⊢ (iprop((∃ d, owns (c : Thread nD τ) acc1 fullShare d) ∗ others1 c ∗ (∃ r, prngReg c r)) : sProp 𝕄) := by
    iintro ⟨HS, HB, Hg⟩
    isplitl [HS]; · iexists _; iexact HS
    isplitl [HB]; · iexact HB
    iexact Hg
  exact h.trans (restA1_join c)

/-! ## The body at an opening point -/

set_option maxHeartbeats 1000000 in
/-- At an opening point, on whole memrefs — the inputs' at their blocks `x0`, `x1`, the output's at contents `xo` it does
    not touch, the accumulator at anything — the body runs to the continuation holding the same, the accumulator now at the
    zero payload plus the product of the two blocks. -/
theorem run1_opening (c : Dev nD) (i : grid1.Coords) (arg3 : Memref sig .tc .vmem S1024x2048 .bf16) (harg3 : arg3.IsWhole)
    (arg4 : Memref sig .tc .vmem S2048x1024 .bf16) (harg4 : arg4.IsWhole) (arg5 : Memref sig .tc .vmem S1024x1024 .bf16) (harg5 : arg5.IsWhole)
    (arg6 : Memref sig .tc .vmem S1024x1024 .f32) (harg6 : arg6.IsWhole) (ho : opens1 i) (hc : ¬closes1 i)
    (x0 : Vec F S1024x2048 .bf16) (x1 : Vec F S2048x1024 .bf16) (xo : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k1_pay2 (k1_pay1 (F := F)) x0 x1)) -∗ K ⟨⟩))
      ⊢ wp frame (wpE (defs₀ (F := F)) Variants.none c none) E (cc1__matmul_tanh_kernel i arg3 harg3 arg4 harg4 arg5 harg5 arg6 harg6) K := by
  simp only [cc1__matmul_tanh_kernel_eq_skeleton]; unfold cc1__matmul_tanh_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact ho | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  rw [read_after_whole_store _ _ zeros2]
  sl_unfold_run_names
  rw [View.readCov_unit_zero _ zeros2]
  simp only [View.readAt_eq_ld, harg3.read_unread, harg4.read_unread, View.ld_unit_zero (S := S1024x2048) zeros2, View.ld_unit_zero (S := S2048x1024) zeros2, View.ld_unit_zero (S := S1024x1024) zeros2]

end Cert.Kernel.Chain

end
-- ==== Proof.K.Acc1Closing.lean ====
/-
  Layer 1 of the chain, one grid point that CLOSES an output block (the contraction's second half, k = 1): the accumulator
  arrives holding what the opening point left, the product of this point's two input blocks is added to it, and tanh of
  the sum (narrowed to the output's format) is stored into the output's staging buffer, which is written back after the point.
-/
import proofs.«181803_j65481071399768_2_alg».proof.Proof.K.Acc1Opening

set_option maxRecDepth 16384

noncomputable section

namespace Cert.Kernel.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a closing point, on whole memrefs — the inputs' at their blocks `x0`, `x1`, the output's at anything, the accumulator
    at the contents `xs` the point before left — the body runs to the continuation holding the inputs' as they were, the
    accumulator at `xs` plus the product of the two blocks, and the output's buffer at the layer's closing payload of that sum. -/
theorem run1_closing (c : Dev nD) (i : grid1.Coords) (arg3 : Memref sig .tc .vmem S1024x2048 .bf16) (harg3 : arg3.IsWhole)
    (arg4 : Memref sig .tc .vmem S2048x1024 .bf16) (harg4 : arg4.IsWhole) (arg5 : Memref sig .tc .vmem S1024x1024 .bf16) (harg5 : arg5.IsWhole)
    (arg6 : Memref sig .tc .vmem S1024x1024 .f32) (harg6 : arg6.IsWhole) (ho : ¬opens1 i) (hc : closes1 i)
    (x0 : Vec F S1024x2048 .bf16) (x1 : Vec F S2048x1024 .bf16) (xs : Vec F S1024x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1
            ∗ owns (c : Thread nD τ) arg5 fullShare (k1_pay3 (k1_pay2 xs x0 x1))
            ∗ owns (c : Thread nD τ) arg6 fullShare (k1_pay2 xs x0 x1)) -∗ K ⟨⟩))
      ⊢ wp frame (wpE (defs₀ (F := F)) Variants.none c none) E (cc1__matmul_tanh_kernel i arg3 harg3 arg4 harg4 arg5 harg5 arg6 harg6) K := by
  simp only [cc1__matmul_tanh_kernel_eq_skeleton]; unfold cc1__matmul_tanh_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact ho | exact hc)
  sl_step
  have hacc : k1_pay2 (View.readAt (Elt F) arg6.view (Rect.unit ![0, 0] S1024x1024.size inb_S1024x1024_S1024x1024_0_0).toLoadRect (harg6.unread xs))
        (View.readAt (Elt F) arg3.view (Rect.unit ![0, 0] S1024x2048.size inb_S1024x2048_S1024x2048_0_0).toLoadRect (harg3.unread x0))
        (View.readAt (Elt F) arg4.view (Rect.unit ![0, 0] S2048x1024.size inb_S2048x1024_S2048x1024_0_0).toLoadRect (harg4.unread x1))
      = k1_pay2 xs x0 x1 := by
    simp only [View.readAt_eq_ld, harg3.read_unread, harg4.read_unread, harg6.read_unread, View.ld_unit_zero (S := S1024x2048) zeros2, View.ld_unit_zero (S := S2048x1024) zeros2, View.ld_unit_zero (S := S1024x1024) zeros2]
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [read_after_whole_store _ _ zeros2, View.readCov_unit_zero _ zeros2, hacc]
  iexists _; isplitr
  swap; · iexact HS
  ipureintro
  sl_unfold_run_names
  rw [read_after_whole_store _ _ zeros2]
  exact hacc

end Cert.Kernel.Chain

end
-- ==== Proof.K.Region1.lean ====
/-
  Layer 1 of the chain as one pipeline: what every staging buffer and the accumulator hold after each grid point.
  The contraction coordinate runs fastest, so the points come in pairs (2n, 2n+1) working on one output block: after the
  even point the accumulator holds  0 + A[i,0]·B[0,j], after the odd one that plus  A[i,1]·B[1,j], and the odd point
  leaves tanh of it in the output's staging buffer, which the pipeline writes back there and only there. Between points
  the region's invariant is the accumulator at that value beside the core's other scoped buffers; before the first point
  and after the last it is the plain rest the launch deals in.
-/
import proofs.«181803_j65481071399768_2_alg».proof.Proof.K.Acc1Closing

set_option maxRecDepth 16384

noncomputable section

namespace Cert.Kernel.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is the entry
    contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator after each point -/

/-- The point before `t` (the opening point of `t`'s pair when `t` closes it). -/
abbrev prev1 (t : Fin cfg1.N) : Fin cfg1.N := ⟨t.val - 1, Nat.lt_of_le_of_lt (Nat.sub_le _ _) t.isLt⟩

/-- What the accumulator holds after point `t`: at an even point the first half-product added to zero; at an odd point
    the second half-product added to what the even point before it left. -/
def accAt1 (c : Dev nD) (t : Fin cfg1.N) : Vec F S1024x1024 .f32 :=
  if t.val % 2 = 0 then k1_pay2 (k1_pay1 (F := F)) (iblk1 V c 0 t) (iblk1 V c 1 t)
  else k1_pay2 (k1_pay2 (k1_pay1 (F := F)) (iblk1 V c 0 (prev1 t)) (iblk1 V c 1 (prev1 t))) (iblk1 V c 0 t) (iblk1 V c 1 t)

theorem accAt1_even (c : Dev nD) (t : Fin cfg1.N) (h : t.val % 2 = 0) :
    accAt1 V c t = k1_pay2 (k1_pay1 (F := F)) (iblk1 V c 0 t) (iblk1 V c 1 t) := if_pos h

theorem accAt1_odd (c : Dev nD) (t : Fin cfg1.N) (h : t.val % 2 = 1) :
    accAt1 V c t = k1_pay2 (accAt1 V c (prev1 t)) (iblk1 V c 0 t) (iblk1 V c 1 t) := by
  have hp : (prev1 t).val % 2 = 0 := by show (t.val - 1) % 2 = 0; omega
  rw [accAt1_even V c (prev1 t) hp]
  exact if_neg (by omega)

/-! ## The region's invariant between points -/

/-- Before position `n`: at the region's entry what the launch hands it; afterwards the accumulator at what the point
    before left, the core's other scoped buffers, and the generator register at some state. -/
def held1 (c : Dev nD) : (n : ℕ) → n ≤ cfg1.N → sProp 𝕄
  | 0, _ => Pipeline.ΦA spec1 c
  | n + 1, hn => iprop(owns (c : Thread nD τ) acc1 fullShare (accAt1 V c ⟨n, hn⟩) ∗ others1 c ∗ (∃ r, prngReg c r))

theorem held1_zero (c : Dev nD) (n : ℕ) (h : n ≤ cfg1.N) (hz : n = 0) : held1 V c n h = Pipeline.ΦA spec1 c := by
  subst hz; rfl

theorem held1_succ (c : Dev nD) (n : ℕ) (hn : n < cfg1.N) :
    held1 V c (n + 1) hn = iprop(owns (c : Thread nD τ) acc1 fullShare (accAt1 V c ⟨n, hn⟩) ∗ others1 c ∗ (∃ r, prngReg c r)) := rfl

theorem held1_pos (c : Dev nD) (n : ℕ) (h : n ≤ cfg1.N) (hz : n ≠ 0) :
    held1 V c n h = iprop(owns (c : Thread nD τ) acc1 fullShare (accAt1 V c ⟨n - 1, by omega⟩) ∗ others1 c ∗ (∃ r, prngReg c r)) := by
  cases n with
  | zero => exact absurd rfl hz
  | succ n => rfl

/-! ## The pipeline's proof data -/

/-- The proof data of layer 1's pipeline on core `c`: the arrays as the region finds them; after the body at point `t`
    each input's buffer at its block, the output's at the closing payload of the accumulator; the invariant `held1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (accAt1 V c t)
  Φ t := held1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := rfl

theorem owed_eq1 (c : Dev nD) (t : Fin (cfg1.N + 1)) : (dat1 V c).owed t = 0 := rfl

theorem recorded_eq1 (c : Dev nD) (t : Fin (cfg1.N + 1)) : (dat1 V c).recorded t = Set.univ := rfl

theorem held1_castSucc (c : Dev nD) (t : Fin cfg1.N) :
    (dat1 V c).Φ t.castSucc = held1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (accAt1 V c t) := by dsimp only [dat1]

/-- At a point that closes a block (odd position: the second half of the contraction) the output window's staging buffer
    holds the layer's payload of the two half-products accumulated from zero. -/
theorem after1_2_closing (c : Dev nD) (t : Fin cfg1.N) (h : t.val % 2 = 1) :
    (dat1 V c).after 2 t = k1_pay3 (k1_pay2 (k1_pay2 (k1_pay1 (F := F)) (iblk1 V c 0 ⟨t.val - 1, Nat.lt_of_le_of_lt (Nat.sub_le _ _) t.isLt⟩) (iblk1 V c 1 ⟨t.val - 1, Nat.lt_of_le_of_lt (Nat.sub_le _ _) t.isLt⟩)) (iblk1 V c 0 t) (iblk1 V c 1 t)) := by
  rw [after1_2]; unfold accAt1; rw [if_neg (by omega)]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The invariant at the two ends and at a point's start -/

/-- What the launch hands the region is the invariant before the first point. -/
theorem hin1 (c : Dev nD) : Pipeline.ΦA spec1 c ⊢ (dat1 V c).Φ 0 := by
  rw [show (dat1 V c).Φ 0 = held1 V c 0 (Nat.zero_le _) from rfl, held1_zero V c 0 _ rfl]
  try exact Idealize.SL.BI.Entails.refl _

/-- Before an even point the accumulator is held at SOME contents (the body resets it), -/
theorem held1_opening (c : Dev nD) (t : Fin cfg1.N) :
    (dat1 V c).Φ t.castSucc ⊢ iprop((∃ d, owns (c : Thread nD τ) acc1 fullShare d) ∗ others1 c ∗ (∃ r, prngReg c r)) := by
  rw [held1_castSucc]
  by_cases hz : t.val = 0
  · rw [held1_zero V c _ _ hz]; exact restA1_split c
  · rw [held1_pos V c _ _ hz]
    iintro ⟨HS, HB, Hg⟩
    isplitl [HS]; · iexists _; iexact HS
    isplitl [HB]; · iexact HB
    iexact Hg

/-- and before an odd point at what the even point before it left. -/
theorem held1_closing (c : Dev nD) (t : Fin cfg1.N) (h : t.val % 2 = 1) :
    (dat1 V c).Φ t.castSucc ⊢ iprop(owns (c : Thread nD τ) acc1 fullShare (accAt1 V c (prev1 t)) ∗ others1 c ∗ (∃ r, prngReg c r)) := by
  rw [held1_castSucc, held1_pos V c _ _ (by omega)]
  try exact Idealize.SL.BI.Entails.refl _

/-- After any point the invariant gives the launch's rest back: the accumulator's contents are forgotten. -/
theorem hout1 (c : Dev nD) : (dat1 V c).Φ (Fin.last cfg1.N) ⊢ Pipeline.ΦA spec1 c := by
  rw [show (dat1 V c).Φ (Fin.last cfg1.N) = held1 V c (Fin.last cfg1.N).val (Nat.le_of_lt_succ (Fin.last cfg1.N).isLt) from rfl,
    held1_pos V c _ _ (by rw [Fin.val_last]; have : cfg1.N = 32 := N_1; omega)]
  exact restA1_forget c _

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the point's parity says which of the two runs applies;
    the invariant hands the body the accumulator (at anything before an even point, at the even point's value before an
    odd one) and takes it back at this point's value; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = held1 V c (t.val + 1) t.isLt from rfl, held1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  by_cases h0 : t.val % 2 = 0
  · rw [Dat.leavesExact_idle (dat1 V c) 2 t (idle1_2 t h0) (noFlush1_2 t h0)]
    rw [show (⟨t.val, t.isLt⟩ : Fin cfg1.N) = t from rfl, accAt1_even V c t h0]
    iintro ⟨HΦ, Ho, ⟨%d0, H0⟩, ⟨%d1, H1⟩, ⟨%d2, H2⟩⟩
    ihave HQ := (held1_opening V c t) $$ HΦ
    icases HQ with ⟨HS, HB, Hg⟩
    iapply (run1_opening c (grid1.coords t) _ _ _ _ _ _ _ _ ((opens1_iff t).mpr h0) (fun h => by have := (closes1_iff t).mp h; omega)
      (iblk1 V c 0 t) (iblk1 V c 1 t) _ Set.univ _)
    isplitl [H0]; · iexact H0
    isplitl [H1]; · iexact H1
    isplitl [H2]; · iexact H2
    isplitl [HS]; · iexact HS
    iintro ⟨H0, H1, H2, HS⟩
    isplitl [HS HB Hg]
    · isplitl [HS]; · iexact HS
      isplitl [HB]; · iexact HB
      iexact Hg
    isplitl [Ho]; · iexact Ho
    isplitl [H0]; · iexact H0
    isplitl [H1]; · iexact H1
    iexists _; iexact H2
  · have h1 : t.val % 2 = 1 := by omega
    rw [show (dat1 V c).leavesExact 2 t = owns (c : Thread nD τ) (ms1_2 t) fullShare ((dat1 V c).after 2 t) from by
      unfold Dat.leavesExact; rw [live1_2 t h1], after1_2]
    rw [show (⟨t.val, t.isLt⟩ : Fin cfg1.N) = t from rfl, accAt1_odd V c t h1]
    iintro ⟨HΦ, Ho, ⟨%d0, H0⟩, ⟨%d1, H1⟩, ⟨%d2, H2⟩⟩
    ihave HQ := (held1_closing V c t h1) $$ HΦ
    icases HQ with ⟨HS, HB, Hg⟩
    iapply (run1_closing c (grid1.coords t) _ _ _ _ _ _ _ _ (fun h => by have := (opens1_iff t).mp h; omega) ((closes1_iff t).mpr h1)
      (iblk1 V c 0 t) (iblk1 V c 1 t) (accAt1 V c (prev1 t)) Set.univ _)
    isplitl [H0]; · iexact H0
    isplitl [H1]; · iexact H1
    isplitl [H2]; · iexists _; iexact H2
    isplitl [HS]; · iexact HS
    iintro ⟨H0, H1, H2, HS⟩
    isplitl [HS HB Hg]
    · isplitl [HS]; · iexact HS
      isplitl [HB]; · iexact HB
      iexact Hg
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Chain

end
-- ==== Proof.K.Acc2Opening.lean ====
/-
  Layer 2 of the chain, one grid point that OPENS an output block (the contraction's first half, k = 0).
  The kernel keeps a 1024×1024 f32 accumulator in scratch: at k = 0 it is reset to zero, at every point the product of the
  point's two input blocks is added to it, and at k = 1 (the contraction's second half) tanh of it is stored into the
  output block. This module fixes the vocabulary of the layer's two kinds of point and runs the body at the first kind:
  the accumulator ends at  zero + A[i,0]·B[0,j]  (the skeleton's payload of the zero payload and the two blocks), the
  input blocks and the output's staging buffer are handed back untouched.
-/
import proofs.«181803_j65481071399768_2_alg».proof.Proof.K.WholeStore
import proofs.«181803_j65481071399768_2_alg».proof.Proof.Gen.Kernel.Launch
import proofs.«181803_j65481071399768_2_alg».proof.Proof.Gen.Kernel.Skeleton
import proofs.«181803_j65481071399768_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two kinds of point -/

/-- The point opens a block: its contraction coordinate is 0 (the body's first conditional, the accumulator's reset). -/
abbrev opens2 (i : grid2.Coords) : Prop := (Scalar.cmpi .ne (Scalar.extui (Scalar.cmpi .eq (BitVec.ofNat 32 (i 2).val) 0#32)) 0#32) = 1#1
/-- The point closes a block: its contraction coordinate is 1 (the body's second conditional, the output's store). -/
abbrev closes2 (i : grid2.Coords) : Prop := k2_cond2 i = 1#1

/-- The contraction coordinate runs fastest: the opening points are the even positions, -/
theorem opens2_iff : ∀ t : Fin cfg2.N, opens2 (grid2.coords t) ↔ t.val % 2 = 0 :=
  (by decide +kernel : ∀ t : Fin grid2.N, opens2 (grid2.coords t) ↔ t.val % 2 = 0)
/-- the closing points the odd ones. -/
theorem closes2_iff : ∀ t : Fin cfg2.N, closes2 (grid2.coords t) ↔ t.val % 2 = 1 :=
  (by decide +kernel : ∀ t : Fin grid2.N, closes2 (grid2.coords t) ↔ t.val % 2 = 1)

/-- The input windows are never idle. -/
theorem live2_0 : ∀ t : Fin cfg2.N, cfg2.idle 0 (grid2.coords t) = false := by decide +kernel
theorem live2_1 : ∀ t : Fin cfg2.N, cfg2.idle 1 (grid2.coords t) = false := by decide +kernel
/-- At an opening point the body stores nothing into the output window and the pipeline does not write it back. -/
theorem idle2_2 : ∀ t : Fin cfg2.N, t.val % 2 = 0 → cfg2.idle 2 (grid2.coords t) = true := by decide +kernel
theorem noFlush2_2 : ∀ t : Fin cfg2.N, t.val % 2 = 0 → (cfg2.win 2).flush t = false := by decide +kernel
/-- At a closing point the output window is live. -/
theorem live2_2 : ∀ t : Fin cfg2.N, t.val % 2 = 1 → cfg2.idle 2 (grid2.coords t) = false := by decide +kernel

/-! ## The memrefs the body is called with -/

abbrev ms2_0 (t : Fin cfg2.N) : Memref sig .tc .vmem S1024x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev acc2 : Memref sig .tc .vmem S1024x1024 .f32 := Memref.whole cc2_scratch0

/-- The core's other scoped buffers — the staging buffers and accumulators of the other two layers — each whole at some
    contents: this layer never touches them, the region's invariant carries them from entry to exit. -/
def others2 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_scratch0), ((c : Thread nD τ).loc cc1_scratch0) ↦{fullShare} f))

/-- What the region is handed at its entry is the accumulator at some contents, the other scoped buffers, and the
    generator register at some state; -/
theorem restA2_split (c : Dev nD) :
    (Pipeline.ΦA spec2 c : sProp 𝕄) ⊢ iprop((∃ d, owns (c : Thread nD τ) acc2 fullShare d) ∗ others2 c ∗ (∃ r, prngReg c r)) := by
  unfold Pipeline.ΦA; rw [scopedRest2_eq]; simp only [acc2, owns_whole]; unfold others2
  iintro ⟨⟨B0, B1, B2, B3, B4, B5, B6, B7, B8, B9, B10, B11, B12, B13, B14⟩, HP⟩
  isplitl [B14]; · iexact B14
  isplitr [HP]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    iexact B13
  iexact HP

/-- and the same three make what it gives back at its exit. -/
theorem restA2_join (c : Dev nD) :
    iprop((∃ d, owns (c : Thread nD τ) acc2 fullShare d) ∗ others2 c ∗ (∃ r, prngReg c r)) ⊢ (Pipeline.ΦA spec2 c : sProp 𝕄) := by
  unfold Pipeline.ΦA; rw [scopedRest2_eq]; simp only [acc2, owns_whole]; unfold others2
  iintro ⟨B14, ⟨B0, B1, B2, B3, B4, B5, B6, B7, B8, B9, B10, B11, B12, B13⟩, HP⟩
  isplitr [HP]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact B14
  iexact HP

/-- Whatever the accumulator holds, it, the other scoped buffers and the generator register make what the region gives back. -/
theorem restA2_forget (c : Dev nD) (X : Vec F S1024x1024 .f32) :
    iprop(owns (c : Thread nD τ) acc2 fullShare X ∗ others2 c ∗ (∃ r, prngReg c r)) ⊢ (Pipeline.ΦA spec2 c : sProp 𝕄) := by
  have h : iprop(owns (c : Thread nD τ) acc2 fullShare X ∗ others2 c ∗ (∃ r, prngReg c r))
      ⊢ (iprop((∃ d, owns (c : Thread nD τ) acc2 fullShare d) ∗ others2 c ∗ (∃ r, prngReg c r)) : sProp 𝕄) := by
    iintro ⟨HS, HB, Hg⟩
    isplitl [HS]; · iexists _; iexact HS
    isplitl [HB]; · iexact HB
    iexact Hg
  exact h.trans (restA2_join c)

/-! ## The body at an opening point -/

set_option maxHeartbeats 1000000 in
/-- At an opening point, on whole memrefs — the inputs' at their blocks `x0`, `x1`, the output's at contents `xo` it does
    not touch, the accumulator at anything — the body runs to the continuation holding the same, the accumulator now at the
    zero payload plus the product of the two blocks. -/
theorem run2_opening (c : Dev nD) (i : grid2.Coords) (arg3 : Memref sig .tc .vmem S1024x2048 .bf16) (harg3 : arg3.IsWhole)
    (arg4 : Memref sig .tc .vmem S2048x1024 .bf16) (harg4 : arg4.IsWhole) (arg5 : Memref sig .tc .vmem S1024x1024 .f32) (harg5 : arg5.IsWhole)
    (arg6 : Memref sig .tc .vmem S1024x1024 .f32) (harg6 : arg6.IsWhole) (ho : opens2 i) (hc : ¬closes2 i)
    (x0 : Vec F S1024x2048 .bf16) (x1 : Vec F S2048x1024 .bf16) (xo : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k2_pay2 (k2_pay1 (F := F)) x0 x1)) -∗ K ⟨⟩))
      ⊢ wp frame (wpE (defs₀ (F := F)) Variants.none c none) E (cc2__matmul_tanh_kernel i arg3 harg3 arg4 harg4 arg5 harg5 arg6 harg6) K := by
  simp only [cc2__matmul_tanh_kernel_eq_skeleton]; unfold cc2__matmul_tanh_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact ho | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  rw [read_after_whole_store _ _ zeros2]
  sl_unfold_run_names
  rw [View.readCov_unit_zero _ zeros2]
  simp only [View.readAt_eq_ld, harg3.read_unread, harg4.read_unread, View.ld_unit_zero (S := S1024x2048) zeros2, View.ld_unit_zero (S := S2048x1024) zeros2, View.ld_unit_zero (S := S1024x1024) zeros2]

end Cert.Kernel.Chain

end
-- ==== Proof.K.Acc2Closing.lean ====
/-
  Layer 2 of the chain, one grid point that CLOSES an output block (the contraction's second half, k = 1): the accumulator
  arrives holding what the opening point left, the product of this point's two input blocks is added to it, and tanh of
  the sum (narrowed to the output's format) is stored into the output's staging buffer, which is written back after the point.
-/
import proofs.«181803_j65481071399768_2_alg».proof.Proof.K.Acc2Opening

set_option maxRecDepth 16384

noncomputable section

namespace Cert.Kernel.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a closing point, on whole memrefs — the inputs' at their blocks `x0`, `x1`, the output's at anything, the accumulator
    at the contents `xs` the point before left — the body runs to the continuation holding the inputs' as they were, the
    accumulator at `xs` plus the product of the two blocks, and the output's buffer at the layer's closing payload of that sum. -/
theorem run2_closing (c : Dev nD) (i : grid2.Coords) (arg3 : Memref sig .tc .vmem S1024x2048 .bf16) (harg3 : arg3.IsWhole)
    (arg4 : Memref sig .tc .vmem S2048x1024 .bf16) (harg4 : arg4.IsWhole) (arg5 : Memref sig .tc .vmem S1024x1024 .f32) (harg5 : arg5.IsWhole)
    (arg6 : Memref sig .tc .vmem S1024x1024 .f32) (harg6 : arg6.IsWhole) (ho : ¬opens2 i) (hc : closes2 i)
    (x0 : Vec F S1024x2048 .bf16) (x1 : Vec F S2048x1024 .bf16) (xs : Vec F S1024x1024 .f32) (E : Set ℕ) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1
            ∗ owns (c : Thread nD τ) arg5 fullShare (k2_pay3 (k2_pay2 xs x0 x1))
            ∗ owns (c : Thread nD τ) arg6 fullShare (k2_pay2 xs x0 x1)) -∗ K ⟨⟩))
      ⊢ wp frame (wpE (defs₀ (F := F)) Variants.none c none) E (cc2__matmul_tanh_kernel i arg3 harg3 arg4 harg4 arg5 harg5 arg6 harg6) K := by
  simp only [cc2__matmul_tanh_kernel_eq_skeleton]; unfold cc2__matmul_tanh_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact ho | exact hc)
  sl_step
  have hacc : k2_pay2 (View.readAt (Elt F) arg6.view (Rect.unit ![0, 0] S1024x1024.size inb_S1024x1024_S1024x1024_0_0).toLoadRect (harg6.unread xs))
        (View.readAt (Elt F) arg3.view (Rect.unit ![0, 0] S1024x2048.size inb_S1024x2048_S1024x2048_0_0).toLoadRect (harg3.unread x0))
        (View.readAt (Elt F) arg4.view (Rect.unit ![0, 0] S2048x1024.size inb_S2048x1024_S2048x1024_0_0).toLoadRect (harg4.unread x1))
      = k2_pay2 xs x0 x1 := by
    simp only [View.readAt_eq_ld, harg3.read_unread, harg4.read_unread, harg6.read_unread, View.ld_unit_zero (S := S1024x2048) zeros2, View.ld_unit_zero (S := S2048x1024) zeros2, View.ld_unit_zero (S := S1024x1024) zeros2]
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_run_names
    rw [read_after_whole_store _ _ zeros2, View.readCov_unit_zero _ zeros2, hacc]
  iexists _; isplitr
  swap; · iexact HS
  ipureintro
  sl_unfold_run_names
  rw [read_after_whole_store _ _ zeros2]
  exact hacc

end Cert.Kernel.Chain

end
-- ==== Proof.K.Region2.lean ====
/-
  Layer 2 of the chain as one pipeline: what every staging buffer and the accumulator hold after each grid point.
  The contraction coordinate runs fastest, so the points come in pairs (2n, 2n+1) working on one output block: after the
  even point the accumulator holds  0 + A[i,0]·B[0,j], after the odd one that plus  A[i,1]·B[1,j], and the odd point
  leaves tanh of it in the output's staging buffer, which the pipeline writes back there and only there. Between points
  the region's invariant is the accumulator at that value beside the core's other scoped buffers; before the first point
  and after the last it is the plain rest the launch deals in.
-/
import proofs.«181803_j65481071399768_2_alg».proof.Proof.K.Acc2Closing

set_option maxRecDepth 16384

noncomputable section

namespace Cert.Kernel.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, for any proof data whose array is the entry
    contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The accumulator after each point -/

/-- The point before `t` (the opening point of `t`'s pair when `t` closes it). -/
abbrev prev2 (t : Fin cfg2.N) : Fin cfg2.N := ⟨t.val - 1, Nat.lt_of_le_of_lt (Nat.sub_le _ _) t.isLt⟩

/-- What the accumulator holds after point `t`: at an even point the first half-product added to zero; at an odd point
    the second half-product added to what the even point before it left. -/
def accAt2 (c : Dev nD) (t : Fin cfg2.N) : Vec F S1024x1024 .f32 :=
  if t.val % 2 = 0 then k2_pay2 (k2_pay1 (F := F)) (iblk2 V c 0 t) (iblk2 V c 1 t)
  else k2_pay2 (k2_pay2 (k2_pay1 (F := F)) (iblk2 V c 0 (prev2 t)) (iblk2 V c 1 (prev2 t))) (iblk2 V c 0 t) (iblk2 V c 1 t)

theorem accAt2_even (c : Dev nD) (t : Fin cfg2.N) (h : t.val % 2 = 0) :
    accAt2 V c t = k2_pay2 (k2_pay1 (F := F)) (iblk2 V c 0 t) (iblk2 V c 1 t) := if_pos h

theorem accAt2_odd (c : Dev nD) (t : Fin cfg2.N) (h : t.val % 2 = 1) :
    accAt2 V c t = k2_pay2 (accAt2 V c (prev2 t)) (iblk2 V c 0 t) (iblk2 V c 1 t) := by
  have hp : (prev2 t).val % 2 = 0 := by show (t.val - 1) % 2 = 0; omega
  rw [accAt2_even V c (prev2 t) hp]
  exact if_neg (by omega)

/-! ## The region's invariant between points -/

/-- Before position `n`: at the region's entry what the launch hands it; afterwards the accumulator at what the point
    before left, the core's other scoped buffers, and the generator register at some state. -/
def held2 (c : Dev nD) : (n : ℕ) → n ≤ cfg2.N → sProp 𝕄
  | 0, _ => Pipeline.ΦA spec2 c
  | n + 1, hn => iprop(owns (c : Thread nD τ) acc2 fullShare (accAt2 V c ⟨n, hn⟩) ∗ others2 c ∗ (∃ r, prngReg c r))

theorem held2_zero (c : Dev nD) (n : ℕ) (h : n ≤ cfg2.N) (hz : n = 0) : held2 V c n h = Pipeline.ΦA spec2 c := by
  subst hz; rfl

theorem held2_succ (c : Dev nD) (n : ℕ) (hn : n < cfg2.N) :
    held2 V c (n + 1) hn = iprop(owns (c : Thread nD τ) acc2 fullShare (accAt2 V c ⟨n, hn⟩) ∗ others2 c ∗ (∃ r, prngReg c r)) := rfl

theorem held2_pos (c : Dev nD) (n : ℕ) (h : n ≤ cfg2.N) (hz : n ≠ 0) :
    held2 V c n h = iprop(owns (c : Thread nD τ) acc2 fullShare (accAt2 V c ⟨n - 1, by omega⟩) ∗ others2 c ∗ (∃ r, prngReg c r)) := by
  cases n with
  | zero => exact absurd rfl hz
  | succ n => rfl

/-! ## The pipeline's proof data -/

/-- The proof data of layer 2's pipeline on core `c`: the arrays as the region finds them; after the body at point `t`
    each input's buffer at its block, the output's at the closing payload of the accumulator; the invariant `held2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (accAt2 V c t)
  Φ t := held2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem q_eq2 (c : Dev nD) (w : Fin cfg2.W) : (dat2 V c).q w = fullShare := rfl

theorem owed_eq2 (c : Dev nD) (t : Fin (cfg2.N + 1)) : (dat2 V c).owed t = 0 := rfl

theorem recorded_eq2 (c : Dev nD) (t : Fin (cfg2.N + 1)) : (dat2 V c).recorded t = Set.univ := rfl

theorem held2_castSucc (c : Dev nD) (t : Fin cfg2.N) :
    (dat2 V c).Φ t.castSucc = held2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (accAt2 V c t) := by dsimp only [dat2]

/-- At a point that closes a block (odd position: the second half of the contraction) the output window's staging buffer
    holds the layer's payload of the two half-products accumulated from zero. -/
theorem after2_2_closing (c : Dev nD) (t : Fin cfg2.N) (h : t.val % 2 = 1) :
    (dat2 V c).after 2 t = k2_pay3 (k2_pay2 (k2_pay2 (k2_pay1 (F := F)) (iblk2 V c 0 ⟨t.val - 1, Nat.lt_of_le_of_lt (Nat.sub_le _ _) t.isLt⟩) (iblk2 V c 1 ⟨t.val - 1, Nat.lt_of_le_of_lt (Nat.sub_le _ _) t.isLt⟩)) (iblk2 V c 0 t) (iblk2 V c 1 t)) := by
  rw [after2_2]; unfold accAt2; rw [if_neg (by omega)]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The invariant at the two ends and at a point's start -/

/-- What the launch hands the region is the invariant before the first point. -/
theorem hin2 (c : Dev nD) : Pipeline.ΦA spec2 c ⊢ (dat2 V c).Φ 0 := by
  rw [show (dat2 V c).Φ 0 = held2 V c 0 (Nat.zero_le _) from rfl, held2_zero V c 0 _ rfl]
  try exact Idealize.SL.BI.Entails.refl _

/-- Before an even point the accumulator is held at SOME contents (the body resets it), -/
theorem held2_opening (c : Dev nD) (t : Fin cfg2.N) :
    (dat2 V c).Φ t.castSucc ⊢ iprop((∃ d, owns (c : Thread nD τ) acc2 fullShare d) ∗ others2 c ∗ (∃ r, prngReg c r)) := by
  rw [held2_castSucc]
  by_cases hz : t.val = 0
  · rw [held2_zero V c _ _ hz]; exact restA2_split c
  · rw [held2_pos V c _ _ hz]
    iintro ⟨HS, HB, Hg⟩
    isplitl [HS]; · iexists _; iexact HS
    isplitl [HB]; · iexact HB
    iexact Hg

/-- and before an odd point at what the even point before it left. -/
theorem held2_closing (c : Dev nD) (t : Fin cfg2.N) (h : t.val % 2 = 1) :
    (dat2 V c).Φ t.castSucc ⊢ iprop(owns (c : Thread nD τ) acc2 fullShare (accAt2 V c (prev2 t)) ∗ others2 c ∗ (∃ r, prngReg c r)) := by
  rw [held2_castSucc, held2_pos V c _ _ (by omega)]
  try exact Idealize.SL.BI.Entails.refl _

/-- After any point the invariant gives the launch's rest back: the accumulator's contents are forgotten. -/
theorem hout2 (c : Dev nD) : (dat2 V c).Φ (Fin.last cfg2.N) ⊢ Pipeline.ΦA spec2 c := by
  rw [show (dat2 V c).Φ (Fin.last cfg2.N) = held2 V c (Fin.last cfg2.N).val (Nat.le_of_lt_succ (Fin.last cfg2.N).isLt) from rfl,
    held2_pos V c _ _ (by rw [Fin.val_last]; have : cfg2.N = 32 := N_2; omega)]
  exact restA2_forget c _

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their blocks; the point's parity says which of the two runs applies;
    the invariant hands the body the accumulator (at anything before an even point, at the even point's value before an
    odd one) and takes it back at this point's value; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = held2 V c (t.val + 1) t.isLt from rfl, held2_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  by_cases h0 : t.val % 2 = 0
  · rw [Dat.leavesExact_idle (dat2 V c) 2 t (idle2_2 t h0) (noFlush2_2 t h0)]
    rw [show (⟨t.val, t.isLt⟩ : Fin cfg2.N) = t from rfl, accAt2_even V c t h0]
    iintro ⟨HΦ, Ho, ⟨%d0, H0⟩, ⟨%d1, H1⟩, ⟨%d2, H2⟩⟩
    ihave HQ := (held2_opening V c t) $$ HΦ
    icases HQ with ⟨HS, HB, Hg⟩
    iapply (run2_opening c (grid2.coords t) _ _ _ _ _ _ _ _ ((opens2_iff t).mpr h0) (fun h => by have := (closes2_iff t).mp h; omega)
      (iblk2 V c 0 t) (iblk2 V c 1 t) _ Set.univ _)
    isplitl [H0]; · iexact H0
    isplitl [H1]; · iexact H1
    isplitl [H2]; · iexact H2
    isplitl [HS]; · iexact HS
    iintro ⟨H0, H1, H2, HS⟩
    isplitl [HS HB Hg]
    · isplitl [HS]; · iexact HS
      isplitl [HB]; · iexact HB
      iexact Hg
    isplitl [Ho]; · iexact Ho
    isplitl [H0]; · iexact H0
    isplitl [H1]; · iexact H1
    iexists _; iexact H2
  · have h1 : t.val % 2 = 1 := by omega
    rw [show (dat2 V c).leavesExact 2 t = owns (c : Thread nD τ) (ms2_2 t) fullShare ((dat2 V c).after 2 t) from by
      unfold Dat.leavesExact; rw [live2_2 t h1], after2_2]
    rw [show (⟨t.val, t.isLt⟩ : Fin cfg2.N) = t from rfl, accAt2_odd V c t h1]
    iintro ⟨HΦ, Ho, ⟨%d0, H0⟩, ⟨%d1, H1⟩, ⟨%d2, H2⟩⟩
    ihave HQ := (held2_closing V c t h1) $$ HΦ
    icases HQ with ⟨HS, HB, Hg⟩
    iapply (run2_closing c (grid2.coords t) _ _ _ _ _ _ _ _ (fun h => by have := (opens2_iff t).mp h; omega) ((closes2_iff t).mpr h1)
      (iblk2 V c 0 t) (iblk2 V c 1 t) (accAt2 V c (prev2 t)) Set.univ _)
    isplitl [H0]; · iexact H0
    isplitl [H1]; · iexact H1
    isplitl [H2]; · iexists _; iexact H2
    isplitl [HS]; · iexact HS
    iintro ⟨H0, H1, H2, HS⟩
    isplitl [HS HB Hg]
    · isplitl [HS]; · iexact HS
      isplitl [HB]; · iexact HB
      iexact Hg
    isplitl [Ho]; · iexact Ho
    isplitl [H0]; · iexact H0
    isplitl [H1]; · iexact H1
    iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Chain

end
-- ==== Proof.K.MainRun.lean ====
import proofs.«181803_j65481071399768_2_alg».proof.Proof.K.Region0
import proofs.«181803_j65481071399768_2_alg».proof.Proof.K.Region1
import proofs.«181803_j65481071399768_2_alg».proof.Proof.K.Region2
import proofs.«181803_j65481071399768_2_alg».proof.Proof.Gen.Kernel.Regions
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary of the program: a fold from the launch memory

The program is: a stretch of host operations (the casts of the arguments), the three layers' regions one after the
other with nothing between them, and a last stretch of host operations (the row means, the cosine features, the
softmax). -/

/-- Core `c`'s buffers at launch. -/
abbrev W0 : Dev nD → Valuation τ sig (Elt F) := fun c b => (s₀ m ρ).mem ((c : Dev nD), b)
/-- After the first host stretch: what layer 0's region is entered from. -/
abbrev W1 : Dev nD → Valuation τ sig (Elt F) := fun c => StableHlo.after hostOps0 (W0 m ρ c)
/-- The same contents, read at the TensorCore's references. -/
abbrev V1 : (c : Dev nD) → (b : Ref sig .tc) → Buf (Elt F) ((c : Thread nD τ).loc b) := fun c b => W1 m ρ c b

/-- When layer 0's region ends: its three arrays hold what the pipeline leaves (an operand as it was found, the
    result with every block written back, in point order), every other buffer what it held when the region began. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same contents, read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- When layer 1's region ends: its three arrays hold what the pipeline leaves (an operand as it was found, the
    result with every block written back, in point order), every other buffer what it held when the region began. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same contents, read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- When layer 2's region ends: its three arrays hold what the pipeline leaves (an operand as it was found, the
    result with every block written back, in point order), every other buffer what it held when the region began. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same contents, read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the last host stretch: what the program returns from. -/
abbrev W5 : Dev nD → Valuation τ sig (Elt F) := fun c => StableHlo.after hostOps3 (W4 m ρ c)

/-! ## The arguments end as launched

No host operation writes an argument (the first stretch writes the casts' results, the last the tail's), and no
region has an argument among its arrays (a layer reads the cast of its weight, not the weight): at an argument's
buffer the fold walks back to the launch memory. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps3 _ hostOps3_writes (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps3 _ hostOps3_writes (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! # The run: the program's segments from the launch to the return

## The proof data of the three pipelines and the thread state -/

/-- Every pipeline's proof data, each at the contents its region is entered from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a region's
    invariant takes it in and gives it back) and what the core owes, which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W5 m ρ c) ∗ ∃ r, prngReg c r)

/-- The last host stretch's end is the last thread state beside the core owing nothing (the same assertions, grouped
    the other way). -/
theorem last_state (c : Dev nD) :
    (iprop(StableHlo.held (c : Thread nD τ) (Pipeline.ucRefs τ sig) (W5 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- Layer 0's region over the thread state: entered from every unscoped buffer at `W1`, left at `W2`. Its
    three arrays are split out of the unscoped buffers at entry and put back, at what the pipeline leaves, at the exit;
    the generator register goes into the region's invariant and comes back; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed_eq0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q_eq0 (V1 m ρ) c w) (V1 m ρ c) fun w => A_eq0 (V1 m ρ) c w
    rw [Pipeline.unscopedBufs_held] at hsplit
    have hO : (pdats m ρ 0 c).owed 0 = 0 := owed_eq0 (V1 m ρ) c 0
    have hB : ∀ W : Finset (SemLoc sig × Unit), (↑W : Set (SemLoc sig × Unit)) ⊆ (pdats m ρ 0 c).bound () 0 :=
      fun W x _ => Or.inl ((recorded_eq0 (V1 m ρ) c 0).symm ▸ Set.mem_univ x)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hO]
      icases HO with ⟨%W, HO⟩; iexists W; isplitr; · ipureintro; exact hB W
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q_eq0 (V1 m ρ) c w)
      (V1 m ρ c) (V2 m ρ c) ((pdats m ρ 0 c).arrAt · cfg0.N) (hF0 m ρ c) (hrest0 m ρ c)
    rw [Pipeline.unscopedBufs_held] at hjoin
    have hO : (pdats m ρ 0 c).owed (Fin.last (Pipeline.pin (pcfgs (F := F)) adm 0).N) = 0 := owed_eq0 (V1 m ρ) c (Fin.last cfg0.N)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hO]
    icases HO with ⟨%W, -, HO⟩; iexists W; iexact HO

set_option backward.isDefEq.respectTransparency.types false in
/-- Layer 1's region over the thread state: entered from every unscoped buffer at `W2`, left at `W3`. Its
    three arrays are split out of the unscoped buffers at entry and put back, at what the pipeline leaves, at the exit;
    the generator register goes into the region's invariant and comes back; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun c t => owed_eq1 (V2 m ρ) c t
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q_eq1 (V2 m ρ) c w) (V2 m ρ c) fun w => A_eq1 (V2 m ρ) c w
    rw [Pipeline.unscopedBufs_held] at hsplit
    have hO : (pdats m ρ 1 c).owed 0 = 0 := owed_eq1 (V2 m ρ) c 0
    have hB : ∀ W : Finset (SemLoc sig × Unit), (↑W : Set (SemLoc sig × Unit)) ⊆ (pdats m ρ 1 c).bound () 0 :=
      fun W x _ => Or.inl ((recorded_eq1 (V2 m ρ) c 0).symm ▸ Set.mem_univ x)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hO]
      icases HO with ⟨%W, HO⟩; iexists W; isplitr; · ipureintro; exact hB W
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q_eq1 (V2 m ρ) c w)
      (V2 m ρ c) (V3 m ρ c) ((pdats m ρ 1 c).arrAt · cfg1.N) (hF1 m ρ c) (hrest1 m ρ c)
    rw [Pipeline.unscopedBufs_held] at hjoin
    have hO : (pdats m ρ 1 c).owed (Fin.last (Pipeline.pin (pcfgs (F := F)) adm 1).N) = 0 := owed_eq1 (V2 m ρ) c (Fin.last cfg1.N)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hO]
    icases HO with ⟨%W, -, HO⟩; iexists W; iexact HO

set_option backward.isDefEq.respectTransparency.types false in
/-- Layer 2's region over the thread state: entered from every unscoped buffer at `W3`, left at `W4`. Its
    three arrays are split out of the unscoped buffers at entry and put back, at what the pipeline leaves, at the exit;
    the generator register goes into the region's invariant and comes back; nothing is owed; the kernel has no
    semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun c t => owed_eq2 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun w => q_eq2 (V3 m ρ) c w) (V3 m ρ c) fun w => A_eq2 (V3 m ρ) c w
    rw [Pipeline.unscopedBufs_held] at hsplit
    have hO : (pdats m ρ 2 c).owed 0 = 0 := owed_eq2 (V3 m ρ) c 0
    have hB : ∀ W : Finset (SemLoc sig × Unit), (↑W : Set (SemLoc sig × Unit)) ⊆ (pdats m ρ 2 c).bound () 0 :=
      fun W x _ => Or.inl ((recorded_eq2 (V3 m ρ) c 0).symm ▸ Set.mem_univ x)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hO]
      icases HO with ⟨%W, HO⟩; iexists W; isplitr; · ipureintro; exact hB W
      iexact HO
    isplitl [Hp]; · iexact Hp
    iexact Hrest
  hin c := by
    refine BIBase.Entails.trans ?_ (hin2 (V3 m ρ) c)
    unfold Pipeline.ΦA
    iintro ⟨Hp, -, Hr⟩
    isplitl [Hr]; · iexact Hr
    iexact Hp
  hout c := by
    rw [Pipeline.ownSems0_none]
    refine BIBase.Entails.trans (hout2 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun w => q_eq2 (V3 m ρ) c w)
      (V3 m ρ c) (V4 m ρ c) ((pdats m ρ 2 c).arrAt · cfg2.N) (hF2 m ρ c) (hrest2 m ρ c)
    rw [Pipeline.unscopedBufs_held] at hjoin
    have hO : (pdats m ρ 2 c).owed (Fin.last (Pipeline.pin (pcfgs (F := F)) adm 2).N) = 0 := owed_eq2 (V3 m ρ) c (Fin.last cfg2.N)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hO]
    icases HO with ⟨%W, -, HO⟩; iexists W; iexact HO

/-! ## The program as segments, and the launch -/

/-- The program's five segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- The program IS the run of the segments: it is the chain of its items, and the segments' run is that chain, by
    unfolding both. -/
theorem main_run (c : Dev nD) : main (F := F) c = Pipeline.Seg.run (segs m ρ) := (main_chain c).trans (by chain_rfl)

set_option backward.isDefEq.respectTransparency.types false in
/-- From any memory with zero counters every weakly fair execution of the program on the TensorCores terminates,
    nothing faulting, and in every final state each unscoped buffer of each core holds what the fold says. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

/-- The result's buffer ends at what the fold says, and the arguments as launched. -/
theorem run_result : θ_run defs (onTc (τ := τ) (main (F := F))) ⟨m, fun _ => 0, ρ⟩ (fun r => ∀ c : Dev nD,
      r.2.mem ((c.tc : Thread nD τ).loc main_v23) = W5 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v23 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.Kernel.Chain

end
-- ==== Proof.KI.HostTail.lean ====
import proofs.«181803_j65481071399768_2_alg».proof.Proof.Gen.KernelIdeal.Launch
import Idealize.ShloMosaic.Lib.StableHlo.Run

/-!
# What follows the third layer

After the third layer the program takes the mean of every row of its 4096 × 4096 result, the cosine c of each
mean, joins c with 1 - c into one vector of length 8192, and normalises it: every entry is shifted by the
largest, exponentiated, and divided by the sum of the exponentials. This module names that whole map as one
function of the third layer's result, stage by stage, and shows that it is what the program's last stretch of
array operations leaves in its result.
-/

noncomputable section

namespace Cert.KernelIdeal.Chain

open Idealize.ShloMosaic Idealize.ShloMosaic.TcCoe Idealize.SL.Sem
open Cert.KernelIdeal Cert.KernelIdeal.Gen

variable {F : FTy → Type} [FloatOps F]

/-- The sum of every row, from zero. -/
def rowSum (h : (⟨S4096x4096, .f32⟩ : BufTy).Contents (Elt F)) : (⟨S4096, .f32⟩ : BufTy).Contents (Elt F) :=
  Host.reduceAdd h (constant S_ .f32 0x00000000#32) reducesTo_S4096x4096_S4096_d1 h_S_

/-- The mean of every row: its sum divided by 4096. -/
def rowMean (h : (⟨S4096x4096, .f32⟩ : BufTy).Contents (Elt F)) : (⟨S4096, .f32⟩ : BufTy).Contents (Elt F) :=
  Host.divf (rowSum h) (broadcastInDim S4096 ![] bcast_S_S4096 (constant S_ .f32 0x45800000#32))

/-- The cosine of every row's mean. -/
def cosMean (h : (⟨S4096x4096, .f32⟩ : BufTy).Contents (Elt F)) : (⟨S4096, .f32⟩ : BufTy).Contents (Elt F) :=
  Host.cos (rowMean h)

/-- One minus that cosine. -/
def oneSubCos (h : (⟨S4096x4096, .f32⟩ : BufTy).Contents (Elt F)) : (⟨S4096, .f32⟩ : BufTy).Contents (Elt F) :=
  subf (broadcastInDim S4096 ![] bcast_S_S4096 (constant S_ .f32 0x3F800000#32)) (cosMean h)

/-- The two joined: the cosines, then their complements. -/
def joined (h : (⟨S4096x4096, .f32⟩ : BufTy).Contents (Elt F)) : (⟨S8192, .f32⟩ : BufTy).Contents (Elt F) :=
  concatenate S8192 0 [⟨S4096, cosMean h⟩, ⟨S4096, oneSubCos h⟩] concatenates_S4096_S4096_S8192_d0

/-- The largest entry of the joined vector (from minus infinity, and once more against minus infinity). -/
def largest (h : (⟨S4096x4096, .f32⟩ : BufTy).Contents (Elt F)) : (⟨S_, .f32⟩ : BufTy).Contents (Elt F) :=
  maximumf (constant S_ .f32 0xFF800000#32)
    (Host.reduce FloatOps.maximumf (joined h) (constant S_ .f32 0xFF800000#32) reducesTo_S8192_S_d0 h_S_)

/-- The exponential of every entry shifted by the largest. -/
def shiftedExp (h : (⟨S4096x4096, .f32⟩ : BufTy).Contents (Elt F)) : (⟨S8192, .f32⟩ : BufTy).Contents (Elt F) :=
  Host.exp (subf (joined h) (broadcastInDim S8192 ![0] bcast_S1_S8192_0 (broadcastInDim S1 ![] bcast_S_S1 (largest h))))

/-- The sum of those exponentials, from zero. -/
def expSum (h : (⟨S4096x4096, .f32⟩ : BufTy).Contents (Elt F)) : (⟨S_, .f32⟩ : BufTy).Contents (Elt F) :=
  Host.reduceAdd (shiftedExp h) (constant S_ .f32 0x00000000#32) reducesTo_S8192_S_d0 h_S_

/-- Everything after the third layer, as one function of the third layer's result: the normalised exponentials of
    the joined vector. -/
def tail (h : FVec F S4096x4096 .f32) : FVec F S8192 .f32 :=
  Host.divf (shiftedExp h) (broadcastInDim S8192 ![0] bcast_S1_S8192_0 (broadcastInDim S1 ![] bcast_S_S1 (expSum h)))

/-- The last stretch of array operations leaves, in the program's result, the tail of what the third layer wrote. -/
theorem tail_eq (W : Valuation τ sig (Elt F)) :
    StableHlo.after hostOps3 W (Proc.devRef .tc main_v23) = tail (W (Proc.devRef .tc main_v6)) := by
  after_results_simp
  rfl

end Cert.KernelIdeal.Chain

end
-- ==== Proof.KI.BlockGeom0.lean ====
import proofs.«181803_j65481071399768_2_alg».proof.Proof.Gen.KernelIdeal.Launch
import proofs.«181803_j65481071399768_2_alg».proof.Proof.Gen.KernelIdeal.Points
import Idealize.ShloMosaic.Lib.Pipeline.Value

/-!
# Where the blocks of the first layer sit in their matrices

The first layer walks a 4 × 4 × 2 grid, the contraction half `k` fastest: point `t` has row block `i = t / 8`,
column block `j = t / 2 % 4` and half `k = t % 2`. The weight block read there is (i, k), the input block (k, j)
and the output block (i, j). Output blocks are 1024 × 1024 and are written back at the odd points; the sixteen odd
points' blocks cover the 4096 × 4096 output: entry (r, q) lies in the block of point ((r / 1024)·4 + q / 1024)·2 + 1.
-/

set_option maxRecDepth 16384

noncomputable section

namespace Cert.KernelIdeal.Chain

open Idealize.ShloMosaic Idealize.ShloMosaic.TcCoe
open Idealize.SL Idealize.SL.Sem
open Cert.KernelIdeal Cert.KernelIdeal.Gen

/-- The three index maps in closed form, decided over the 32 grid points. -/
theorem block_index0 : ∀ t : Fin cfg0.N,
    win0_0.index t (0 : Fin 2) = t.val / 8 ∧ win0_0.index t (1 : Fin 2) = t.val % 2
    ∧ win0_1.index t (0 : Fin 2) = t.val % 2 ∧ win0_1.index t (1 : Fin 2) = t.val / 2 % 4
    ∧ win0_2.index t (0 : Fin 2) = t.val / 8 ∧ win0_2.index t (1 : Fin 2) = t.val / 2 % 4 :=
  (by decide +kernel : ∀ t : Fin grid0.N,
    win0_0.index t (0 : Fin 2) = t.val / 8 ∧ win0_0.index t (1 : Fin 2) = t.val % 2
    ∧ win0_1.index t (0 : Fin 2) = t.val % 2 ∧ win0_1.index t (1 : Fin 2) = t.val / 2 % 4
    ∧ win0_2.index t (0 : Fin 2) = t.val / 8 ∧ win0_2.index t (1 : Fin 2) = t.val / 2 % 4)

/-- At a point `t` that closes a block (odd position) and at the point before it, which opened the block: both read
    row block `t / 8` of the weights and column block `t / 2 % 4` of the input, the opening point the lower half of
    the contraction range and the closing point the upper half; the output block is (t / 8, t / 2 % 4). -/
theorem block_index_closing0 (t : Fin cfg0.N) (h : t.val % 2 = 1) (hlt : t.val - 1 < cfg0.N) :
    win0_0.index ⟨t.val - 1, hlt⟩ (0 : Fin 2) = t.val / 8 ∧ win0_0.index ⟨t.val - 1, hlt⟩ (1 : Fin 2) = 0
    ∧ win0_1.index ⟨t.val - 1, hlt⟩ (0 : Fin 2) = 0 ∧ win0_1.index ⟨t.val - 1, hlt⟩ (1 : Fin 2) = t.val / 2 % 4
    ∧ win0_0.index t (0 : Fin 2) = t.val / 8 ∧ win0_0.index t (1 : Fin 2) = 1
    ∧ win0_1.index t (0 : Fin 2) = 1 ∧ win0_1.index t (1 : Fin 2) = t.val / 2 % 4
    ∧ win0_2.index t (0 : Fin 2) = t.val / 8 ∧ win0_2.index t (1 : Fin 2) = t.val / 2 % 4
    ∧ t.val / 8 < 4 ∧ t.val / 2 % 4 < 4 := by
  have hN : grid0.N = 32 := N_0
  have ht : t.val < 32 := hN ▸ t.isLt
  obtain ⟨p00, p01, p10, p11, -, -⟩ := block_index0 ⟨t.val - 1, hlt⟩
  obtain ⟨a00, a01, a10, a11, o0, o1⟩ := block_index0 t
  dsimp only at p00 p01 p10 p11
  refine ⟨?_, ?_, ?_, ?_, ?_, ?_, ?_, ?_, ?_, ?_, ?_, ?_⟩ <;> omega

/-- An entry of the output matrix is in the block of point `t` iff each coordinate is in that block's range. -/
theorem mem_out_block0 (t : Fin cfg0.N) (i : S4096x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v4).slice (win0_2.rect t)).set ↔ _
  rw [View.set_slice_whole, Rect.mem_set_unit]
  exact Iff.rfl

/-- Every entry of the output matrix lies in the block of some point that writes back. -/
theorem out_cover0 (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hN : grid0.N = 32 := N_0
  obtain ⟨t, ht⟩ : ∃ t : Fin cfg0.N, t.val = ((i 0).val / 1024 * 4 + (i 1).val / 1024) * 2 + 1 :=
    ⟨⟨((i 0).val / 1024 * 4 + (i 1).val / 1024) * 2 + 1, by show _ < grid0.N; omega⟩, rfl⟩
  refine ⟨t, (flush0_2 t).mpr (by omega), ?_⟩
  rw [mem_out_block0]
  obtain ⟨-, -, -, -, e0, e1⟩ := block_index0 t
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

end Cert.KernelIdeal.Chain

end
-- ==== Proof.KI.Payload.lean ====
import proofs.«181803_j65481071399768_2_alg».proof.Proof.Gen.KernelIdeal.Skeleton
import Idealize.ShloMosaic.PureOps.Ideal.Laws
import Idealize.ShloMosaic.Lib.ValueIdx
import Idealize.ShloMosaic.Lib.Pipeline.Value

/-!
# The three values a grid point stores, read at an index

At the extended reals the accumulator's reset is the zero matrix, the accumulation step adds to the accumulator
the product of a 1024 × 2048 block with a 2048 × 1024 block (a sum over the 2048 contracted indices), and the
closing step is the hyperbolic tangent, element by element (the narrowing to a shorter format is the identity).
-/

noncomputable section

namespace Cert.KernelIdeal.Chain

open Idealize.ShloMosaic Idealize.ShloMosaic.ValueIdx
open Cert.KernelIdeal Cert.KernelIdeal.Gen
open scoped BigOperators

local notation "D₁" => dot_S1024x2048_S2048x1024_S1024x1024_1_0_0_1_n_n

/-! ## The operand indices of the block product -/

theorem lhs_row (i : S1024x1024.Idx) (q : (D₁).contr.Idx) : ((D₁).lhsIdx i q 0).val = (i 0).val := by
  unfold DotDims.lhsIdx
  rw [dif_neg (show ¬(0 : Fin S1024x2048.rank) ∈ (D₁).lhsBatch by decide),
    dif_pos (show (0 : Fin S1024x2048.rank) ∈ (D₁).lhsNonContracting by decide)]
  rfl

theorem lhs_col (i : S1024x1024.Idx) (q : (D₁).contr.Idx) : ((D₁).lhsIdx i q 1).val = (q ⟨0, by decide⟩).val :=
  (D₁).lhsIdx_val_of_single rfl i q

theorem rhs_row (i : S1024x1024.Idx) (q : (D₁).contr.Idx) : ((D₁).rhsIdx i q 0).val = (q ⟨0, by decide⟩).val :=
  (D₁).rhsIdx_val_of_single rfl i q

theorem rhs_col (i : S1024x1024.Idx) (q : (D₁).contr.Idx) : ((D₁).rhsIdx i q 1).val = (i 1).val := by
  unfold DotDims.rhsIdx
  rw [dif_neg (show ¬(1 : Fin S2048x1024.rank) ∈ (D₁).rhsBatch by decide),
    dif_pos (show (1 : Fin S2048x1024.rank) ∈ (D₁).rhsNonContracting by decide)]
  rfl

/-- The block product into the zero matrix, at row r and column c: the contraction of row r of the left
    block with column c of the right block. -/
theorem matmul_zero_ix2 (a : FVec Ideal S1024x2048 .bf16) (b : FVec Ideal S2048x1024 .bf16) (r c : Fin 1024) :
    matmul (F := Ideal) (φ₁ := .bf16) (φ₂ := .bf16) D₁ none a b (constant S1024x1024 .f32 0x00000000#32) (ix2 r c)
      = ∑ k : Fin 2048, a (ix2 r k) * b (ix2 k c) := by
  simp only [matmul]
  rw [Ideal.matmul_constant_zero_apply, ← Equiv.sum_comp (contrEquiv1 D₁ 2048 rfl rfl).symm]
  refine Finset.sum_congr rfl fun k _ => ?_
  have hk := contrEquiv1_symm_val D₁ 2048 rfl rfl k
  have el : (D₁).lhsIdx (ix2 r c) ((contrEquiv1 D₁ 2048 rfl rfl).symm k) = ix2 r k := funext fun x => Fin.ext (by
    match x with
    | ⟨0, _⟩ => exact lhs_row _ _
    | ⟨1, _⟩ => exact (lhs_col _ _).trans hk)
  have er : (D₁).rhsIdx (ix2 r c) ((contrEquiv1 D₁ 2048 rfl rfl).symm k) = ix2 k c := funext fun x => Fin.ext (by
    match x with
    | ⟨0, _⟩ => exact (rhs_row _ _).trans hk
    | ⟨1, _⟩ => exact rhs_col _ _)
  rw [el, er]

/-! ## Layer one -/

theorem k0_pay1_apply (j : S1024x1024.Idx) : k0_pay1 (F := Ideal) j = 0 := by
  unfold k0_pay1
  rw [shapeCast_self]
  exact Ideal.ofBits_zero_f32

theorem k0_pay2_apply (v3 : Vec Ideal S1024x1024 .f32) (v4 : Vec Ideal S1024x2048 .bf16) (v6 : Vec Ideal S2048x1024 .bf16)
    (r c : Fin 1024) :
    k0_pay2 v3 v4 v6 (ix2 r c) = v3 (ix2 r c) + ∑ k : Fin 2048, v4 (ix2 r k) * v6 (ix2 k c) := by
  unfold k0_pay2
  rw [shapeCast_self, shapeCast_self, shapeCast_self, addf_apply, matmul_zero_ix2]

theorem k0_pay3_apply (v : Vec Ideal S1024x1024 .f32) (j : S1024x1024.Idx) : k0_pay3 v j = Ideal.tanh (v j) := rfl

/-! ## Layer two -/

theorem k1_pay1_apply (j : S1024x1024.Idx) : k1_pay1 (F := Ideal) j = 0 := by
  unfold k1_pay1
  rw [shapeCast_self]
  exact Ideal.ofBits_zero_f32

theorem k1_pay2_apply (v3 : Vec Ideal S1024x1024 .f32) (v4 : Vec Ideal S1024x2048 .bf16) (v6 : Vec Ideal S2048x1024 .bf16)
    (r c : Fin 1024) :
    k1_pay2 v3 v4 v6 (ix2 r c) = v3 (ix2 r c) + ∑ k : Fin 2048, v4 (ix2 r k) * v6 (ix2 k c) := by
  unfold k1_pay2
  rw [shapeCast_self, shapeCast_self, shapeCast_self, addf_apply, matmul_zero_ix2]

theorem k1_pay3_apply (v : Vec Ideal S1024x1024 .f32) (j : S1024x1024.Idx) : k1_pay3 v j = Ideal.tanh (v j) := rfl

/-! ## Layer three -/

theorem k2_pay1_apply (j : S1024x1024.Idx) : k2_pay1 (F := Ideal) j = 0 := by
  unfold k2_pay1
  rw [shapeCast_self]
  exact Ideal.ofBits_zero_f32

theorem k2_pay2_apply (v3 : Vec Ideal S1024x1024 .f32) (v4 : Vec Ideal S1024x2048 .bf16) (v6 : Vec Ideal S2048x1024 .bf16)
    (r c : Fin 1024) :
    k2_pay2 v3 v4 v6 (ix2 r c) = v3 (ix2 r c) + ∑ k : Fin 2048, v4 (ix2 r k) * v6 (ix2 k c) := by
  unfold k2_pay2
  rw [shapeCast_self, shapeCast_self, shapeCast_self, addf_apply, matmul_zero_ix2]

theorem k2_pay3_apply (v : Vec Ideal S1024x1024 .f32) (j : S1024x1024.Idx) : k2_pay3 v j = Ideal.tanh (v j) := rfl

end Cert.KernelIdeal.Chain

end
-- ==== Proof.LayerSpec.lean ====
import Idealize.ShloMosaic.PureOps.Ideal
import Idealize.ShloMosaic.PureOps.Ideal.Laws
import Idealize.ShloMosaic.Lib.ValueIdx
import Mathlib.Algebra.BigOperators.Fin

/-!
# One layer of the network, element by element

The network applies three times the map h ↦ tanh (W · h) on 4096 × 4096 matrices. This module states that
map over the extended reals, one element at a time, and the one law of addition the blocked evaluation needs:
a contraction over 4096 indices is the sum of its two halves, accumulated from zero.
-/

noncomputable section

namespace Cert.LayerSpec

open Idealize.ShloMosaic Idealize.ShloMosaic.ValueIdx
open scoped BigOperators

/-- The shape of every matrix of the network. -/
abbrev Sq : Shape := ⟨2, ![4096, 4096]⟩

/-- One layer: element (r, c) of tanh (W · h) is the hyperbolic tangent of the contraction of row r of W
    with column c of h. -/
def layer (W h : Sq.Idx → EReal) : Sq.Idx → EReal := fun i =>
  Ideal.tanh (∑ k : Fin 4096, W (ix2 (n0 := 4096) (n1 := 4096) (i 0) k) * h (ix2 (n0 := 4096) (n1 := 4096) k (i 1)))

/-- The layer read at an index given by its two coordinates. -/
theorem layer_ix2 (W h : Sq.Idx → EReal) (r c : Fin 4096) :
    layer W h (ix2 r c) = Ideal.tanh (∑ k : Fin 4096, W (ix2 r k) * h (ix2 k c)) := rfl

/-- A sum over 4096 indices is the sum over the lower 2048 plus the sum over the upper 2048, the first accumulated
    from zero. Only the commutative monoid structure of addition on the extended reals is used: no term needs
    to be finite. -/
theorem sum_halves (f : Fin 4096 → EReal) :
    (0 + ∑ k : Fin 2048, f ⟨k.val, by omega⟩) + ∑ k : Fin 2048, f ⟨2048 + k.val, by omega⟩ = ∑ k : Fin 4096, f k := by
  rw [zero_add]
  exact (Fin.sum_univ_add (a := 2048) (b := 2048) (f : Fin (2048 + 2048) → EReal)).symm

/-- The same with the two halves named: whatever two families agree with f on the lower and on the upper half. -/
theorem sum_halves_of_eq (f : Fin 4096 → EReal) (g₀ g₁ : Fin 2048 → EReal)
    (h₀ : ∀ k : Fin 2048, g₀ k = f ⟨k.val, by omega⟩) (h₁ : ∀ k : Fin 2048, g₁ k = f ⟨2048 + k.val, by omega⟩) :
    (0 + ∑ k : Fin 2048, g₀ k) + ∑ k : Fin 2048, g₁ k = ∑ k : Fin 4096, f k := by
  rw [← sum_halves f]
  exact congrArg₂ (· + ·) (congrArg (0 + ·) (Finset.sum_congr rfl fun k _ => h₀ k)) (Finset.sum_congr rfl fun k _ => h₁ k)

end Cert.LayerSpec

end
-- ==== Proof.KI.LayerArray0.lean ====
import proofs.«181803_j65481071399768_2_alg».proof.Proof.KI.Region0
import proofs.«181803_j65481071399768_2_alg».proof.Proof.KI.BlockGeom0
import proofs.«181803_j65481071399768_2_alg».proof.Proof.KI.Payload
import proofs.«181803_j65481071399768_2_alg».proof.Proof.LayerSpec
import Idealize.ShloMosaic.Lib.Pipeline.Value

/-!
# The first layer's output matrix as one function of its two input matrices

Each output block is closed at an odd grid point: there the accumulator holds the two half-contractions added to zero,
and the block written back is its hyperbolic tangent. Reading the four input blocks where they sit in their matrices
and joining the two halves of the contraction range shows that the block written back is the corresponding block of
tanh (W · h); the sixteen closing points' blocks cover the matrix, so the matrix ends holding tanh (W · h).
-/

set_option maxRecDepth 16384

noncomputable section

namespace Cert.KernelIdeal.Chain

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-- One entry of a closed block. Let the two weight blocks be the lower and the upper half (in the contraction
    index) of rows I·1024 … of W, and the two input blocks the lower and the upper half of columns J·1024 … of h.
    Then the hyperbolic tangent of zero plus the two block products, at (r, q), is entry (I·1024 + r, J·1024 + q)
    of tanh (W · h): the two sums over 2048 indices are the two halves of the sum over 4096. -/
theorem closing_entry0 (W h : S4096x4096.Idx → EReal)
    (a₀ a₁ : Vec Ideal S1024x2048 .bf16) (b₀ b₁ : Vec Ideal S2048x1024 .bf16)
    (I J : ℕ) (hI : I < 4) (hJ : J < 4)
    (ha₀ : ∀ j : S1024x2048.Idx, a₀ j = W (ix2 (n0 := 4096) (n1 := 4096) ⟨I * 1024 + (j 0).val, by have := idx2_lt0 j; omega⟩ ⟨(j 1).val, by have := idx2_lt1 j; omega⟩))
    (ha₁ : ∀ j : S1024x2048.Idx, a₁ j = W (ix2 (n0 := 4096) (n1 := 4096) ⟨I * 1024 + (j 0).val, by have := idx2_lt0 j; omega⟩ ⟨2048 + (j 1).val, by have := idx2_lt1 j; omega⟩))
    (hb₀ : ∀ j : S2048x1024.Idx, b₀ j = h (ix2 (n0 := 4096) (n1 := 4096) ⟨(j 0).val, by have := idx2_lt0 j; omega⟩ ⟨J * 1024 + (j 1).val, by have := idx2_lt1 j; omega⟩))
    (hb₁ : ∀ j : S2048x1024.Idx, b₁ j = h (ix2 (n0 := 4096) (n1 := 4096) ⟨2048 + (j 0).val, by have := idx2_lt0 j; omega⟩ ⟨J * 1024 + (j 1).val, by have := idx2_lt1 j; omega⟩))
    (y : S1024x1024.Idx) :
    k0_pay3 (k0_pay2 (k0_pay2 (k0_pay1 (F := Ideal)) a₀ b₀) a₁ b₁) y
      = Cert.LayerSpec.layer W h (ix2 (n0 := 4096) (n1 := 4096) ⟨I * 1024 + (y 0).val, by have := idx2_lt0 y; omega⟩ ⟨J * 1024 + (y 1).val, by have := idx2_lt1 y; omega⟩) := by
  obtain ⟨r, q, rfl⟩ : ∃ (r q : Fin 1024), y = ix2 r q := ⟨y 0, y 1, eq_ix2 y⟩
  rw [k0_pay3_apply, k0_pay2_apply, k0_pay2_apply, k0_pay1_apply]
  refine (congrArg Ideal.tanh ?_).trans (Cert.LayerSpec.layer_ix2 W h _ _).symm
  refine Cert.LayerSpec.sum_halves_of_eq
    (fun k => W (ix2 (n0 := 4096) (n1 := 4096) ⟨I * 1024 + r.val, by omega⟩ k) * h (ix2 (n0 := 4096) (n1 := 4096) k ⟨J * 1024 + q.val, by omega⟩)) _ _ (fun k => ?_) (fun k => ?_)
  · rw [ha₀, hb₀]
  · rw [ha₁, hb₁]

variable (V : (c : Dev nD) → (b : Ref sig .tc) → Buf (Elt Ideal) ((c : Thread nD τ).loc b))

/-- What a closing point writes back is its block of tanh (W · h), W and h the region's two input matrices as it
    finds them: the opening point (the one before) read the lower halves, the closing point the upper halves, each
    block sitting in its matrix at block index × block size. -/
theorem flushed_closing0 (c : Dev nD) (t : Fin cfg0.N) (ht : t.val % 2 = 1) :
    (dat0 (F := Ideal) V c).flushed 2 t
      = ((cfg0.win 2).blk t).view.read (Elt Ideal)
          (Cert.LayerSpec.layer (V c (Pipeline.arrRef spec0 0)) (V c (Pipeline.arrRef spec0 1))) := by
  have hlt : t.val - 1 < cfg0.N := Nat.lt_of_le_of_lt (Nat.sub_le _ _) t.isLt
  obtain ⟨p00, p01, p10, p11, a00, a01, a10, a11, o0, o1, hI, hJ⟩ := block_index_closing0 t ht hlt
  show (cfg0.win 2).cut (grid0.coords t) ((dat0 V c).after 2 t) = _
  rw [after0_2_closing V c t ht]
  funext y
  have hy0 : (y 0).val < 1024 := (y 0).isLt
  have hy1 : (y 1).val < 1024 := (y 1).isLt
  refine (closing_entry0 (V c (Pipeline.arrRef spec0 0)) (V c (Pipeline.arrRef spec0 1))
    (iblk0 V c 0 ⟨t.val - 1, hlt⟩) (iblk0 V c 0 t) (iblk0 V c 1 ⟨t.val - 1, hlt⟩) (iblk0 V c 1 t)
    (t.val / 8) (t.val / 2 % 4) hI hJ ?_ ?_ ?_ ?_ ((cfg0.win 2).xinj (grid0.coords t) y)).trans ?_
  · intro j
    have hj0 := idx2_lt0 j
    have hj1 := idx2_lt1 j
    show V c (Pipeline.arrRef spec0 0) (((cfg0.win 0).blk ⟨t.val - 1, hlt⟩).view.emb j) = _
    refine congrArg _ (funext fun a => Fin.ext ?_)
    match a with
    | ⟨0, _⟩ => show win0_0.index ⟨t.val - 1, hlt⟩ (0 : Fin 2) * 1024 + 1 * (j 0).val = t.val / 8 * 1024 + (j 0).val; omega
    | ⟨1, _⟩ => show win0_0.index ⟨t.val - 1, hlt⟩ (1 : Fin 2) * 2048 + 1 * (j 1).val = (j 1).val; omega
  · intro j
    have hj0 := idx2_lt0 j
    have hj1 := idx2_lt1 j
    show V c (Pipeline.arrRef spec0 0) (((cfg0.win 0).blk t).view.emb j) = _
    refine congrArg _ (funext fun a => Fin.ext ?_)
    match a with
    | ⟨0, _⟩ => show win0_0.index t (0 : Fin 2) * 1024 + 1 * (j 0).val = t.val / 8 * 1024 + (j 0).val; omega
    | ⟨1, _⟩ => show win0_0.index t (1 : Fin 2) * 2048 + 1 * (j 1).val = 2048 + (j 1).val; omega
  · intro j
    have hj0 := idx2_lt0 j
    have hj1 := idx2_lt1 j
    show V c (Pipeline.arrRef spec0 1) (((cfg0.win 1).blk ⟨t.val - 1, hlt⟩).view.emb j) = _
    refine congrArg _ (funext fun a => Fin.ext ?_)
    match a with
    | ⟨0, _⟩ => show win0_1.index ⟨t.val - 1, hlt⟩ (0 : Fin 2) * 2048 + 1 * (j 0).val = (j 0).val; omega
    | ⟨1, _⟩ => show win0_1.index ⟨t.val - 1, hlt⟩ (1 : Fin 2) * 1024 + 1 * (j 1).val = t.val / 2 % 4 * 1024 + (j 1).val; omega
  · intro j
    have hj0 := idx2_lt0 j
    have hj1 := idx2_lt1 j
    show V c (Pipeline.arrRef spec0 1) (((cfg0.win 1).blk t).view.emb j) = _
    refine congrArg _ (funext fun a => Fin.ext ?_)
    match a with
    | ⟨0, _⟩ => show win0_1.index t (0 : Fin 2) * 2048 + 1 * (j 0).val = 2048 + (j 0).val; omega
    | ⟨1, _⟩ => show win0_1.index t (1 : Fin 2) * 1024 + 1 * (j 1).val = t.val / 2 % 4 * 1024 + (j 1).val; omega
  · show _ = Cert.LayerSpec.layer (V c (Pipeline.arrRef spec0 0)) (V c (Pipeline.arrRef spec0 1)) (((cfg0.win 2).blk t).view.emb y)
    refine congrArg _ (funext fun a => Fin.ext ?_)
    match a with
    | ⟨0, _⟩ => show t.val / 8 * 1024 + (y 0).val = win0_2.index t (0 : Fin 2) * 1024 + 1 * (y 0).val; omega
    | ⟨1, _⟩ => show t.val / 2 % 4 * 1024 + (y 1).val = win0_2.index t (1 : Fin 2) * 1024 + 1 * (y 1).val; omega

/-- After the region, its output matrix is tanh (W · h) of its two input matrices as the region found them. -/
theorem layer_array0 (c : Dev nD) :
    (dat0 (F := Ideal) V c).arrAt 2 cfg0.N
      = Cert.LayerSpec.layer (V c (Pipeline.arrRef spec0 0)) (V c (Pipeline.arrRef spec0 1)) :=
  (dat0 (F := Ideal) V c).arrAt_eq_of_cover 2 _
    (fun t hf => flushed_closing0 V c t ((flush0_2 t).mp hf)) out_cover0

end Cert.KernelIdeal.Chain

end
-- ==== Proof.KI.BlockGeom1.lean ====
import proofs.«181803_j65481071399768_2_alg».proof.Proof.Gen.KernelIdeal.Launch
import proofs.«181803_j65481071399768_2_alg».proof.Proof.Gen.KernelIdeal.Points
import Idealize.ShloMosaic.Lib.Pipeline.Value

/-!
# Where the blocks of the second layer sit in their matrices

The second layer walks a 4 × 4 × 2 grid, the contraction half `k` fastest: point `t` has row block `i = t / 8`,
column block `j = t / 2 % 4` and half `k = t % 2`. The weight block read there is (i, k), the input block (k, j)
and the output block (i, j). Output blocks are 1024 × 1024 and are written back at the odd points; the sixteen odd
points' blocks cover the 4096 × 4096 output: entry (r, q) lies in the block of point ((r / 1024)·4 + q / 1024)·2 + 1.
-/

set_option maxRecDepth 16384

noncomputable section

namespace Cert.KernelIdeal.Chain

open Idealize.ShloMosaic Idealize.ShloMosaic.TcCoe
open Idealize.SL Idealize.SL.Sem
open Cert.KernelIdeal Cert.KernelIdeal.Gen

/-- The three index maps in closed form, decided over the 32 grid points. -/
theorem block_index1 : ∀ t : Fin cfg1.N,
    win1_0.index t (0 : Fin 2) = t.val / 8 ∧ win1_0.index t (1 : Fin 2) = t.val % 2
    ∧ win1_1.index t (0 : Fin 2) = t.val % 2 ∧ win1_1.index t (1 : Fin 2) = t.val / 2 % 4
    ∧ win1_2.index t (0 : Fin 2) = t.val / 8 ∧ win1_2.index t (1 : Fin 2) = t.val / 2 % 4 :=
  (by decide +kernel : ∀ t : Fin grid1.N,
    win1_0.index t (0 : Fin 2) = t.val / 8 ∧ win1_0.index t (1 : Fin 2) = t.val % 2
    ∧ win1_1.index t (0 : Fin 2) = t.val % 2 ∧ win1_1.index t (1 : Fin 2) = t.val / 2 % 4
    ∧ win1_2.index t (0 : Fin 2) = t.val / 8 ∧ win1_2.index t (1 : Fin 2) = t.val / 2 % 4)

/-- At a point `t` that closes a block (odd position) and at the point before it, which opened the block: both read
    row block `t / 8` of the weights and column block `t / 2 % 4` of the input, the opening point the lower half of
    the contraction range and the closing point the upper half; the output block is (t / 8, t / 2 % 4). -/
theorem block_index_closing1 (t : Fin cfg1.N) (h : t.val % 2 = 1) (hlt : t.val - 1 < cfg1.N) :
    win1_0.index ⟨t.val - 1, hlt⟩ (0 : Fin 2) = t.val / 8 ∧ win1_0.index ⟨t.val - 1, hlt⟩ (1 : Fin 2) = 0
    ∧ win1_1.index ⟨t.val - 1, hlt⟩ (0 : Fin 2) = 0 ∧ win1_1.index ⟨t.val - 1, hlt⟩ (1 : Fin 2) = t.val / 2 % 4
    ∧ win1_0.index t (0 : Fin 2) = t.val / 8 ∧ win1_0.index t (1 : Fin 2) = 1
    ∧ win1_1.index t (0 : Fin 2) = 1 ∧ win1_1.index t (1 : Fin 2) = t.val / 2 % 4
    ∧ win1_2.index t (0 : Fin 2) = t.val / 8 ∧ win1_2.index t (1 : Fin 2) = t.val / 2 % 4
    ∧ t.val / 8 < 4 ∧ t.val / 2 % 4 < 4 := by
  have hN : grid1.N = 32 := N_1
  have ht : t.val < 32 := hN ▸ t.isLt
  obtain ⟨p00, p01, p10, p11, -, -⟩ := block_index1 ⟨t.val - 1, hlt⟩
  obtain ⟨a00, a01, a10, a11, o0, o1⟩ := block_index1 t
  dsimp only at p00 p01 p10 p11
  refine ⟨?_, ?_, ?_, ?_, ?_, ?_, ?_, ?_, ?_, ?_, ?_, ?_⟩ <;> omega

/-- An entry of the output matrix is in the block of point `t` iff each coordinate is in that block's range. -/
theorem mem_out_block1 (t : Fin cfg1.N) (i : S4096x4096.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v5).slice (win1_2.rect t)).set ↔ _
  rw [View.set_slice_whole, Rect.mem_set_unit]
  exact Iff.rfl

/-- Every entry of the output matrix lies in the block of some point that writes back. -/
theorem out_cover1 (i : S4096x4096.Idx) :
    ∃ t : Fin cfg1.N, (cfg1.win 2).flush t = true ∧ i ∈ ((cfg1.win 2).blk t).view.set := by
  have hi0 : (i 0).val < 4096 := (i 0).isLt
  have hi1 : (i 1).val < 4096 := (i 1).isLt
  have hN : grid1.N = 32 := N_1
  obtain ⟨t, ht⟩ : ∃ t : Fin cfg1.N, t.val = ((i 0).val / 1024 * 4 + (i 1).val / 1024) * 2 + 1 :=
    ⟨⟨((i 0).val / 1024 * 4 + (i 1).val / 1024) * 2 + 1, by show _ < grid1.N; omega⟩, rfl⟩
  refine ⟨t, (flush1_2 t).mpr (by omega), ?_⟩
  rw [mem_out_block1]
  obtain ⟨-, -, -, -, e0, e1⟩ := block_index1 t
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 1024 ≤ (i 1).val ∧ (i 1).val < win1_2.index t (1 : Fin 2) * 1024 + 1024
    omega

end Cert.KernelIdeal.Chain

end
-- ==== Proof.KI.LayerArray1.lean ====
import proofs.«181803_j65481071399768_2_alg».proof.Proof.KI.Region1
import proofs.«181803_j65481071399768_2_alg».proof.Proof.KI.BlockGeom1
import proofs.«181803_j65481071399768_2_alg».proof.Proof.KI.Payload
import proofs.«181803_j65481071399768_2_alg».proof.Proof.LayerSpec
import Idealize.ShloMosaic.Lib.Pipeline.Value

/-!
# The second layer's output matrix as one function of its two input matrices

Each output block is closed at an odd grid point: there the accumulator holds the two half-contractions added to zero,
and the block written back is its hyperbolic tangent. Reading the four input blocks where they sit in their matrices
and joining the two halves of the contraction range shows that the block written back is the corresponding block of
tanh (W · h); the sixteen closing points' blocks cover the matrix, so the matrix ends holding tanh (W · h).
-/

set_option maxRecDepth 16384

noncomputable section

namespace Cert.KernelIdeal.Chain

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-- One entry of a closed block. Let the two weight blocks be the lower and the upper half (in the contraction
    index) of rows I·1024 … of W, and the two input blocks the lower and the upper half of columns J·1024 … of h.
    Then the hyperbolic tangent of zero plus the two block products, at (r, q), is entry (I·1024 + r, J·1024 + q)
    of tanh (W · h): the two sums over 2048 indices are the two halves of the sum over 4096. -/
theorem closing_entry1 (W h : S4096x4096.Idx → EReal)
    (a₀ a₁ : Vec Ideal S1024x2048 .bf16) (b₀ b₁ : Vec Ideal S2048x1024 .bf16)
    (I J : ℕ) (hI : I < 4) (hJ : J < 4)
    (ha₀ : ∀ j : S1024x2048.Idx, a₀ j = W (ix2 (n0 := 4096) (n1 := 4096) ⟨I * 1024 + (j 0).val, by have := idx2_lt0 j; omega⟩ ⟨(j 1).val, by have := idx2_lt1 j; omega⟩))
    (ha₁ : ∀ j : S1024x2048.Idx, a₁ j = W (ix2 (n0 := 4096) (n1 := 4096) ⟨I * 1024 + (j 0).val, by have := idx2_lt0 j; omega⟩ ⟨2048 + (j 1).val, by have := idx2_lt1 j; omega⟩))
    (hb₀ : ∀ j : S2048x1024.Idx, b₀ j = h (ix2 (n0 := 4096) (n1 := 4096) ⟨(j 0).val, by have := idx2_lt0 j; omega⟩ ⟨J * 1024 + (j 1).val, by have := idx2_lt1 j; omega⟩))
    (hb₁ : ∀ j : S2048x1024.Idx, b₁ j = h (ix2 (n0 := 4096) (n1 := 4096) ⟨2048 + (j 0).val, by have := idx2_lt0 j; omega⟩ ⟨J * 1024 + (j 1).val, by have := idx2_lt1 j; omega⟩))
    (y : S1024x1024.Idx) :
    k1_pay3 (k1_pay2 (k1_pay2 (k1_pay1 (F := Ideal)) a₀ b₀) a₁ b₁) y
      = Cert.LayerSpec.layer W h (ix2 (n0 := 4096) (n1 := 4096) ⟨I * 1024 + (y 0).val, by have := idx2_lt0 y; omega⟩ ⟨J * 1024 + (y 1).val, by have := idx2_lt1 y; omega⟩) := by
  obtain ⟨r, q, rfl⟩ : ∃ (r q : Fin 1024), y = ix2 r q := ⟨y 0, y 1, eq_ix2 y⟩
  rw [k1_pay3_apply, k1_pay2_apply, k1_pay2_apply, k1_pay1_apply]
  refine (congrArg Ideal.tanh ?_).trans (Cert.LayerSpec.layer_ix2 W h _ _).symm
  refine Cert.LayerSpec.sum_halves_of_eq
    (fun k => W (ix2 (n0 := 4096) (n1 := 4096) ⟨I * 1024 + r.val, by omega⟩ k) * h (ix2 (n0 := 4096) (n1 := 4096) k ⟨J * 1024 + q.val, by omega⟩)) _ _ (fun k => ?_) (fun k => ?_)
  · rw [ha₀, hb₀]
  · rw [ha₁, hb₁]

variable (V : (c : Dev nD) → (b : Ref sig .tc) → Buf (Elt Ideal) ((c : Thread nD τ).loc b))

/-- What a closing point writes back is its block of tanh (W · h), W and h the region's two input matrices as it
    finds them: the opening point (the one before) read the lower halves, the closing point the upper halves, each
    block sitting in its matrix at block index × block size. -/
theorem flushed_closing1 (c : Dev nD) (t : Fin cfg1.N) (ht : t.val % 2 = 1) :
    (dat1 (F := Ideal) V c).flushed 2 t
      = ((cfg1.win 2).blk t).view.read (Elt Ideal)
          (Cert.LayerSpec.layer (V c (Pipeline.arrRef spec1 0)) (V c (Pipeline.arrRef spec1 1))) := by
  have hlt : t.val - 1 < cfg1.N := Nat.lt_of_le_of_lt (Nat.sub_le _ _) t.isLt
  obtain ⟨p00, p01, p10, p11, a00, a01, a10, a11, o0, o1, hI, hJ⟩ := block_index_closing1 t ht hlt
  show (cfg1.win 2).cut (grid1.coords t) ((dat1 V c).after 2 t) = _
  rw [after1_2_closing V c t ht]
  funext y
  have hy0 : (y 0).val < 1024 := (y 0).isLt
  have hy1 : (y 1).val < 1024 := (y 1).isLt
  refine (closing_entry1 (V c (Pipeline.arrRef spec1 0)) (V c (Pipeline.arrRef spec1 1))
    (iblk1 V c 0 ⟨t.val - 1, hlt⟩) (iblk1 V c 0 t) (iblk1 V c 1 ⟨t.val - 1, hlt⟩) (iblk1 V c 1 t)
    (t.val / 8) (t.val / 2 % 4) hI hJ ?_ ?_ ?_ ?_ ((cfg1.win 2).xinj (grid1.coords t) y)).trans ?_
  · intro j
    have hj0 := idx2_lt0 j
    have hj1 := idx2_lt1 j
    show V c (Pipeline.arrRef spec1 0) (((cfg1.win 0).blk ⟨t.val - 1, hlt⟩).view.emb j) = _
    refine congrArg _ (funext fun a => Fin.ext ?_)
    match a with
    | ⟨0, _⟩ => show win1_0.index ⟨t.val - 1, hlt⟩ (0 : Fin 2) * 1024 + 1 * (j 0).val = t.val / 8 * 1024 + (j 0).val; omega
    | ⟨1, _⟩ => show win1_0.index ⟨t.val - 1, hlt⟩ (1 : Fin 2) * 2048 + 1 * (j 1).val = (j 1).val; omega
  · intro j
    have hj0 := idx2_lt0 j
    have hj1 := idx2_lt1 j
    show V c (Pipeline.arrRef spec1 0) (((cfg1.win 0).blk t).view.emb j) = _
    refine congrArg _ (funext fun a => Fin.ext ?_)
    match a with
    | ⟨0, _⟩ => show win1_0.index t (0 : Fin 2) * 1024 + 1 * (j 0).val = t.val / 8 * 1024 + (j 0).val; omega
    | ⟨1, _⟩ => show win1_0.index t (1 : Fin 2) * 2048 + 1 * (j 1).val = 2048 + (j 1).val; omega
  · intro j
    have hj0 := idx2_lt0 j
    have hj1 := idx2_lt1 j
    show V c (Pipeline.arrRef spec1 1) (((cfg1.win 1).blk ⟨t.val - 1, hlt⟩).view.emb j) = _
    refine congrArg _ (funext fun a => Fin.ext ?_)
    match a with
    | ⟨0, _⟩ => show win1_1.index ⟨t.val - 1, hlt⟩ (0 : Fin 2) * 2048 + 1 * (j 0).val = (j 0).val; omega
    | ⟨1, _⟩ => show win1_1.index ⟨t.val - 1, hlt⟩ (1 : Fin 2) * 1024 + 1 * (j 1).val = t.val / 2 % 4 * 1024 + (j 1).val; omega
  · intro j
    have hj0 := idx2_lt0 j
    have hj1 := idx2_lt1 j
    show V c (Pipeline.arrRef spec1 1) (((cfg1.win 1).blk t).view.emb j) = _
    refine congrArg _ (funext fun a => Fin.ext ?_)
    match a with
    | ⟨0, _⟩ => show win1_1.index t (0 : Fin 2) * 2048 + 1 * (j 0).val = 2048 + (j 0).val; omega
    | ⟨1, _⟩ => show win1_1.index t (1 : Fin 2) * 1024 + 1 * (j 1).val = t.val / 2 % 4 * 1024 + (j 1).val; omega
  · show _ = Cert.LayerSpec.layer (V c (Pipeline.arrRef spec1 0)) (V c (Pipeline.arrRef spec1 1)) (((cfg1.win 2).blk t).view.emb y)
    refine congrArg _ (funext fun a => Fin.ext ?_)
    match a with
    | ⟨0, _⟩ => show t.val / 8 * 1024 + (y 0).val = win1_2.index t (0 : Fin 2) * 1024 + 1 * (y 0).val; omega
    | ⟨1, _⟩ => show t.val / 2 % 4 * 1024 + (y 1).val = win1_2.index t (1 : Fin 2) * 1024 + 1 * (y 1).val; omega

/-- After the region, its output matrix is tanh (W · h) of its two input matrices as the region found them. -/
theorem layer_array1 (c : Dev nD) :
    (dat1 (F := Ideal) V c).arrAt 2 cfg1.N
      = Cert.LayerSpec.layer (V c (Pipeline.arrRef spec1 0)) (V c (Pipeline.arrRef spec1 1)) :=
  (dat1 (F := Ideal) V c).arrAt_eq_of_cover 2 _
    (fun t hf => flushed_closing1 V c t ((flush1_2 t).mp hf)) out_cover1

end Cert.KernelIdeal.Chain

end
-- ==== Proof.KI.BlockGeom2.lean ====
import proofs.«181803_j65481071399768_2_alg».proof.Proof.Gen.KernelIdeal.Launch
import proofs.«181803_j65481071399768_2_alg».proof.Proof.Gen.KernelIdeal.Points
import Idealize.ShloMosaic.Lib.Pipeline.Value

/-!
# Where the blocks of the third layer sit in their matrices

The third layer walks a 4 × 4 × 2 grid, the contraction half `k` fastest: point `t` has row block `i = t / 8`,
column block `j = t / 2 % 4` and half `k = t % 2`. The weight block read there is (i, k), the input block (k, j)
and the output block (i, j). Output blocks are 1024 × 1024 and are written back at the odd points; the sixteen odd
points' blocks cover the 4096 × 4096 output: entry (r, q) lies in the block of point ((r / 1024)·4 + q / 1024)·2 + 1.
-/

set_option maxRecDepth 16384

noncomputable section

namespace Cert.KernelIdeal.Chain

open Idealize.ShloMosaic Idealize.ShloMosaic.TcCoe
open Idealize.SL Idealize.SL.Sem
open Cert.KernelIdeal Cert.KernelIdeal.Gen

/-- The three index maps in closed form, decided over the 32 grid points. -/
theorem block_index2 : ∀ t : Fin cfg2.N,
    win2_0.index t (0 : Fin 2) = t.val / 8 ∧ win2_0.index t (1 : Fin 2) = t.val % 2
    ∧ win2_1.index t (0 : Fin 2) = t.val % 2 ∧ win2_1.index t (1 : Fin 2) = t.val / 2 % 4
    ∧ win2_2.index t (0 : Fin 2) = t.val / 8 ∧ win2_2.index t (1 : Fin 2) = t.val / 2 % 4 :=
  (by decide +kernel : ∀ t : Fin grid2.N,
    win2_0.index t (0 : Fin 2) = t.val / 8 ∧ win2_0.index t (1 : Fin 2) = t.val % 2
    ∧ win2_1.index t (0 : Fin 2) = t.val % 2 ∧ win2_1.index t (1 : Fin 2) = t.val / 2 % 4
    ∧ win2_2.index t (0 : Fin 2) = t.val / 8 ∧ win2_2.index t (1 : Fin 2) = t.val / 2 % 4)

/-- At a point `t` that closes a block (odd position) and at the point before it, which opened the block: both read
    row block `t / 8` of the weights and column block `t / 2 % 4` of the input, the opening point the lower half of
    the contraction range and the closing point the upper half; the output block is (t / 8, t / 2 % 4). -/
theorem block_index_closing2 (t : Fin cfg2.N) (h : t.val % 2 = 1) (hlt : t.val - 1 < cfg2.N) :
    win2_0.index ⟨t.val - 1, hlt⟩ (0 : Fin 2) = t.val / 8 ∧ win2_0.index ⟨t.val - 1, hlt⟩ (1 : Fin 2) = 0
    ∧ win2_1.index ⟨t.val - 1, hlt⟩ (0 : Fin 2) = 0 ∧ win2_1.index ⟨t.val - 1, hlt⟩ (1 : Fin 2) = t.val / 2 % 4
    ∧ win2_0.index t (0 : Fin 2) = t.val / 8 ∧ win2_0.index t (1 : Fin 2) = 1
    ∧ win2_1.index t (0 : Fin 2) = 1 ∧ win2_1.index t (1 : Fin 2) = t.val / 2 % 4
    ∧ win2_2.index t (0 : Fin 2) = t.val / 8 ∧ win2_2.index t (1 : Fin 2) = t.val / 2 % 4
    ∧ t.val / 8 < 4 ∧ t.val / 2 % 4 < 4 := by
  have hN : grid2.N = 32 := N_2
  have ht : t.val < 32 := hN ▸ t.isLt
  obtain ⟨p00, p01, p10, p11, -, -⟩ := block_index2 ⟨t.val - 1, hlt⟩
  obtain ⟨a00, a01, a10, a11, o0, o1⟩ := block_index2 t
  dsimp only at p00 p01 p10 p11
  refine ⟨?_, ?_, ?_, ?_, ?_, ?_, ?_, ?_, ?_, ?_, ?_, ?_⟩ <;> omega

/-- An entry of the output matrix is in the block of point `t` iff each coordinate is in that block's range. -/
theorem mem_out_block2 (t : Fin cfg2.N) (i : S4096x4096.Idx) :
    i ∈ ((cfg2.win 2).blk t).view.set ↔ ∀ a : Fin 2, win2_2.index t a * S1024x1024.size a ≤ (i a).val
      ∧ (i a).val < win2_2.index t a * S1024x1024.size a + S1024x1024.size a := by
  show i ∈ ((View.whole main_v6).slice (win2_2.rect t)).set ↔ _
  rw [View.set_slice_whole, Rect.mem_set_unit]
  exact Iff.rfl

/-- Every entry of the output matrix lies in the block of some point that writes back. -/
theorem out_cover2 (i : S4096x4096.Idx) :
    ∃ t : Fin cfg2.N, (cfg2.win 2).flush t = true ∧ i ∈ ((cfg2.win 2).blk t).view.set := by
  have hi0 : (i 0).val < 4096 := (i 0).isLt
  have hi1 : (i 1).val < 4096 := (i 1).isLt
  have hN : grid2.N = 32 := N_2
  obtain ⟨t, ht⟩ : ∃ t : Fin cfg2.N, t.val = ((i 0).val / 1024 * 4 + (i 1).val / 1024) * 2 + 1 :=
    ⟨⟨((i 0).val / 1024 * 4 + (i 1).val / 1024) * 2 + 1, by show _ < grid2.N; omega⟩, rfl⟩
  refine ⟨t, (flush2_2 t).mpr (by omega), ?_⟩
  rw [mem_out_block2]
  obtain ⟨-, -, -, -, e0, e1⟩ := block_index2 t
  intro a
  match a with
  | ⟨0, _⟩ =>
    show win2_2.index t (0 : Fin 2) * 1024 ≤ (i 0).val ∧ (i 0).val < win2_2.index t (0 : Fin 2) * 1024 + 1024
    omega
  | ⟨1, _⟩ =>
    show win2_2.index t (1 : Fin 2) * 1024 ≤ (i 1).val ∧ (i 1).val < win2_2.index t (1 : Fin 2) * 1024 + 1024
    omega

end Cert.KernelIdeal.Chain

end
-- ==== Proof.KI.LayerArray2.lean ====
import proofs.«181803_j65481071399768_2_alg».proof.Proof.KI.Region2
import proofs.«181803_j65481071399768_2_alg».proof.Proof.KI.BlockGeom2
import proofs.«181803_j65481071399768_2_alg».proof.Proof.KI.Payload
import proofs.«181803_j65481071399768_2_alg».proof.Proof.LayerSpec
import Idealize.ShloMosaic.Lib.Pipeline.Value

/-!
# The third layer's output matrix as one function of its two input matrices

Each output block is closed at an odd grid point: there the accumulator holds the two half-contractions added to zero,
and the block written back is its hyperbolic tangent. Reading the four input blocks where they sit in their matrices
and joining the two halves of the contraction range shows that the block written back is the corresponding block of
tanh (W · h); the sixteen closing points' blocks cover the matrix, so the matrix ends holding tanh (W · h).
-/

set_option maxRecDepth 16384

noncomputable section

namespace Cert.KernelIdeal.Chain

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-- One entry of a closed block. Let the two weight blocks be the lower and the upper half (in the contraction
    index) of rows I·1024 … of W, and the two input blocks the lower and the upper half of columns J·1024 … of h.
    Then the hyperbolic tangent of zero plus the two block products, at (r, q), is entry (I·1024 + r, J·1024 + q)
    of tanh (W · h): the two sums over 2048 indices are the two halves of the sum over 4096. -/
theorem closing_entry2 (W h : S4096x4096.Idx → EReal)
    (a₀ a₁ : Vec Ideal S1024x2048 .bf16) (b₀ b₁ : Vec Ideal S2048x1024 .bf16)
    (I J : ℕ) (hI : I < 4) (hJ : J < 4)
    (ha₀ : ∀ j : S1024x2048.Idx, a₀ j = W (ix2 (n0 := 4096) (n1 := 4096) ⟨I * 1024 + (j 0).val, by have := idx2_lt0 j; omega⟩ ⟨(j 1).val, by have := idx2_lt1 j; omega⟩))
    (ha₁ : ∀ j : S1024x2048.Idx, a₁ j = W (ix2 (n0 := 4096) (n1 := 4096) ⟨I * 1024 + (j 0).val, by have := idx2_lt0 j; omega⟩ ⟨2048 + (j 1).val, by have := idx2_lt1 j; omega⟩))
    (hb₀ : ∀ j : S2048x1024.Idx, b₀ j = h (ix2 (n0 := 4096) (n1 := 4096) ⟨(j 0).val, by have := idx2_lt0 j; omega⟩ ⟨J * 1024 + (j 1).val, by have := idx2_lt1 j; omega⟩))
    (hb₁ : ∀ j : S2048x1024.Idx, b₁ j = h (ix2 (n0 := 4096) (n1 := 4096) ⟨2048 + (j 0).val, by have := idx2_lt0 j; omega⟩ ⟨J * 1024 + (j 1).val, by have := idx2_lt1 j; omega⟩))
    (y : S1024x1024.Idx) :
    k2_pay3 (k2_pay2 (k2_pay2 (k2_pay1 (F := Ideal)) a₀ b₀) a₁ b₁) y
      = Cert.LayerSpec.layer W h (ix2 (n0 := 4096) (n1 := 4096) ⟨I * 1024 + (y 0).val, by have := idx2_lt0 y; omega⟩ ⟨J * 1024 + (y 1).val, by have := idx2_lt1 y; omega⟩) := by
  obtain ⟨r, q, rfl⟩ : ∃ (r q : Fin 1024), y = ix2 r q := ⟨y 0, y 1, eq_ix2 y⟩
  rw [k2_pay3_apply, k2_pay2_apply, k2_pay2_apply, k2_pay1_apply]
  refine (congrArg Ideal.tanh ?_).trans (Cert.LayerSpec.layer_ix2 W h _ _).symm
  refine Cert.LayerSpec.sum_halves_of_eq
    (fun k => W (ix2 (n0 := 4096) (n1 := 4096) ⟨I * 1024 + r.val, by omega⟩ k) * h (ix2 (n0 := 4096) (n1 := 4096) k ⟨J * 1024 + q.val, by omega⟩)) _ _ (fun k => ?_) (fun k => ?_)
  · rw [ha₀, hb₀]
  · rw [ha₁, hb₁]

variable (V : (c : Dev nD) → (b : Ref sig .tc) → Buf (Elt Ideal) ((c : Thread nD τ).loc b))

/-- What a closing point writes back is its block of tanh (W · h), W and h the region's two input matrices as it
    finds them: the opening point (the one before) read the lower halves, the closing point the upper halves, each
    block sitting in its matrix at block index × block size. -/
theorem flushed_closing2 (c : Dev nD) (t : Fin cfg2.N) (ht : t.val % 2 = 1) :
    (dat2 (F := Ideal) V c).flushed 2 t
      = ((cfg2.win 2).blk t).view.read (Elt Ideal)
          (Cert.LayerSpec.layer (V c (Pipeline.arrRef spec2 0)) (V c (Pipeline.arrRef spec2 1))) := by
  have hlt : t.val - 1 < cfg2.N := Nat.lt_of_le_of_lt (Nat.sub_le _ _) t.isLt
  obtain ⟨p00, p01, p10, p11, a00, a01, a10, a11, o0, o1, hI, hJ⟩ := block_index_closing2 t ht hlt
  show (cfg2.win 2).cut (grid2.coords t) ((dat2 V c).after 2 t) = _
  rw [after2_2_closing V c t ht]
  funext y
  have hy0 : (y 0).val < 1024 := (y 0).isLt
  have hy1 : (y 1).val < 1024 := (y 1).isLt
  refine (closing_entry2 (V c (Pipeline.arrRef spec2 0)) (V c (Pipeline.arrRef spec2 1))
    (iblk2 V c 0 ⟨t.val - 1, hlt⟩) (iblk2 V c 0 t) (iblk2 V c 1 ⟨t.val - 1, hlt⟩) (iblk2 V c 1 t)
    (t.val / 8) (t.val / 2 % 4) hI hJ ?_ ?_ ?_ ?_ ((cfg2.win 2).xinj (grid2.coords t) y)).trans ?_
  · intro j
    have hj0 := idx2_lt0 j
    have hj1 := idx2_lt1 j
    show V c (Pipeline.arrRef spec2 0) (((cfg2.win 0).blk ⟨t.val - 1, hlt⟩).view.emb j) = _
    refine congrArg _ (funext fun a => Fin.ext ?_)
    match a with
    | ⟨0, _⟩ => show win2_0.index ⟨t.val - 1, hlt⟩ (0 : Fin 2) * 1024 + 1 * (j 0).val = t.val / 8 * 1024 + (j 0).val; omega
    | ⟨1, _⟩ => show win2_0.index ⟨t.val - 1, hlt⟩ (1 : Fin 2) * 2048 + 1 * (j 1).val = (j 1).val; omega
  · intro j
    have hj0 := idx2_lt0 j
    have hj1 := idx2_lt1 j
    show V c (Pipeline.arrRef spec2 0) (((cfg2.win 0).blk t).view.emb j) = _
    refine congrArg _ (funext fun a => Fin.ext ?_)
    match a with
    | ⟨0, _⟩ => show win2_0.index t (0 : Fin 2) * 1024 + 1 * (j 0).val = t.val / 8 * 1024 + (j 0).val; omega
    | ⟨1, _⟩ => show win2_0.index t (1 : Fin 2) * 2048 + 1 * (j 1).val = 2048 + (j 1).val; omega
  · intro j
    have hj0 := idx2_lt0 j
    have hj1 := idx2_lt1 j
    show V c (Pipeline.arrRef spec2 1) (((cfg2.win 1).blk ⟨t.val - 1, hlt⟩).view.emb j) = _
    refine congrArg _ (funext fun a => Fin.ext ?_)
    match a with
    | ⟨0, _⟩ => show win2_1.index ⟨t.val - 1, hlt⟩ (0 : Fin 2) * 2048 + 1 * (j 0).val = (j 0).val; omega
    | ⟨1, _⟩ => show win2_1.index ⟨t.val - 1, hlt⟩ (1 : Fin 2) * 1024 + 1 * (j 1).val = t.val / 2 % 4 * 1024 + (j 1).val; omega
  · intro j
    have hj0 := idx2_lt0 j
    have hj1 := idx2_lt1 j
    show V c (Pipeline.arrRef spec2 1) (((cfg2.win 1).blk t).view.emb j) = _
    refine congrArg _ (funext fun a => Fin.ext ?_)
    match a with
    | ⟨0, _⟩ => show win2_1.index t (0 : Fin 2) * 2048 + 1 * (j 0).val = 2048 + (j 0).val; omega
    | ⟨1, _⟩ => show win2_1.index t (1 : Fin 2) * 1024 + 1 * (j 1).val = t.val / 2 % 4 * 1024 + (j 1).val; omega
  · show _ = Cert.LayerSpec.layer (V c (Pipeline.arrRef spec2 0)) (V c (Pipeline.arrRef spec2 1)) (((cfg2.win 2).blk t).view.emb y)
    refine congrArg _ (funext fun a => Fin.ext ?_)
    match a with
    | ⟨0, _⟩ => show t.val / 8 * 1024 + (y 0).val = win2_2.index t (0 : Fin 2) * 1024 + 1 * (y 0).val; omega
    | ⟨1, _⟩ => show t.val / 2 % 4 * 1024 + (y 1).val = win2_2.index t (1 : Fin 2) * 1024 + 1 * (y 1).val; omega

/-- After the region, its output matrix is tanh (W · h) of its two input matrices as the region found them. -/
theorem layer_array2 (c : Dev nD) :
    (dat2 (F := Ideal) V c).arrAt 2 cfg2.N
      = Cert.LayerSpec.layer (V c (Pipeline.arrRef spec2 0)) (V c (Pipeline.arrRef spec2 1)) :=
  (dat2 (F := Ideal) V c).arrAt_eq_of_cover 2 _
    (fun t hf => flushed_closing2 V c t ((flush2_2 t).mp hf)) out_cover2

end Cert.KernelIdeal.Chain

end
-- ==== Proof.KI.KernelValue.lean ====
import proofs.«181803_j65481071399768_2_alg».proof.Proof.KI.MainRun
import proofs.«181803_j65481071399768_2_alg».proof.Proof.KI.HostTail
import proofs.«181803_j65481071399768_2_alg».proof.Proof.KI.LayerArray0
import proofs.«181803_j65481071399768_2_alg».proof.Proof.KI.LayerArray1
import proofs.«181803_j65481071399768_2_alg».proof.Proof.KI.LayerArray2
import proofs.«181803_j65481071399768_2_alg».proof.Proof.LayerSpec

/-!
# The value the program returns, as one function of its four arguments

Over the extended reals a change of float format is the identity, so the first stretch of array operations hands
each layer its weight matrix and the first layer the input matrix, unchanged. Each layer's region leaves
tanh (W · h) of the two matrices it found; a later region finds an earlier one's output where that one left it,
since nothing between them writes it. The last stretch applies the tail to the third layer's output. Composing:
the result is the tail of the three layers applied in turn to the input.
-/

set_option maxRecDepth 16384

noncomputable section

namespace Cert.KernelIdeal.Chain

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.LayerSpec (layer Sq)

variable (m : (ℓ : Loc nD τ sig) → Buf (Elt Ideal) ℓ) (ρ : Dev nD → PrngReg)

/-! ## After the casts: each cast's result is its argument -/

theorem W1_main_v0 (c : Dev nD) :
    (W1 (F := Ideal) m ρ c (Proc.devRef .tc main_v0) : Sq.Idx → EReal) = m ((c.tc : Thread nD τ).loc main_arg0) := by
  after_results_simp
  rfl

theorem W1_main_v1 (c : Dev nD) :
    (W1 (F := Ideal) m ρ c (Proc.devRef .tc main_v1) : Sq.Idx → EReal) = m ((c.tc : Thread nD τ).loc main_arg1) := by
  after_results_simp
  rfl

theorem W1_main_v2 (c : Dev nD) :
    (W1 (F := Ideal) m ρ c (Proc.devRef .tc main_v2) : Sq.Idx → EReal) = m ((c.tc : Thread nD τ).loc main_arg2) := by
  after_results_simp
  rfl

theorem W1_main_v3 (c : Dev nD) :
    (W1 (F := Ideal) m ρ c (Proc.devRef .tc main_v3) : Sq.Idx → EReal) = m ((c.tc : Thread nD τ).loc main_arg3) := by
  after_results_simp
  rfl

/-! ## Layer by layer -/

/-- The first layer's output, where its region leaves it. -/
theorem out0 (c : Dev nD) :
    (W2 (F := Ideal) m ρ c (Proc.devRef .tc main_v4) : Sq.Idx → EReal)
      = layer (m ((c.tc : Thread nD τ).loc main_arg1)) (m ((c.tc : Thread nD τ).loc main_arg0)) :=
  ((W2_arr m ρ c 2).trans (layer_array0 (V1 m ρ) c)).trans
    (congrArg₂ layer (W1_main_v1 m ρ c) (W1_main_v0 m ρ c))

/-- The second layer's output: its region finds the second weight as the casts left it and the first layer's output
    as the first region left it. -/
theorem out1 (c : Dev nD) :
    (W3 (F := Ideal) m ρ c (Proc.devRef .tc main_v5) : Sq.Idx → EReal)
      = layer (m ((c.tc : Thread nD τ).loc main_arg2))
          (layer (m ((c.tc : Thread nD τ).loc main_arg1)) (m ((c.tc : Thread nD τ).loc main_arg0))) :=
  ((W3_arr m ρ c 2).trans (layer_array1 (V2 m ρ) c)).trans
    (congrArg₂ layer ((W2_of_ne m ρ c main_v2 (by decide)).trans (W1_main_v2 m ρ c)) (out0 m ρ c))

/-- The third layer's output. -/
theorem out2 (c : Dev nD) :
    (W4 (F := Ideal) m ρ c (Proc.devRef .tc main_v6) : Sq.Idx → EReal)
      = layer (m ((c.tc : Thread nD τ).loc main_arg3))
          (layer (m ((c.tc : Thread nD τ).loc main_arg2))
            (layer (m ((c.tc : Thread nD τ).loc main_arg1)) (m ((c.tc : Thread nD τ).loc main_arg0)))) :=
  ((W4_arr m ρ c 2).trans (layer_array2 (V3 m ρ) c)).trans
    (congrArg₂ layer (((W3_of_ne m ρ c main_v3 (by decide)).trans (W2_of_ne m ρ c main_v3 (by decide))).trans (W1_main_v3 m ρ c))
      (out1 m ρ c))

/-- What the program leaves in its result: the tail of the three layers applied in turn to the input. -/
theorem kernel_value (c : Dev nD) :
    (W5 (F := Ideal) m ρ c (Proc.devRef .tc main_v23) : S8192.Idx → EReal)
      = tail (F := Ideal) (layer (m ((c.tc : Thread nD τ).loc main_arg3))
          (layer (m ((c.tc : Thread nD τ).loc main_arg2))
            (layer (m ((c.tc : Thread nD τ).loc main_arg1)) (m ((c.tc : Thread nD τ).loc main_arg0))))) :=
  (tail_eq (W4 m ρ c)).trans (congrArg (tail (F := Ideal)) (out2 m ρ c))

end Cert.KernelIdeal.Chain

end
-- ==== Proof.RefValue.lean ====
import proofs.«181803_j65481071399768_2_alg».proof.Proof.Gen.ReferenceIdeal.Run
import proofs.«181803_j65481071399768_2_alg».proof.Proof.Gen.ReferenceIdeal.Read
import proofs.«181803_j65481071399768_2_alg».proof.Proof.LayerSpec
import proofs.«181803_j65481071399768_2_alg».proof.Proof.KI.HostTail

/-!
# The value of the reference

The reference applies the layer h ↦ tanh (W · h) three times, with whole-matrix products, and then the same
closing stretch of array operations as the blocked program. Read at an index, each of its products is the
contraction the layer's specification names; its closing stretch is, operation by operation, the tail.
-/

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read
open Cert.LayerSpec
open scoped BigOperators

/-! ## The operand indices of a whole-matrix product are row (i 0, k) and column (k, i 1) -/

theorem lidx0_eq (i : S4096x4096.Idx) (k : Fin 4096) : lidx_main_v0 i k = ix2 (n0 := 4096) (n1 := 4096) (i 0) k :=
  funext fun a => Fin.ext (by match a with | ⟨0, _⟩ => rfl | ⟨1, _⟩ => rfl)
theorem ridx0_eq (i : S4096x4096.Idx) (k : Fin 4096) : ridx_main_v0 i k = ix2 (n0 := 4096) (n1 := 4096) k (i 1) :=
  funext fun a => Fin.ext (by match a with | ⟨0, _⟩ => rfl | ⟨1, _⟩ => rfl)
theorem lidx2_eq (i : S4096x4096.Idx) (k : Fin 4096) : lidx_main_v2 i k = ix2 (n0 := 4096) (n1 := 4096) (i 0) k :=
  funext fun a => Fin.ext (by match a with | ⟨0, _⟩ => rfl | ⟨1, _⟩ => rfl)
theorem ridx2_eq (i : S4096x4096.Idx) (k : Fin 4096) : ridx_main_v2 i k = ix2 (n0 := 4096) (n1 := 4096) k (i 1) :=
  funext fun a => Fin.ext (by match a with | ⟨0, _⟩ => rfl | ⟨1, _⟩ => rfl)
theorem lidx4_eq (i : S4096x4096.Idx) (k : Fin 4096) : lidx_main_v4 i k = ix2 (n0 := 4096) (n1 := 4096) (i 0) k :=
  funext fun a => Fin.ext (by match a with | ⟨0, _⟩ => rfl | ⟨1, _⟩ => rfl)
theorem ridx4_eq (i : S4096x4096.Idx) (k : Fin 4096) : ridx_main_v4 i k = ix2 (n0 := 4096) (n1 := 4096) k (i 1) :=
  funext fun a => Fin.ext (by match a with | ⟨0, _⟩ => rfl | ⟨1, _⟩ => rfl)

/-! ## The three layers -/

/-- The first product and tangent are the layer of the first weight on the input. -/
theorem layer1_eq (x W0 : (⟨S4096x4096, .f32⟩ : BufTy).Contents (Elt Ideal)) :
    val_main_v1 (F := Ideal) x W0 = layer W0 x := by
  funext i
  rw [val_main_v1_apply, val_main_v0_apply]
  simp only [lidx0_eq, ridx0_eq, Ideal.hostUnary_tanh_def]
  rfl

/-- The second product and tangent are the layer of the second weight on the first layer's result. -/
theorem layer2_eq (x W0 W1 : (⟨S4096x4096, .f32⟩ : BufTy).Contents (Elt Ideal)) :
    val_main_v3 (F := Ideal) x W0 W1 = layer W1 (layer W0 x) := by
  funext i
  rw [val_main_v3_apply, val_main_v2_apply, layer1_eq]
  simp only [lidx2_eq, ridx2_eq, Ideal.hostUnary_tanh_def]
  rfl

/-- The third product and tangent are the layer of the third weight on the second layer's result. -/
theorem layer3_eq (x W0 W1 W2 : (⟨S4096x4096, .f32⟩ : BufTy).Contents (Elt Ideal)) :
    val_main_v5 (F := Ideal) x W0 W1 W2 = layer W2 (layer W1 (layer W0 x)) := by
  funext i
  rw [val_main_v5_apply, val_main_v4_apply, layer2_eq]
  simp only [lidx4_eq, ridx4_eq, Ideal.hostUnary_tanh_def]
  rfl

/-! ## The closing stretch -/

variable {F : FTy → Type} [FloatOps F]

/-- The reference's closing stretch of array operations is the tail of its third layer's result: the same
    operations in the same order, for any float values. -/
theorem closing_eq (x W0 W1 W2 : (⟨S4096x4096, .f32⟩ : BufTy).Contents (Elt F)) :
    val_main_v22 (F := F) x W0 W1 W2 = Cert.KernelIdeal.Chain.tail (F := F) (val_main_v5 (F := F) x W0 W1 W2) := rfl

/-- The reference's result, as a function of its four arguments. -/
theorem value_eq (x W0 W1 W2 : (⟨S4096x4096, .f32⟩ : BufTy).Contents (Elt Ideal)) :
    val_main_v22 (F := Ideal) x W0 W1 W2 = Cert.KernelIdeal.Chain.tail (F := Ideal) (layer W2 (layer W1 (layer W0 x))) := by
  rw [closing_eq, layer3_eq]

/-- The term the reference's run states for its result is the tail of the three layers of its arguments. -/
theorem res_eq (m : (ℓ : Loc nD τ sig) → Buf (Elt Ideal) ℓ) (c : Dev nD) :
    Cert.ReferenceIdeal.Value.res_main_v22 m c
      = Cert.KernelIdeal.Chain.tail (F := Ideal)
          (layer (m ((c.tc : Thread nD τ).loc main_arg3))
            (layer (m ((c.tc : Thread nD τ).loc main_arg2))
              (layer (m ((c.tc : Thread nD τ).loc main_arg1)) (m ((c.tc : Thread nD τ).loc main_arg0))))) :=
  (val_main_v22_eq (F := Ideal) m c).trans (value_eq _ _ _ _)

end Cert.ReferenceIdeal.RefValue

end
-- ==== Proof.lean ====
/-
  Both programs compute softmax (c ++ (1 - c)) with c = cos (row means of h₃), where h₀ = x and
  hₖ₊₁ = tanh (Wₖ · hₖ) for the three 4096 × 4096 weights. The reference forms each product W · h whole. The
  blocked program forms every 1024 × 1024 block of it as two half-products accumulated from zero: the contraction
  over 4096 indices split into its lower and its upper 2048. At the extended reals the narrowing casts are the
  identity and the two arrangements are joined by one law: a finite sum is the sum of its two halves, the first
  added to zero — associativity of addition and 0 + a = a, with no finiteness of any term. What follows the third
  layer is the same sequence of array operations in both programs, carried as one function of h₃ and never opened.
  So both results are that function of the three layers of the arguments, and the arguments end as launched.
-/
import proofs.«181803_j65481071399768_2_alg».proof.Defs
import proofs.«181803_j65481071399768_2_alg».proof.Proof.Gen.Kernel
import proofs.«181803_j65481071399768_2_alg».proof.Proof.Gen.KernelIdeal
import proofs.«181803_j65481071399768_2_alg».proof.Proof.Gen.ReferenceIdeal
import proofs.«181803_j65481071399768_2_alg».proof.Proof.Gen.Pre_finite_inputs
import proofs.«181803_j65481071399768_2_alg».proof.Proof.Gen.ReferenceIdeal.Run
import proofs.«181803_j65481071399768_2_alg».proof.Proof.KI.MainRun
import proofs.«181803_j65481071399768_2_alg».proof.Proof.K.MainRun
import proofs.«181803_j65481071399768_2_alg».proof.Proof.KI.KernelValue
import proofs.«181803_j65481071399768_2_alg».proof.Proof.RefValue
import Idealize.ShloMosaic.Adequacy
import Idealize.ShloMosaic.Init

noncomputable section

namespace Cert.Proof

open Idealize.ShloMosaic Idealize.ShloMosaic.TcCoe Idealize.SL.Sem
open Cert.LayerSpec

/-- The program as printed runs and leaves its arguments as launched. -/
theorem frame_k : Cert.frame_Kernel := fun m ρ _ => Cert.Kernel.Chain.frame (F := Bits) m ρ

/-- So does the program read at the extended reals. -/
theorem frame_ki : Cert.frame_KernelIdeal := fun m ρ _ => Cert.KernelIdeal.Chain.frame (F := Ideal) m ρ

/-- So does the reference: its run states the arguments unchanged beside its result. -/
theorem frame_ri : Cert.frame_ReferenceIdeal := fun m ρ _ =>
  (θ_run Cert.ReferenceIdeal.defs _ _).mono (fun _ h c => (h c).2) (Cert.ReferenceIdeal.Value.run (F := Ideal) m ρ)

/-- At the extended reals, from memories that agree on the four arguments, both programs end with the tail of the
    three layers of the arguments in their result, and with the arguments as launched. -/
theorem algebraic : Cert.algebraic_KernelIdeal_ReferenceIdeal := by
  intro m ρ m' ρ' _ hagree
  refine ⟨fun c => Cert.KernelIdeal.Chain.tail (F := Ideal)
      (layer (m ((c.tc : Thread Cert.KernelIdeal.nD Cert.KernelIdeal.τ).loc Cert.KernelIdeal.main_arg3))
        (layer (m ((c.tc : Thread Cert.KernelIdeal.nD Cert.KernelIdeal.τ).loc Cert.KernelIdeal.main_arg2))
          (layer (m ((c.tc : Thread Cert.KernelIdeal.nD Cert.KernelIdeal.τ).loc Cert.KernelIdeal.main_arg1))
            (m ((c.tc : Thread Cert.KernelIdeal.nD Cert.KernelIdeal.τ).loc Cert.KernelIdeal.main_arg0))))), ?_, ?_⟩
  · exact (θ_run Cert.KernelIdeal.defs _ _).mono
      (fun _ h c => ⟨(h c).1.trans (Cert.KernelIdeal.Chain.kernel_value m ρ c), (h c).2⟩)
      (Cert.KernelIdeal.Chain.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
